-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S32x10 .f32) (main_arg9 : FVec F S32x10 .f32) (main_arg10 : FVec F S10 .f32) (main_v33 : IVec S_ 1) : IVec S_ 1 :=
  let main_v34 : FVec F S32x10 .f32 := Host.absf main_arg8
  let main_cst_12 : FVec F S_ .f32 := constant S_ .f32 0x7F800000#32
  let main_v35 : FVec F S32x10 .f32 := broadcastInDim S32x10 ![] bcast_S_S32x10 main_cst_12
  let main_v36 : IVec S32x10 1 := cmpf .olt main_v34 main_v35
  let main_c_13 : IVec S_ 1 := constantI S_ 1 1#1
  let main_v37 : IVec S_ 1 := (fun x v => Host.reduce IntOp.andi x v reducesTo_S32x10_S_d0_1 h_S_) main_v36 main_c_13
  let main_v38 : IVec S_ 1 := andi main_v33 main_v37
  let main_v39 : FVec F S32x10 .f32 := Host.absf main_arg9
  let main_cst_14 : FVec F S_ .f32 := constant S_ .f32 0x7F800000#32
  let main_v40 : FVec F S32x10 .f32 := broadcastInDim S32x10 ![] bcast_S_S32x10 main_cst_14
  let main_v41 : IVec S32x10 1 := cmpf .olt main_v39 main_v40
  let main_c_15 : IVec S_ 1 := constantI S_ 1 1#1
  let main_v42 : IVec S_ 1 := (fun x v => Host.reduce IntOp.andi x v reducesTo_S32x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg5 : FVec F S64x32 .f32) (main_arg6 : FVec F S64x32 .f32) (main_arg7 : FVec F S32 .f32) (main_arg8 : FVec F S32x10 .f32) (main_arg9 : FVec F S32x10 .f32) (main_arg10 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1200000 32) (main_arg2 : FVec F S64x64 .f32) (main_arg3 : FVec F S64x64 .f32) (main_arg4 : FVec F S64 .f32) (main_arg5 : FVec F S64x32 .f32) (main_arg6 : FVec F S64x32 .f32) (main_arg7 : FVec F S32 .f32) (main_arg8 : FVec F S32x10 .f32) (main_arg9 : FVec F S32x10 .f32) (main_arg10 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S4000x64 : Shape := ⟨2, ![4000, 64]⟩
abbrev S4000x1 : Shape := ⟨2, ![4000, 1]⟩
abbrev S4000 : Shape := ⟨1, ![4000]⟩
abbrev S1x32 : Shape := ⟨2, ![1, 32]⟩
abbrev S100000x32 : Shape := ⟨2, ![100000, 32]⟩
abbrev S4000x32 : Shape := ⟨2, ![4000, 32]⟩
abbrev S1200000x32 : Shape := ⟨2, ![1200000, 32]⟩
abbrev S1x10 : Shape := ⟨2, ![1, 10]⟩
abbrev S100000x10 : Shape := ⟨2, ![100000, 10]⟩
abbrev S4000x10 : Shape := ⟨2, ![4000, 10]⟩

abbrev nBuf : Space → Nat
  | .hbm => 77
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S32x10, .f32⟩
  | .hbm, ⟨9, _⟩ => ⟨S32x10, .f32⟩
  | .hbm, ⟨10, _⟩ => ⟨S10, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .f32⟩
  | .hbm, ⟨16, _⟩ => ⟨S1200000, .f32⟩
  | .hbm, ⟨17, _⟩ => ⟨S_, .f32⟩
  | .hbm, ⟨18, _⟩ => ⟨S100000, .f32⟩
  | .hbm, ⟨19, _⟩ => ⟨S1200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .bf16⟩
  | .hbm, ⟨29, _⟩ => ⟨S_, .i32⟩
  | .hbm, ⟨30, _⟩ => ⟨S1200000, .i32⟩
  | .hbm, ⟨31, _⟩ => ⟨S1200000, .i1⟩
  | .hbm, ⟨32, _⟩ => ⟨S_, .i32⟩
  | .hbm, ⟨33, _⟩ => ⟨S1200000, .i32⟩
  | .hbm, ⟨34, _⟩ => ⟨S1200000, .i32⟩
  | .hbm, ⟨35, _⟩ => ⟨S1200000, .i32⟩
  | .hbm, ⟨36, _⟩ => ⟨S1200000x1, .i32⟩
  | .hbm, ⟨37, _⟩ => ⟨S1200000x64, .bf16⟩
  | .hbm, ⟨38, _⟩ => ⟨S1200000x64, .f32⟩
  | .hbm, ⟨39, _⟩ => ⟨S_, .f32⟩
  | .hbm, ⟨40, _⟩ => ⟨S100000x64, .f32⟩
  | .hbm, ⟨41, _⟩ => ⟨S1200000x1, .i32⟩
  | .hbm, ⟨42, _⟩ => ⟨S100000x64, .f32⟩
  | .hbm, ⟨43, _⟩ => ⟨S1x64, .f32⟩
  | .hbm, ⟨44, _⟩ => ⟨S100000x64, .bf16⟩
  | .hbm, ⟨45, _⟩ => ⟨S_, .i32⟩
  | .hbm, ⟨46, _⟩ => ⟨S1200000, .i32⟩
  | .hbm, ⟨47, _⟩ => ⟨S1200000, .i1⟩
  | .hbm, ⟨48, _⟩ => ⟨S_, .i32⟩
  | .hbm, ⟨49, _⟩ => ⟨S1200000, .i32⟩
  | .hbm, ⟨50, _⟩ => ⟨S1200000, .i32⟩
  | .hbm, ⟨51, _⟩ => ⟨S1200000, .i32⟩
  | .hbm, ⟨52, _⟩ => ⟨S1200000x1, .i32⟩
  | .hbm, ⟨53, _⟩ => ⟨S1200000x64, .bf16⟩
  | .hbm, ⟨54, _⟩ => ⟨S1200000x64, .f32⟩
  | .hbm, ⟨55, _⟩ => ⟨S_, .f32⟩
  | .hbm, ⟨56, _⟩ => ⟨S100000x64, .f32⟩
  | .hbm, ⟨57, _⟩ => ⟨S1200000x1, .i32⟩
  | .hbm, ⟨58, _⟩ => ⟨S100000x64, .f32⟩
  | .hbm, ⟨59, _⟩ => ⟨S1x32, .f32⟩
  | .hbm, ⟨60, _⟩ => ⟨S100000x32, .bf16⟩
  | .hbm, ⟨61, _⟩ => ⟨S_, .i32⟩
  | .hbm, ⟨62, _⟩ => ⟨S1200000, .i32⟩
  | .hbm, ⟨63, _⟩ => ⟨S1200000, .i1⟩
  | .hbm, ⟨64, _⟩ => ⟨S_, .i32⟩
  | .hbm, ⟨65, _⟩ => ⟨S1200000, .i32⟩
  | .hbm, ⟨66, _⟩ => ⟨S1200000, .i32⟩
  | .hbm, ⟨67, _⟩ => ⟨S1200000, .i32⟩
  | .hbm, ⟨68, _⟩ => ⟨S1200000x1, .i32⟩
  | .hbm, ⟨69, _⟩ => ⟨S1200000x32, .bf16⟩
  | .hbm, ⟨70, _⟩ => ⟨S1200000x32, .f32⟩
  | .hbm, ⟨71, _⟩ => ⟨S_, .f32⟩
  | .hbm, ⟨72, _⟩ => ⟨S100000x32, .f32⟩
  | .hbm, ⟨73, _⟩ => ⟨S1200000x1, .i32⟩
  | .hbm, ⟨74, _⟩ => ⟨S100000x32, .f32⟩
  | .hbm, ⟨75, _⟩ => ⟨S1x10, .f32⟩
  | .hbm, ⟨76, _⟩ => ⟨S100000x10, .f32⟩
  | .local _ .vmem, ⟨0, _⟩ => ⟨S4000x64, .f32⟩
  | .local _ .vmem, ⟨1, _⟩ => ⟨S4000x64, .f32⟩
  | .local _ .vmem, ⟨2, _⟩ => ⟨S4000x64, .bf16⟩
  | .local _ .vmem, ⟨3, _⟩ => ⟨S4000x64, .bf16⟩
  | .local _ .vmem, ⟨4, _⟩ => ⟨S4000x1, .f32⟩
  | .local _ .vmem, ⟨5, _⟩ => ⟨S4000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S4000x64, .bf16⟩
  | .local _ .vmem, ⟨10, _⟩ => ⟨S4000x64, .bf16⟩
  | .local _ .vmem, ⟨11, _⟩ => ⟨S4000x64, .f32⟩
  | .local _ .vmem, ⟨12, _⟩ => ⟨S4000x64, .f32⟩
  | .local _ .vmem, ⟨13, _⟩ => ⟨S4000x64, .bf16⟩
  | .local _ .vmem, ⟨14, _⟩ => ⟨S4000x64, .bf16⟩
  | .local _ .vmem, ⟨15, _⟩ => ⟨S4000x1, .f32⟩
  | .local _ .vmem, ⟨16, _⟩ => ⟨S4000x1, .f32⟩
  | .local _ .vmem, ⟨17, _⟩ => ⟨S64x32, .f32⟩
  | .local _ .vmem, ⟨18, _⟩ => ⟨S64x32, .f32⟩
  | .local _ .vmem, ⟨19, _⟩ => ⟨S1x32, .f32⟩
  | .local _ .vmem, ⟨20, _⟩ => ⟨S4000x32, .bf16⟩
  | .local _ .vmem, ⟨21, _⟩ => ⟨S4000x32, .bf16⟩
  | .local _ .vmem, ⟨22, _⟩ => ⟨S4000x32, .f32⟩
  | .local _ .vmem, ⟨23, _⟩ => ⟨S4000x32, .f32⟩
  | .local _ .vmem, ⟨24, _⟩ => ⟨S4000x32, .bf16⟩
  | .local _ .vmem, ⟨25, _⟩ => ⟨S4000x32, .bf16⟩
  | .local _ .vmem, ⟨26, _⟩ => ⟨S4000x1, .f32⟩
  | .local _ .vmem, ⟨27, _⟩ => ⟨S4000x1, .f32⟩
  | .local _ .vmem, ⟨28, _⟩ => ⟨S32x10, .f32⟩
  | .local _ .vmem, ⟨29, _⟩ => ⟨S32x10, .f32⟩
  | .local _ .vmem, ⟨30, _⟩ => ⟨S1x10, .f32⟩
  | .local _ .vmem, ⟨31, _⟩ => ⟨S4000x10, .f32⟩
  | .local _ .vmem, ⟨32, _⟩ => ⟨S4000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x32 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x10 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  bitsLt_bf16_f32 : FTy.bits .bf16 < FTy.bits .f32
  bcast_S_S100000x64 : S_.BroadcastsInDim S100000x64 (![] : Fin 0 → Fin S100000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  packedbf16_S4000x64_S4000x64_0_0 : (Rect.unit (s := S4000x64) ![0, 0] S4000x64.size inb_S4000x64_S4000x64_0_0).PackedRows (EltTy.packing .bf16)
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  reduces_S4000x32_S4000 : S4000x32.Reduces [1] S4000
  broadcasts_S4000x1_S4000x32 : S4000x1.Broadcasts S4000x32
  inb_S4000x32_S4000x32_0_0 : ∀ a, (![0, 0] : Fin 2 → Nat) a + S4000x32.size a ≤ S4000x32.size a
  h_S4000x32 : 0 < S4000x32.numel
  packedbf16_S4000x32_S4000x32_0_0 : (Rect.unit (s := S4000x32) ![0, 0] S4000x32.size inb_S4000x32_S4000x32_0_0).PackedRows (EltTy.packing .bf16)
  bcast_S_S100000x32 : S_.BroadcastsInDim S100000x32 (![] : Fin 0 → Fin S100000x32.rank)
  shapeCasts_S10_S1x10 : S10.ShapeCasts S1x10
  shapeCasts_S4000x32_S4000x32 : S4000x32.ShapeCasts S4000x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4000x10 : S1x10.Broadcasts S4000x10
  reduces_S4000x10_S4000 : S4000x10.Reduces [1] S4000
  broadcasts_S4000x1_S4000x10 : S4000x1.Broadcasts S4000x10
  inb_S4000x10_S4000x10_0_0 : ∀ a, (![0, 0] : Fin 2 → Nat) a + S4000x10.size a ≤ S4000x10.size a
  h_S4000x10 : 0 < S4000x10.numel
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S4000x64_S64x64_S4000x64_1_0_0_1_n_n_wf : DotDims.WF S4000x64 S64x64 S4000x64 [1] [0] [0] [1] [] []
  dot_S4000x64_S64x32_S4000x32_1_0_0_1_n_n_wf : DotDims.WF S4000x64 S64x32 S4000x32 [1] [0] [0] [1] [] []
  gather_S100000x32_S1200000x1_S1200000x32_1_0_n_n_0_1_132_wf : GatherDims.WF S100000x32 S1200000x1 S1200000x32 [1] [0] [] [0] [] 1 ![1, 32]
  scatter_S100000x32_S1200000x1_S1200000x32_1_0_0_1_wf : ScatterDims.WF S100000x32 S1200000x1 S1200000x32 [1] [0] [0] 1
  dot_S4000x32_S32x10_S4000x10_1_0_0_1_n_n_wf : DotDims.WF S4000x32 S32x10 S4000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .bf16 = 32 ∨ (Rect.block (s := S100000x64) S4000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .bf16 = 32 ∨ (Rect.block (s := S100000x64) S4000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .bf16 = 32 ∨ (Rect.block (s := S100000x64) S4000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x32.size a ≤ S100000x32.size a
  hwx1_6 : ∀ i : grid1.Coords, EltTy.bits .bf16 = 32 ∨ (Rect.block (s := S100000x32) S4000x32.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x32.size a ≤ S100000x32.size a
  hwx2_1 : ∀ i : grid2.Coords, EltTy.bits .bf16 = 32 ∨ (Rect.block (s := S100000x32) S4000x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x10.size a ≤ S32x10.size a
  hwx2_3 : ∀ i : grid2.Coords, EltTy.bits .f32 = 32 ∨ (Rect.block (s := S32x10) S32x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x10.size a ≤ S32x10.size a
  hwx2_4 : ∀ i : grid2.Coords, EltTy.bits .f32 = 32 ∨ (Rect.block (s := S32x10) S32x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x10.size a ≤ S1x10.size a
  hwx2_5 : ∀ i : grid2.Coords, EltTy.bits .f32 = 32 ∨ (Rect.block (s := S1x10) S1x10.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x10.size a ≤ S100000x10.size a
  hwx2_6 : ∀ i : grid2.Coords, EltTy.bits .f32 = 32 ∨ (Rect.block (s := S100000x10) S4000x10.size (cc2_transform_6 i) (hinb2_6 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S100000x32_S1200000x1_S1200000x32_1_0_0_1 : ScatterDims S100000x32 S1200000x1 S1200000x32 where
  updateWindowDims := [1]
  insertedWindowDims := [0]
  scatterDimsToOperandDims := [0]
  indexVectorDim := 1
  wf := scatter_S100000x32_S1200000x1_S1200000x32_1_0_0_1_wf
def dot_S4000x32_S32x10_S4000x10_1_0_0_1_n_n : DotDims S4000x32 S32x10 S4000x10 where
  lhsContracting := [1]
  rhsContracting := [0]
  lhsNonContracting := [0]
  rhsNonContracting := [1]
  lhsBatch := []
  rhsBatch := []
  wf := dot_S4000x32_S32x10_S4000x10_1_0_0_1_n_n_wf

abbrev win0_0 : Pipeline.Window sig grid0 :=
  Pipeline.Window.ofSpec (Memref.whole main_v24) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S4000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S4000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S32x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S32x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S4000x10.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S1200000x32 : Shape := ⟨2, ![1200000, 32]⟩
abbrev S100000x10 : Shape := ⟨2, ![100000, 10]⟩
abbrev S1x10 : Shape := ⟨2, ![1, 10]⟩

abbrev nBuf : Space → Nat
  | .hbm => 159
  | .vmem => 0
  | .smem => 0
  | _ => 0

abbrev hbmTy0_0 (i : Nat) : BufTy := match i % 128 with
  | 0 => ⟨S100000x64, .f32⟩
  | 1 => ⟨S2x1200000, .i32⟩
  | 2 => ⟨S64x64, .f32⟩
  | 3 => ⟨S64x64, .f32⟩
  | 4 => ⟨S64, .f32⟩
  | 5 => ⟨S64x32, .f32⟩
  | 6 => ⟨S64x32, .f32⟩
  | 7 => ⟨S32, .f32⟩
  | 8 => ⟨S32x10, .f32⟩
  | 9 => ⟨S32x10, .f32⟩
  | 10 => ⟨S10, .f32⟩
  | 11 => ⟨S1x1200000, .i32⟩
  | 12 => ⟨S1200000, .i32⟩
  | 13 => ⟨S1x1200000, .i32⟩
  | 14 => ⟨S1200000, .i32⟩
  | 15 => ⟨S_, .i32⟩
  | 16 => ⟨S1200000, .i32⟩
  | 17 => ⟨S1200000, .i1⟩
  | 18 => ⟨S_, .i32⟩
  | 19 => ⟨S1200000, .i32⟩
  | 20 => ⟨S1200000, .i32⟩
  | 21 => ⟨S1200000, .i32⟩
  | 22 => ⟨S1200000x1, .i32⟩
  | 23 => ⟨S1200000x64, .f32⟩
  | 24 => ⟨S_, .f32⟩
  | 25 => ⟨S100000x64, .f32⟩
  | 26 => ⟨S1200000x1, .i32⟩
  | 27 => ⟨S100000x64, .f32⟩
  | 28 => ⟨S_, .f32⟩
  | 29 => ⟨S1200000, .f32⟩
  | 30 => ⟨S_, .f32⟩
  | 31 => ⟨S100000, .f32⟩
  | 32 => ⟨S1200000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S100000x64, .f32⟩
  | 45 => ⟨S100000x64, .f32⟩
  | 46 => ⟨S100000x64, .f32⟩
  | 47 => ⟨S_, .f32⟩
  | 48 => ⟨S100000, .f32⟩
  | 49 => ⟨S100000x1, .f32⟩
  | 50 => ⟨S100000x1, .f32⟩
  | 51 => ⟨S_, .f32⟩
  | 52 => ⟨S100000x1, .f32⟩
  | 53 => ⟨S100000x1, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S_, .i32⟩
  | 60 => ⟨S1200000, .i32⟩
  | 61 => ⟨S1200000, .i1⟩
  | 62 => ⟨S_, .i32⟩
  | 63 => ⟨S1200000, .i32⟩
  | 64 => ⟨S1200000, .i32⟩
  | 65 => ⟨S1200000, .i32⟩
  | 66 => ⟨S1200000x1, .i32⟩
  | 67 => ⟨S1200000x64, .f32⟩
  | 68 => ⟨S_, .f32⟩
  | 69 => ⟨S100000x64, .f32⟩
  | 70 => ⟨S1200000x1, .i32⟩
  | 71 => ⟨S100000x64, .f32⟩
  | 72 => ⟨S_, .f32⟩
  | 73 => ⟨S1200000, .f32⟩
  | 74 => ⟨S_, .f32⟩
  | 75 => ⟨S100000, .f32⟩
  | 76 => ⟨S1200000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x64, .f32⟩
  | 83 => ⟨S100000x64, .f32⟩
  | 84 => ⟨S100000x32, .f32⟩
  | 85 => ⟨S1x32, .f32⟩
  | 86 => ⟨S100000x32, .f32⟩
  | 87 => ⟨S100000x32, .f32⟩
  | 88 => ⟨S100000x32, .f32⟩
  | 89 => ⟨S100000x32, .f32⟩
  | 90 => ⟨S100000x32, .f32⟩
  | 91 => ⟨S_, .f32⟩
  | 92 => ⟨S100000, .f32⟩
  | 93 => ⟨S100000x1, .f32⟩
  | 94 => ⟨S100000x1, .f32⟩
  | 95 => ⟨S_, .f32⟩
  | 96 => ⟨S100000x1, .f32⟩
  | 97 => ⟨S100000x1, .f32⟩
  | 98 => ⟨S100000x32, .f32⟩
  | 99 => ⟨S100000x32, .f32⟩
  | 100 => ⟨S_, .f32⟩
  | 101 => ⟨S100000x32, .f32⟩
  | 102 => ⟨S100000x32, .f32⟩
  | 103 => ⟨S_, .i32⟩
  | 104 => ⟨S1200000, .i32⟩
  | 105 => ⟨S1200000, .i1⟩
  | 106 => ⟨S_, .i32⟩
  | 107 => ⟨S1200000, .i32⟩
  | 108 => ⟨S1200000, .i32⟩
  | 109 => ⟨S1200000, .i32⟩
  | 110 => ⟨S1200000x1, .i32⟩
  | 111 => ⟨S1200000x32, .f32⟩
  | 112 => ⟨S_, .f32⟩
  | 113 => ⟨S100000x32, .f32⟩
  | 114 => ⟨S1200000x1, .i32⟩
  | 115 => ⟨S100000x32, .f32⟩
  | 116 => ⟨S_, .f32⟩
  | 117 => ⟨S1200000, .f32⟩
  | 118 => ⟨S_, .f32⟩
  | 119 => ⟨S100000, .f32⟩
  | 120 => ⟨S1200000x1, .i32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x32, .f32⟩
  | 127 => ⟨S100000x32, .f32⟩
  | _ => ⟨S100000x64, .f32⟩

abbrev hbmTy0_1 (i : Nat) : BufTy := match i % 128 with
  | 0 => ⟨S100000x10, .f32⟩
  | 1 => ⟨S1x10, .f32⟩
  | 2 => ⟨S100000x10, .f32⟩
  | 3 => ⟨S100000x10, .f32⟩
  | 4 => ⟨S100000x10, .f32⟩
  | 5 => ⟨S100000x10, .f32⟩
  | 6 => ⟨S100000x10, .f32⟩
  | 7 => ⟨S_, .f32⟩
  | 8 => ⟨S100000, .f32⟩
  | 9 => ⟨S100000x1, .f32⟩
  | 10 => ⟨S100000x1, .f32⟩
  | 11 => ⟨S_, .f32⟩
  | 12 => ⟨S100000x1, .f32⟩
  | 13 => ⟨S100000x1, .f32⟩
  | 14 => ⟨S100000x10, .f32⟩
  | 15 => ⟨S100000x10, .f32⟩
  | 16 => ⟨S_, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x10, .f32⟩
  | 23 => ⟨S100000x10, .f32⟩
  | 24 => ⟨S100000x10, .f32⟩
  | 25 => ⟨S_, .f32⟩
  | 26 => ⟨S100000, .f32⟩
  | 27 => ⟨S100000x1, .f32⟩
  | 28 => ⟨S100000x1, .f32⟩
  | 29 => ⟨S100000x10, .f32⟩
  | 30 => ⟨S100000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_v0 : Ref sig .tc := ⟨.hbm, 46, rfl⟩
abbrev main_call0_cst : Ref sig .tc := ⟨.hbm, 47, rfl⟩
abbrev main_call0_v1 : Ref sig .tc := ⟨.hbm, 48, rfl⟩
abbrev main_call0_v2 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_cst : Ref sig .tc := ⟨.hbm, 56, rfl⟩
abbrev main_call1_v0 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_c_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call2_v0 : Ref sig .tc := ⟨.hbm, 90, rfl⟩
abbrev main_call2_cst : Ref sig .tc := ⟨.hbm, 91, rfl⟩
abbrev main_call2_v1 : Ref sig .tc := ⟨.hbm, 92, rfl⟩
abbrev main_call2_v2 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call3_cst : Ref sig .tc := ⟨.hbm, 100, rfl⟩
abbrev main_call3_v0 : Ref sig .tc := ⟨.hbm, 101, rfl⟩
abbrev main_v65 : Ref sig .tc := ⟨.hbm, 102, rfl⟩
abbrev main_c_12 : Ref sig .tc := ⟨.hbm, 103, rfl⟩
abbrev main_v66 : Ref sig .tc := ⟨.hbm, 104, rfl⟩
abbrev main_v67 : Ref sig .tc := ⟨.hbm, 105, rfl⟩
abbrev main_c_13 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_14 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_15 : Ref sig .tc := ⟨.hbm, 116, rfl⟩
abbrev main_v76 : Ref sig .tc := ⟨.hbm, 117, rfl⟩
abbrev main_cst_16 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_17 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call4_v0 : Ref sig .tc := ⟨.hbm, 134, rfl⟩
abbrev main_call4_cst : Ref sig .tc := ⟨.hbm, 135, rfl⟩
abbrev main_call4_v1 : Ref sig .tc := ⟨.hbm, 136, rfl⟩
abbrev main_call4_v2 : Ref sig .tc := ⟨.hbm, 137, rfl⟩
abbrev main_v91 : Ref sig .tc := ⟨.hbm, 138, rfl⟩
abbrev main_cst_18 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_call5_cst : Ref sig .tc := ⟨.hbm, 144, rfl⟩
abbrev main_call5_v0 : Ref sig .tc := ⟨.hbm, 145, rfl⟩
abbrev main_call5_cst_0 : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_v6 : Ref sig .tc := ⟨.hbm, 152, rfl⟩
abbrev main_call5_cst_1 : Ref sig .tc := ⟨.hbm, 153, rfl⟩
abbrev main_call5_v7 : Ref sig .tc := ⟨.hbm, 154, rfl⟩
abbrev main_call5_v8 : Ref sig .tc := ⟨.hbm, 155, rfl⟩
abbrev main_call5_v9 : Ref sig .tc := ⟨.hbm, 156, rfl⟩
abbrev main_call5_v10 : Ref sig .tc := ⟨.hbm, 157, rfl⟩
abbrev main_v96 : Ref sig .tc := ⟨.hbm, 158, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  bcast_S100000x1_S100000x10_0_1 : S100000x1.BroadcastsInDim S100000x10 (![0, 1] : Fin 2 → Fin S100000x10.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S1200000x1_S1200000x32_1_0_n_n_0_1_132_wf : GatherDims.WF S100000x32 S1200000x1 S1200000x32 [1] [0] [] [0] [] 1 ![1, 32]
  scatter_S100000x32_S1200000x1_S1200000x32_1_0_0_1_wf : ScatterDims.WF S100000x32 S1200000x1 S1200000x32 [1] [0] [0] 1
  dot_S100000x32_S32x10_S100000x10_1_0_0_1_n_n_wf : DotDims.WF S100000x32 S32x10 S100000x10 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S100000x32_S1200000x1_S1200000x32_1_0_0_1 : ScatterDims S100000x32 S1200000x1 S1200000x32 where
  updateWindowDims := [1]
  insertedWindowDims := [0]
  scatterDimsToOperandDims := [0]
  indexVectorDim := 1
  wf := scatter_S100000x32_S1200000x1_S1200000x32_1_0_0_1_wf
def dot_S100000x32_S32x10_S100000x10_1_0_0_1_n_n : DotDims S100000x32 S32x10 S100000x10 where
  lhsContracting := [1]
  rhsContracting := [0]
  lhsNonContracting := [0]
  rhsNonContracting := [1]
  lhsBatch := []
  rhsBatch := []
  wf := dot_S100000x32_S32x10_S100000x10_1_0_0_1_n_n_wf

class Facts : Prop extends Facts₀ where

variable [Facts]
-- ==== Proof.KRun.lean ====
import proofs.«159893_j54039278518913_2_alg».proof.Proof.PKernelIdealFrame

/-! The idealized kernel's run with its result named: every execution ends with the result array at what the last
    segment boundary holds there (the fold of the program's host stretches and regions from the launch memory), and
    with the argument arrays as launched. The launch is the frame's own, over the same segments; the one thing added is
    that the last thread state is also read at the result buffer. -/

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read at the last boundary's contents. -/
theorem run_val : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunVal

end
-- ==== Proof.LibRegionOp.lean ====
/-
  A pipelined region with one output array, read as one more line of the host program around it.

  A region's exit contents are its entry contents with the pipeline's arrays replaced by what the pipeline leaves in
  them. When every array but one is left as the region found it, and that one holds the value a host operation
  writing only that array would have computed from the entry contents, the exit contents ARE that operation's
  result on the entry contents. A program of several regions among host lines then reads, buffer by buffer, as one
  straight line of operations.
-/
import Idealize.ShloMosaic.Lib.Pipeline.FrameSuffix

noncomputable section

namespace Cert.RegionOp

open Idealize.ShloMosaic Idealize.ShloMosaic.Pipeline Idealize.ShloMosaic.TcCoe

variable {nD : Nat} {τ : Topo} {sig : RefSig} {Val : EltTy → Type}

/-- The exit contents of a region whose arrays `A` agree with the entry contents `V` except at window `o`'s array,
    where they hold what `op` — an operation writing that array only — computes from `V`: they are `op.result V`,
    at every buffer of the device. -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (o : Fin W) (op : HloOp τ sig Val)
    (hw : op.writes = {Proc.devRef .tc (arrRef win o)})
    (hin : ∀ w, w ≠ o → A w = V (Proc.devRef .tc (arrRef win w)))
    (hout : A o = op.result V (Proc.devRef .tc (arrRef win o))) :
    withArrays win c V A = op.result V := by
  funext b
  by_cases h : ∃ w, Proc.devRef .tc (arrRef win w) = b
  · obtain ⟨w, rfl⟩ := h
    rw [withArrays_arr win hinj c V A w]
    by_cases hwo : w = o
    · subst hwo; exact hout
    · rw [hin w hwo]
      refine (op.result_of_not_mem V ?_).symm
      rw [hw, Finset.mem_singleton]
      exact fun e => hwo (hinj (Proc.devRef_injective _ e))
  · have hb : withArrays win c V A b = V b := by unfold withArrays; rw [dif_neg h]
    rw [hb]
    refine (op.result_of_not_mem V ?_).symm
    rw [hw, Finset.mem_singleton]
    exact fun e => h ⟨o, e.symm⟩

end Cert.RegionOp

end
-- ==== Proof.KFold.lean ====
import proofs.«159893_j54039278518913_2_alg».proof.Proof.PKernelIdealFrame
import proofs.«159893_j54039278518913_2_alg».proof.Proof.LibRegionOp
import Idealize.ShloMosaic.Lib.StableHlo.Run

/-! The kernel program's last boundary, read back to the launch memory.

    Each region leaves every array as it found it except its output array; if that array ends at a function `G` of the
    region's six input arrays, the region acts on the memory as one more host operation writing that array. The program
    is then a straight line of operations — the host stretches with one such operation per region between them — and
    the result buffer at the last boundary is the composed term `kterm` of the argument arrays: three nested layers,
    each applied to the features summed over the edges (a gather along the sources followed by a scatter-add along the
    destinations), the previous layer's result, and the reciprocal degrees. Generic in the float type and in the three
    functions. -/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-- The contents of a buffer of shape `S` and element type `e`. -/
abbrev C (S : Shape) (e : EltTy) : Type := (⟨S, e⟩ : BufTy).Contents (Elt F)

/-! ## A six-operand operation's result, each operand at its own reference -/

section Nary6
variable {τ' : Topo} {sig' : RefSig} {Val : EltTy → Type}
theorem nary6_result {x a b c d e y : Ref sig' .tc}
    (f : ((k : Fin 6) → ((![x, a, b, c, d, e] : Fin 6 → Ref sig' .tc) k).ty.Contents Val) → y.ty.Contents Val) (hxs hy)
    (V : Valuation τ' sig' Val) :
    (nary (τ := τ') ![x, a, b, c, d, e] y f hxs hy).result V (Proc.devRef .tc y)
      = f (Fin.cons (V (Proc.devRef .tc x)) (Fin.cons (V (Proc.devRef .tc a)) (Fin.cons (V (Proc.devRef .tc b))
          (Fin.cons (V (Proc.devRef .tc c)) (Fin.cons (V (Proc.devRef .tc d)) (Fin.cons (V (Proc.devRef .tc e)) (fun i => i.elim0))))))) := by
  rw [nary_result]; congr 1; funext k; fin_cases k <;> rfl
theorem nary6_result' {x a b c d e y : Ref sig' .tc}
    (f : ((k : Fin 6) → ((![x, a, b, c, d, e] : Fin 6 → Ref sig' .tc) k).ty.Contents Val) → y.ty.Contents Val) (hxs hy)
    (V : Valuation τ' sig' Val) :
    (nary (τ := τ') ![x, a, b, c, d, e] y f hxs hy).result V (no_index (Proc.devRef .tc y))
      = f (Fin.cons (V (Proc.devRef .tc x)) (Fin.cons (V (Proc.devRef .tc a)) (Fin.cons (V (Proc.devRef .tc b))
          (Fin.cons (V (Proc.devRef .tc c)) (Fin.cons (V (Proc.devRef .tc d)) (Fin.cons (V (Proc.devRef .tc e)) (fun i => i.elim0))))))) :=
  nary6_result f hxs hy V
end Nary6

/-! ## The regions as operations -/

variable (G0 : C (F := F) S100000x64 .f32 → C (F := F) S100000x64 .bf16 → C (F := F) S100000x1 .f32 → C (F := F) S64x64 .f32
    → C (F := F) S64x64 .f32 → C (F := F) S1x64 .f32 → C (F := F) S100000x64 .bf16)
variable (G1 : C (F := F) S100000x64 .f32 → C (F := F) S100000x64 .bf16 → C (F := F) S100000x1 .f32 → C (F := F) S64x32 .f32
    → C (F := F) S64x32 .f32 → C (F := F) S1x32 .f32 → C (F := F) S100000x32 .bf16)
variable (G2 : C (F := F) S100000x32 .f32 → C (F := F) S100000x32 .bf16 → C (F := F) S100000x1 .f32 → C (F := F) S32x10 .f32
    → C (F := F) S32x10 .f32 → C (F := F) S1x10 .f32 → C (F := F) S100000x10 .f32)

/-- Region 0 as an operation: the first layer's array from its six input arrays. -/
def op0 : HloOp τ sig (Elt F) :=
  nary ![main_v24, main_v13, main_v12, main_arg2, main_arg3, main_v25] main_v26 (fun u => G0 (u 0) (u 1) (u 2) (u 3) (u 4) (u 5))
/-- Region 1 as an operation. -/
def op1 : HloOp τ sig (Elt F) :=
  nary ![main_v37, main_v26, main_v12, main_arg5, main_arg6, main_v38] main_v39 (fun u => G1 (u 0) (u 1) (u 2) (u 3) (u 4) (u 5))
/-- Region 2 as an operation. -/
def op2 : HloOp τ sig (Elt F) :=
  nary ![main_v50, main_v39, main_v12, main_arg8, main_arg9, main_v51] main_v52 (fun u => G2 (u 0) (u 1) (u 2) (u 3) (u 4) (u 5))

variable (m : (ℓ : Loc nD τ sig) → Buf (Elt F) ℓ) (ρ : Dev nD → PrngReg)

/-- Region 0 over ANY entry memory: its exit contents are its operation's result on the entry contents. -/
theorem region0 (Wf : Dev nD → Valuation τ sig (Elt F)) (c : Dev nD)
    (h0 : ∀ (V : (c : Dev nD) → (b : Ref sig .tc) → Buf (Elt F) ((c : Thread nD τ).loc b)) (c : Dev nD),
      (dat0 (F := F) V c).arrAt 6 cfg0.N = G0 (V c main_v24) (V c main_v13) (V c main_v12) (V c main_arg2) (V c main_arg3) (V c main_v25)) :
    Pipeline.withArrays spec0 c (Wf c) (fun w => (dat0 (F := F) (fun c b => Wf c b) c).arrAt w cfg0.N)
      = (op0 G0).result (Wf c) := by
  refine Cert.RegionOp.withArrays_eq_result spec0 launch0.win.arr_inj c (Wf c) _ 6 (op0 G0) rfl ?_ ?_
  · intro w hw
    fin_cases w
    · exact ((dat0 (F := F) (fun c b => Wf c b) c).arrAt_in 0 rfl _).trans (A_eq0 (fun c b => Wf c b) c 0)
    · exact ((dat0 (F := F) (fun c b => Wf c b) c).arrAt_in 1 rfl _).trans (A_eq0 (fun c b => Wf c b) c 1)
    · exact ((dat0 (F := F) (fun c b => Wf c b) c).arrAt_in 2 rfl _).trans (A_eq0 (fun c b => Wf c b) c 2)
    · exact ((dat0 (F := F) (fun c b => Wf c b) c).arrAt_in 3 rfl _).trans (A_eq0 (fun c b => Wf c b) c 3)
    · exact ((dat0 (F := F) (fun c b => Wf c b) c).arrAt_in 4 rfl _).trans (A_eq0 (fun c b => Wf c b) c 4)
    · exact ((dat0 (F := F) (fun c b => Wf c b) c).arrAt_in 5 rfl _).trans (A_eq0 (fun c b => Wf c b) c 5)
    · exact absurd rfl hw
  · refine (h0 (fun c b => Wf c b) c).trans ?_
    unfold op0
    exact (nary6_result (x := main_v24) (a := main_v13) (b := main_v12) (c := main_arg2) (d := main_arg3) (e := main_v25) (y := main_v26)
      (fun u => G0 (u 0) (u 1) (u 2) (u 3) (u 4) (u 5)) _ _ (Wf c)).symm

/-- Region 0's exit contents in the run. -/
theorem W2_eq (c : Dev nD)
    (h0 : ∀ (V : (c : Dev nD) → (b : Ref sig .tc) → Buf (Elt F) ((c : Thread nD τ).loc b)) (c : Dev nD),
      (dat0 (F := F) V c).arrAt 6 cfg0.N = G0 (V c main_v24) (V c main_v13) (V c main_v12) (V c main_arg2) (V c main_arg3) (V c main_v25)) :
    W2 m ρ c = (op0 G0).result (W1 m ρ c) := region0 G0 (W1 m ρ) c h0

/-- Region 1 over ANY entry memory: its exit contents are its operation's result on the entry contents. -/
theorem region1 (Wf : Dev nD → Valuation τ sig (Elt F)) (c : Dev nD)
    (h1 : ∀ (V : (c : Dev nD) → (b : Ref sig .tc) → Buf (Elt F) ((c : Thread nD τ).loc b)) (c : Dev nD),
      (dat1 (F := F) V c).arrAt 6 cfg1.N = G1 (V c main_v37) (V c main_v26) (V c main_v12) (V c main_arg5) (V c main_arg6) (V c main_v38)) :
    Pipeline.withArrays spec1 c (Wf c) (fun w => (dat1 (F := F) (fun c b => Wf c b) c).arrAt w cfg1.N)
      = (op1 G1).result (Wf c) := by
  refine Cert.RegionOp.withArrays_eq_result spec1 launch1.win.arr_inj c (Wf c) _ 6 (op1 G1) rfl ?_ ?_
  · intro w hw
    fin_cases w
    · exact ((dat1 (F := F) (fun c b => Wf c b) c).arrAt_in 0 rfl _).trans (A_eq1 (fun c b => Wf c b) c 0)
    · exact ((dat1 (F := F) (fun c b => Wf c b) c).arrAt_in 1 rfl _).trans (A_eq1 (fun c b => Wf c b) c 1)
    · exact ((dat1 (F := F) (fun c b => Wf c b) c).arrAt_in 2 rfl _).trans (A_eq1 (fun c b => Wf c b) c 2)
    · exact ((dat1 (F := F) (fun c b => Wf c b) c).arrAt_in 3 rfl _).trans (A_eq1 (fun c b => Wf c b) c 3)
    · exact ((dat1 (F := F) (fun c b => Wf c b) c).arrAt_in 4 rfl _).trans (A_eq1 (fun c b => Wf c b) c 4)
    · exact ((dat1 (F := F) (fun c b => Wf c b) c).arrAt_in 5 rfl _).trans (A_eq1 (fun c b => Wf c b) c 5)
    · exact absurd rfl hw
  · refine (h1 (fun c b => Wf c b) c).trans ?_
    unfold op1
    exact (nary6_result (x := main_v37) (a := main_v26) (b := main_v12) (c := main_arg5) (d := main_arg6) (e := main_v38) (y := main_v39)
      (fun u => G1 (u 0) (u 1) (u 2) (u 3) (u 4) (u 5)) _ _ (Wf c)).symm

/-- Region 1's exit contents in the run. -/
theorem W4_eq (c : Dev nD)
    (h1 : ∀ (V : (c : Dev nD) → (b : Ref sig .tc) → Buf (Elt F) ((c : Thread nD τ).loc b)) (c : Dev nD),
      (dat1 (F := F) V c).arrAt 6 cfg1.N = G1 (V c main_v37) (V c main_v26) (V c main_v12) (V c main_arg5) (V c main_arg6) (V c main_v38)) :
    W4 m ρ c = (op1 G1).result (W3 m ρ c) := region1 G1 (W3 m ρ) c h1

/-- Region 2 over ANY entry memory: its exit contents are its operation's result on the entry contents. -/
theorem region2 (Wf : Dev nD → Valuation τ sig (Elt F)) (c : Dev nD)
    (h2 : ∀ (V : (c : Dev nD) → (b : Ref sig .tc) → Buf (Elt F) ((c : Thread nD τ).loc b)) (c : Dev nD),
      (dat2 (F := F) V c).arrAt 6 cfg2.N = G2 (V c main_v50) (V c main_v39) (V c main_v12) (V c main_arg8) (V c main_arg9) (V c main_v51)) :
    Pipeline.withArrays spec2 c (Wf c) (fun w => (dat2 (F := F) (fun c b => Wf c b) c).arrAt w cfg2.N)
      = (op2 G2).result (Wf c) := by
  refine Cert.RegionOp.withArrays_eq_result spec2 launch2.win.arr_inj c (Wf c) _ 6 (op2 G2) rfl ?_ ?_
  · intro w hw
    fin_cases w
    · exact ((dat2 (F := F) (fun c b => Wf c b) c).arrAt_in 0 rfl _).trans (A_eq2 (fun c b => Wf c b) c 0)
    · exact ((dat2 (F := F) (fun c b => Wf c b) c).arrAt_in 1 rfl _).trans (A_eq2 (fun c b => Wf c b) c 1)
    · exact ((dat2 (F := F) (fun c b => Wf c b) c).arrAt_in 2 rfl _).trans (A_eq2 (fun c b => Wf c b) c 2)
    · exact ((dat2 (F := F) (fun c b => Wf c b) c).arrAt_in 3 rfl _).trans (A_eq2 (fun c b => Wf c b) c 3)
    · exact ((dat2 (F := F) (fun c b => Wf c b) c).arrAt_in 4 rfl _).trans (A_eq2 (fun c b => Wf c b) c 4)
    · exact ((dat2 (F := F) (fun c b => Wf c b) c).arrAt_in 5 rfl _).trans (A_eq2 (fun c b => Wf c b) c 5)
    · exact absurd rfl hw
  · refine (h2 (fun c b => Wf c b) c).trans ?_
    unfold op2
    exact (nary6_result (x := main_v50) (a := main_v39) (b := main_v12) (c := main_arg8) (d := main_arg9) (e := main_v51) (y := main_v52)
      (fun u => G2 (u 0) (u 1) (u 2) (u 3) (u 4) (u 5)) _ _ (Wf c)).symm

/-- Region 2's exit contents in the run. -/
theorem W6_eq (c : Dev nD)
    (h2 : ∀ (V : (c : Dev nD) → (b : Ref sig .tc) → Buf (Elt F) ((c : Thread nD τ).loc b)) (c : Dev nD),
      (dat2 (F := F) V c).arrAt 6 cfg2.N = G2 (V c main_v50) (V c main_v39) (V c main_v12) (V c main_arg8) (V c main_arg9) (V c main_v51)) :
    W6 m ρ c = (op2 G2).result (W5 m ρ c) := region2 G2 (W5 m ρ) c h2

/-! ## The composed term -/

/-- The edges' source nodes (a negative index counted from the end), as a column of gather indices. -/
def kSrc (e : C (F := F) S2x1200000 .i32) : C (F := F) S1200000x1 .i32 :=
  broadcastInDim S1200000x1 ![0] bcast_S1200000_S1200000x1_0
    (select (cmpi .slt (shapeCast S1200000 (extractStridedSlice S1x1200000 ![0, 0] e slices_S2x1200000_S1x1200000_0_0) shapeCasts_S1x1200000_S1200000)
        (broadcastInDim S1200000 ![] bcast_S_S1200000 (constantI S_ 32 0#32)))
      (addi (shapeCast S1200000 (extractStridedSlice S1x1200000 ![0, 0] e slices_S2x1200000_S1x1200000_0_0) shapeCasts_S1x1200000_S1200000)
        (broadcastInDim S1200000 ![] bcast_S_S1200000 (constantI S_ 32 100000#32)))
      (shapeCast S1200000 (extractStridedSlice S1x1200000 ![0, 0] e slices_S2x1200000_S1x1200000_0_0) shapeCasts_S1x1200000_S1200000))

/-- The edges' destination nodes, as a column of scatter indices. -/
def kDst (e : C (F := F) S2x1200000 .i32) : C (F := F) S1200000x1 .i32 :=
  broadcastInDim S1200000x1 ![0] bcast_S1200000_S1200000x1_0
    (shapeCast S1200000 (extractStridedSlice S1x1200000 ![1, 0] e slices_S2x1200000_S1x1200000_1_0) shapeCasts_S1x1200000_S1200000)

/-- The reciprocal of each node's in-degree floored at one, as a column. -/
def kInv (e : C (F := F) S2x1200000 .i32) : C (F := F) S100000x1 .f32 :=
  shapeCast S100000x1
    (Host.divf (broadcastInDim S100000 ![] bcast_S_S100000 (constant S_ .f32 0x3F800000#32))
      (maximumf
        (Host.scatterAdd scatter_S100000_S1200000x1_S1200000_n_0_0_1
          (broadcastInDim S100000 ![] bcast_S_S100000 (constant S_ .f32 0x00000000#32)) (kDst e)
          (broadcastInDim S1200000 ![] bcast_S_S1200000 (constant S_ .f32 0x3F800000#32)))
        (broadcastInDim S100000 ![] bcast_S_S100000 (constant S_ .f32 0x3F800000#32))))
    shapeCasts_S100000_S100000x1

/-- 64 features per node summed over the edges: each edge carries its source's row to its destination. -/
def kAgg64 (h : C (F := F) S100000x64 .bf16) (e : C (F := F) S2x1200000 .i32) : C (F := F) S100000x64 .f32 :=
  Host.scatterAdd scatter_S100000x64_S1200000x1_S1200000x64_1_0_0_1
    (broadcastInDim S100000x64 ![] bcast_S_S100000x64 (constant S_ .f32 0x00000000#32)) (kDst e)
    (extf .f32 (Host.gather gather_S100000x64_S1200000x1_S1200000x64_1_0_n_n_0_1_164 h (kSrc e)) bitsLt_bf16_f32)

/-- 32 features per node summed over the edges. -/
def kAgg32 (h : C (F := F) S100000x32 .bf16) (e : C (F := F) S2x1200000 .i32) : C (F := F) S100000x32 .f32 :=
  Host.scatterAdd scatter_S100000x32_S1200000x1_S1200000x32_1_0_0_1
    (broadcastInDim S100000x32 ![] bcast_S_S100000x32 (constant S_ .f32 0x00000000#32)) (kDst e)
    (extf .f32 (Host.gather gather_S100000x32_S1200000x1_S1200000x32_1_0_n_n_0_1_132 h (kSrc e)) bitsLt_bf16_f32)

/-- The first layer's array. -/
def kH1 (x : C (F := F) S100000x64 .f32) (e : C (F := F) S2x1200000 .i32) (w2 w3 : C (F := F) S64x64 .f32) (b4 : C (F := F) S64 .f32) :
    C (F := F) S100000x64 .bf16 :=
  G0 (kAgg64 (truncf .bf16 x bitsLt_bf16_f32) e) (truncf .bf16 x bitsLt_bf16_f32) (kInv e) w2 w3 (shapeCast S1x64 b4 shapeCasts_S64_S1x64)

/-- The second layer's array. -/
def kH2 (x : C (F := F) S100000x64 .f32) (e : C (F := F) S2x1200000 .i32) (w2 w3 : C (F := F) S64x64 .f32) (b4 : C (F := F) S64 .f32)
    (w5 w6 : C (F := F) S64x32 .f32) (b7 : C (F := F) S32 .f32) : C (F := F) S100000x32 .bf16 :=
  G1 (kAgg64 (kH1 G0 x e w2 w3 b4) e) (kH1 G0 x e w2 w3 b4) (kInv e) w5 w6 (shapeCast S1x32 b7 shapeCasts_S32_S1x32)

/-- The program's result: the third layer's array. -/
def kterm (x : C (F := F) S100000x64 .f32) (e : C (F := F) S2x1200000 .i32) (w2 w3 : C (F := F) S64x64 .f32) (b4 : C (F := F) S64 .f32)
    (w5 w6 : C (F := F) S64x32 .f32) (b7 : C (F := F) S32 .f32) (w8 w9 : C (F := F) S32x10 .f32) (b10 : C (F := F) S10 .f32) :
    C (F := F) S100000x10 .f32 :=
  G2 (kAgg32 (kH2 G0 G1 x e w2 w3 b4 w5 w6 b7) e) (kH2 G0 G1 x e w2 w3 b4 w5 w6 b7) (kInv e) w8 w9 (shapeCast S1x10 b10 shapeCasts_S10_S1x10)

/-! ## The fold -/

set_option maxHeartbeats 4000000 in
/-- The result buffer at the last boundary is the composed term of the argument arrays. -/
theorem fold (c : Dev nD)
    (h0 : ∀ (V : (c : Dev nD) → (b : Ref sig .tc) → Buf (Elt F) ((c : Thread nD τ).loc b)) (c : Dev nD),
      (dat0 (F := F) V c).arrAt 6 cfg0.N = G0 (V c main_v24) (V c main_v13) (V c main_v12) (V c main_arg2) (V c main_arg3) (V c main_v25))
    (h1 : ∀ (V : (c : Dev nD) → (b : Ref sig .tc) → Buf (Elt F) ((c : Thread nD τ).loc b)) (c : Dev nD),
      (dat1 (F := F) V c).arrAt 6 cfg1.N = G1 (V c main_v37) (V c main_v26) (V c main_v12) (V c main_arg5) (V c main_arg6) (V c main_v38))
    (h2 : ∀ (V : (c : Dev nD) → (b : Ref sig .tc) → Buf (Elt F) ((c : Thread nD τ).loc b)) (c : Dev nD),
      (dat2 (F := F) V c).arrAt 6 cfg2.N = G2 (V c main_v50) (V c main_v39) (V c main_v12) (V c main_arg8) (V c main_arg9) (V c main_v51)) :
    W6 m ρ c (Proc.devRef .tc main_v52) = kterm G0 G1 G2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W6_eq G2 m ρ c h2]
  show (op2 G2).result (StableHlo.after hostOps2 (W4 m ρ c)) (Proc.devRef .tc main_v52) = _
  rw [W4_eq G1 m ρ c h1]
  show (op2 G2).result (StableHlo.after hostOps2 ((op1 G1).result (StableHlo.after hostOps1 (W2 m ρ c)))) (Proc.devRef .tc main_v52) = _
  rw [W2_eq G0 m ρ c h0]
  show (op2 G2).result (StableHlo.after hostOps2 ((op1 G1).result (StableHlo.after hostOps1 ((op0 G0).result
      (StableHlo.after hostOps0 (W0 m ρ c)))))) (Proc.devRef .tc main_v52) = _
  unfold op0 op1 op2
  simp (disch := decide) only [hostOps0, hostOps1, hostOps2, after_cons, after_nil,
      nullary_result', unary_result', binary_result', ternary_result', quaternary_result', reshape_result', nary6_result',
      nullary_result_ne', unary_result_ne', binary_result_ne', ternary_result_ne', quaternary_result_ne', reshape_result_ne',
      nary_result_ne']
  rfl

end Cert.KernelIdeal.Fold

end
-- ==== Proof.Spec.lean ====
/-
  One layer of the network on the extended reals, row by row.

  A layer takes, for every node `p`, the summed features of its in-neighbours `s p`, the node's own features `x p`,
  a reciprocal degree `ic p`, two weight matrices and a bias row, and returns
      act ( o / max (‖o‖₂) ε ),   o = (s p · ic p) · Wl + x p · Wr + b ,
  where `act` is `max · 0` in the hidden layers and the logarithm of the softmax in the last one. Every entry of the
  result depends on ONE row of `s`, `x`, `ic` only; so a block of rows of the result is the same function of the
  same block of rows of the inputs, whatever the number of rows (`layerRelu_rows`, `layerLsm_rows`).

  The two programs differ in three places, each an identity of the extended reals that needs no finiteness:
  the mean is a product with `1 / max c 1` on one side and a quotient by `max c 1` on the other (`div_eq_mul_inv`:
  the divisor is at least one, hence not zero); the bias is added before or after the second product
  (`pre_bias_mid`: addition is commutative and associative); and the row maximum is taken once more against −∞
  (`max_ninf_fold`).
-/
import Idealize.ShloMosaic.PureOps.Ideal.Laws
import Idealize.ShloMosaic.Lib.ValueIdx

noncomputable section

namespace Cert.Sage

open Idealize.ShloMosaic Idealize.ShloMosaic.ValueIdx

/-- An `M × N` array of extended reals. -/
abbrev Mat (M N : ℕ) : Type := (⟨2, ![M, N]⟩ : Shape).Idx → EReal
/-- A length-`M` array of extended reals. -/
abbrev Arr (M : ℕ) : Type := (⟨1, ![M]⟩ : Shape).Idx → EReal

/-- The three float words the programs share: the normalisation's floor, one, and −∞. -/
def eps : EReal := Ideal.ofBits .f32 0x2B8CBCCC#32
def one : EReal := Ideal.ofBits .f32 0x3F800000#32
def ninf : EReal := Ideal.ofBits .f32 0xFF800000#32

/-! ## A row -/

/-- The affine part of a layer on one row: `a · Wl + x · Wr + b`. -/
def pre {K N : ℕ} (a x : Fin K → EReal) (wl wr : Fin K → Fin N → EReal) (b : Fin N → EReal) (q : Fin N) : EReal :=
  ((∑ k : Fin K, a k * wl k q) + (∑ k : Fin K, x k * wr k q)) + b q

/-- A row divided by its Euclidean norm, the norm floored at `eps`. -/
def nrm {N : ℕ} (o : Fin N → EReal) (q : Fin N) : EReal :=
  Ideal.div (o q) (max (Ideal.sqrt (∑ k : Fin N, o k * o k)) eps)

/-- The largest entry of a row (from −∞). -/
def rowMax {N : ℕ} (o : Fin N → EReal) : EReal := (Finset.univ : Finset (Fin N)).fold max ninf o

/-- The logarithm of the softmax of a row: the entries shifted by the row's maximum, less the logarithm of the sum of
    their exponentials. -/
def lsm {N : ℕ} (o : Fin N → EReal) (q : Fin N) : EReal :=
  (o q - rowMax o) - Ideal.log (∑ k : Fin N, Ideal.exp (o k - rowMax o))

/-- A hidden layer on one row. -/
def rowRelu {K N : ℕ} (a x : Fin K → EReal) (wl wr : Fin K → Fin N → EReal) (b : Fin N → EReal) (q : Fin N) : EReal :=
  max (nrm (pre a x wl wr b) q) 0

/-- The last layer on one row. -/
def rowLsm {K N : ℕ} (a x : Fin K → EReal) (wl wr : Fin K → Fin N → EReal) (b : Fin N → EReal) (q : Fin N) : EReal :=
  lsm (nrm (pre a x wl wr b)) q

/-! ## An array of rows -/

/-- Row `p` of the aggregated features scaled by the node's reciprocal degree. -/
def meanRow {M K : ℕ} (s : Mat M K) (ic : Mat M 1) (p : Fin M) (k : Fin K) : EReal := s (ix2 p k) * ic (ix2 p 0)

/-- A hidden layer on an `M`-row array. -/
def layerRelu (M K N : ℕ) (s x : Mat M K) (ic : Mat M 1) (wl wr : Mat K N) (b : Mat 1 N) : Mat M N :=
  fun j => rowRelu (meanRow s ic (j 0)) (fun k => x (ix2 (j 0) k)) (fun k q => wl (ix2 k q)) (fun k q => wr (ix2 k q))
    (fun q => b (ix2 0 q)) (j 1)

/-- The last layer on an `M`-row array. -/
def layerLsm (M K N : ℕ) (s x : Mat M K) (ic : Mat M 1) (wl wr : Mat K N) (b : Mat 1 N) : Mat M N :=
  fun j => rowLsm (meanRow s ic (j 0)) (fun k => x (ix2 (j 0) k)) (fun k q => wl (ix2 k q)) (fun k q => wr (ix2 k q))
    (fun q => b (ix2 0 q)) (j 1)

/-- The reciprocal degrees as a column: `1 / max c 1`. -/
def invDeg {M : ℕ} (c : Arr M) : Mat M 1 := fun j => Ideal.div one (max (c (ix1 (j 0))) one)

/-- A bias vector as a one-row matrix. -/
def biasRow {N : ℕ} (b : Arr N) : Mat 1 N := fun j => b (ix1 (j 1))

/-- A block of rows of a hidden layer is the layer of the blocks: entry `j` of the layer over `M` rows equals entry
    `J` of the layer over `M'` rows when row `j 0` of each input is row `J 0` of its counterpart and the columns
    agree. -/
theorem layerRelu_rows {M M' K N : ℕ} (s x : Mat M K) (ic : Mat M 1) (S X : Mat M' K) (IC : Mat M' 1)
    (wl wr : Mat K N) (b : Mat 1 N) (j : (⟨2, ![M, N]⟩ : Shape).Idx) (J : (⟨2, ![M', N]⟩ : Shape).Idx)
    (hs : ∀ k, s (ix2 (j 0) k) = S (ix2 (J 0) k)) (hx : ∀ k, x (ix2 (j 0) k) = X (ix2 (J 0) k))
    (hic : ic (ix2 (j 0) 0) = IC (ix2 (J 0) 0)) (hq : j 1 = J 1) :
    layerRelu M K N s x ic wl wr b j = layerRelu M' K N S X IC wl wr b J := by
  unfold layerRelu
  have e1 : meanRow s ic (j 0) = meanRow S IC (J 0) := funext fun k => by unfold meanRow; rw [hs k, hic]
  have e2 : (fun k => x (ix2 (j 0) k)) = fun k => X (ix2 (J 0) k) := funext hx
  rw [e1, e2, hq]

/-- The same for the last layer. -/
theorem layerLsm_rows {M M' K N : ℕ} (s x : Mat M K) (ic : Mat M 1) (S X : Mat M' K) (IC : Mat M' 1)
    (wl wr : Mat K N) (b : Mat 1 N) (j : (⟨2, ![M, N]⟩ : Shape).Idx) (J : (⟨2, ![M', N]⟩ : Shape).Idx)
    (hs : ∀ k, s (ix2 (j 0) k) = S (ix2 (J 0) k)) (hx : ∀ k, x (ix2 (j 0) k) = X (ix2 (J 0) k))
    (hic : ic (ix2 (j 0) 0) = IC (ix2 (J 0) 0)) (hq : j 1 = J 1) :
    layerLsm M K N s x ic wl wr b j = layerLsm M' K N S X IC wl wr b J := by
  unfold layerLsm
  have e1 : meanRow s ic (j 0) = meanRow S IC (J 0) := funext fun k => by unfold meanRow; rw [hs k, hic]
  have e2 : (fun k => x (ix2 (j 0) k)) = fun k => X (ix2 (J 0) k) := funext hx
  rw [e1, e2, hq]

/-! ## The three laws joining the two programs -/

/-- The word of 1.0 denotes the real number one. -/
theorem one_eq : one = (1 : EReal) := by
  unfold one
  simp [Ideal.ofBits, Ideal.ieee]
  rw [← EReal.coe_mul]; norm_num

/-- One is positive. -/
theorem one_pos : (0 : EReal) < one := by rw [one_eq]; exact zero_lt_one

/-- A degree floored at one is not zero. -/
theorem max_one_ne_zero (c : EReal) : max c one ≠ 0 :=
  ne_of_gt (lt_of_lt_of_le one_pos (le_max_right c one))

/-- A quotient by a divisor that is not zero is the product with the divisor's reciprocal, at the infinities too. -/
theorem div_eq_mul_inv (s c : EReal) (hc : c ≠ 0) : Ideal.div s c = s * Ideal.div one c := by
  rw [one_eq]; unfold Ideal.div
  rw [if_neg hc, if_neg hc, one_mul]

/-- The bias may be added between the two products or after them. -/
theorem pre_bias_mid (A B b : EReal) : (A + b) + B = (A + B) + b := add_right_comm A b B

/-- The row maximum taken once more against −∞ is the row maximum. -/
theorem max_ninf_fold {N : ℕ} (o : Fin N → EReal) : max ninf (rowMax o) = rowMax o :=
  max_eq_right ((Finset.le_fold_max ninf).mpr (Or.inl le_rfl))

end Cert.Sage

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.LibRowMax.lean ====
/-
  A maximum along the columns of a matrix, read at an index.

  A lane maximum of an `a × b` matrix over its columns (axis 1), taken from the accumulator's value (the word of −∞),
  reads at row `p` the fold of `max` from that value over the `b` entries of row `p`: the reduced index with each
  column coordinate inserted is the matrix index `(p, k)`.
-/
import Idealize.ShloMosaic.PureOps.Ideal.Laws
import Idealize.ShloMosaic.Lib.ValueIdx

noncomputable section

namespace Cert.RowMax

open Idealize.ShloMosaic Idealize.ShloMosaic.ValueIdx

/-- A lane maximum of a matrix over its columns (axis 1), at row `p`: the fold of `max` from the accumulator's value
    over that row. -/
theorem max_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (funext fun ax => Fin.ext (by
        match ax with
        | ⟨0, _⟩ => rfl
        | ⟨1, _⟩ => rfl))))

end Cert.RowMax

end
-- ==== Proof.Pay.lean ====
import proofs.«159893_j54039278518913_2_alg».proof.Proof.Gen.KernelIdeal.Skeleton
import proofs.«159893_j54039278518913_2_alg».proof.Proof.Spec
import proofs.«159893_j54039278518913_2_alg».proof.Proof.LibPlainDot
import proofs.«159893_j54039278518913_2_alg».proof.Proof.LibKeepdims
import proofs.«159893_j54039278518913_2_alg».proof.Proof.LibRowMax
import Idealize.ShloMosaic.Lib.Pipeline.Value
import Idealize.ShloMosaic.Lib.ValueLayout

/-! What each kernel body stores, on the extended reals: a layer of the network on the block's 4000 rows.

The three bodies are the same chain of whole-block operations at three sizes, and differ in the tail only. The chain
is stated once over an `M × K` block of aggregated features, an `M × 1` column of reciprocal degrees, an `M × K`
block of the rows' own features, two `K × N` weight matrices and a `1 × N` bias row, in three pieces — the affine
part, the division of each row by its floored Euclidean norm, and the logarithm of the softmax — and each piece is
read at row `p`, column `q`: a matrix product into a zero accumulator is a sum over the contracted coordinate, a
lane sum (or maximum) kept as a column and repeated over the lanes is the sum (or maximum) of row `p`, a format
change is the identity on the extended reals, and every other operation acts entry by entry. The words of the
norm's floor and of −∞ are the same on both sides and are never evaluated; the zero word denotes zero. -/

noncomputable section

namespace Cert.KernelIdeal.Pay

open Idealize.ShloMosaic Idealize.ShloMosaic.ValueIdx Cert.KernelIdeal Cert.KernelIdeal.Gen Cert.Sage

section Generic

variable {M K N : ℕ}

/-- The affine part of a layer as whole-block operations: the aggregated features scaled row by row by the reciprocal
    degree and multiplied by the first weight matrix, plus the rows' own features multiplied by the second, plus the
    bias row repeated over the rows. -/
def pp_preV (D : DotDims ⟨2, ![M, K]⟩ ⟨2, ![K, N]⟩ ⟨2, ![M, N]⟩)
    (v0 : FVec Ideal ⟨2, ![M, K]⟩ .f32) (v2 : FVec Ideal ⟨2, ![M, 1]⟩ .f32) (v7 : FVec Ideal ⟨2, ![M, K]⟩ .bf16)
    (v9 v11 : FVec Ideal ⟨2, ![K, N]⟩ .f32) (v16 : FVec Ideal ⟨2, ![1, N]⟩ .f32)
    (hlt : FTy.bits .bf16 < FTy.bits .f32)
    (h0 : (⟨2, ![M, K]⟩ : Shape).ShapeCasts ⟨2, ![M, K]⟩) (h2 : (⟨2, ![M, 1]⟩ : Shape).ShapeCasts ⟨2, ![M, 1]⟩)
    (hb2 : (⟨2, ![M, 1]⟩ : Shape).Broadcasts ⟨2, ![M, K]⟩)
    (h16 : (⟨2, ![1, N]⟩ : Shape).ShapeCasts ⟨2, ![1, N]⟩) (hb16 : (⟨2, ![1, N]⟩ : Shape).Broadcasts ⟨2, ![M, N]⟩) :
    FVec Ideal ⟨2, ![M, N]⟩ .f32 :=
  addf (addf
      (matmul (φ₁ := .bf16) (φ₂ := .bf16) D none
        (truncf .bf16 (mulf (shapeCast ⟨2, ![M, K]⟩ v0 h0) (broadcastTo ⟨2, ![M, K]⟩ (shapeCast ⟨2, ![M, 1]⟩ v2 h2) hb2)) hlt)
        (truncf .bf16 v9 hlt) (constant (F := Ideal) ⟨2, ![M, N]⟩ .f32 0x00000000#32))
      (matmul (φ₁ := .bf16) (φ₂ := .bf16) D none (shapeCast ⟨2, ![M, K]⟩ v7 h0) (truncf .bf16 v11 hlt)
        (constant (F := Ideal) ⟨2, ![M, N]⟩ .f32 0x00000000#32)))
    (broadcastTo ⟨2, ![M, N]⟩ (shapeCast ⟨2, ![1, N]⟩ v16 h16) hb16)

/-- The affine part read at row `p`, column `q`: the row's affine form `pre`. The two matrix products into zero
    accumulators are sums over the contracted coordinate; the format changes are the identity on the extended reals;
    the reciprocal-degree column and the bias row are read at their one column, one row. -/
theorem pp_preV_apply (D : DotDims ⟨2, ![M, K]⟩ ⟨2, ![K, N]⟩ ⟨2, ![M, N]⟩) (hD : D = DotDims.plain M K N)
    (v0 : FVec Ideal ⟨2, ![M, K]⟩ .f32) (v2 : FVec Ideal ⟨2, ![M, 1]⟩ .f32) (v7 : FVec Ideal ⟨2, ![M, K]⟩ .bf16)
    (v9 v11 : FVec Ideal ⟨2, ![K, N]⟩ .f32) (v16 : FVec Ideal ⟨2, ![1, N]⟩ .f32)
    (hlt : FTy.bits .bf16 < FTy.bits .f32)
    (h0 : (⟨2, ![M, K]⟩ : Shape).ShapeCasts ⟨2, ![M, K]⟩) (h2 : (⟨2, ![M, 1]⟩ : Shape).ShapeCasts ⟨2, ![M, 1]⟩)
    (hb2 : (⟨2, ![M, 1]⟩ : Shape).Broadcasts ⟨2, ![M, K]⟩)
    (h16 : (⟨2, ![1, N]⟩ : Shape).ShapeCasts ⟨2, ![1, N]⟩) (hb16 : (⟨2, ![1, N]⟩ : Shape).Broadcasts ⟨2, ![M, N]⟩)
    (p : Fin M) (q : Fin N) :
    pp_preV D v0 v2 v7 v9 v11 v16 hlt h0 h2 hb2 h16 hb16 (ix2 p q)
      = pre (meanRow v0 v2 p) (fun k => v7 (ix2 p k)) (fun k c => v9 (ix2 k c)) (fun k c => v11 (ix2 k c))
          (fun c => v16 (ix2 0 c)) q := by
  subst hD
  unfold pp_preV pre meanRow
  refine congrArg₂ (· + ·) (congrArg₂ (· + ·) ?_ ?_) ?_
  · refine (Cert.PlainDot.matmul_zero_apply M K N none _ _ (ix2 p q)).trans ?_
    refine Finset.sum_congr rfl fun k _ => ?_
    show (shapeCast ⟨2, ![M, K]⟩ v0 h0 (ix2 p k) * broadcastTo ⟨2, ![M, K]⟩ (shapeCast ⟨2, ![M, 1]⟩ v2 h2) hb2 (ix2 p k))
        * v9 (ix2 k q) = _
    rw [shapeCast_self, shapeCast_self, Cert.Keepdims.broadcastTo_a1_ab_apply]
  · refine (Cert.PlainDot.matmul_zero_apply M K N none _ _ (ix2 p q)).trans ?_
    refine Finset.sum_congr rfl fun k _ => ?_
    show shapeCast ⟨2, ![M, K]⟩ v7 h0 (ix2 p k) * v11 (ix2 k q) = _
    rw [shapeCast_self]
  · refine (broadcastTo_1b_ab_apply _ hb16 p q).trans ?_
    rw [shapeCast_self]

/-- A block's rows divided by their Euclidean norms floored at a word, as whole-block operations: the squares summed
    along the lanes and kept as a column, its square root, the maximum with the splat word, the column repeated over
    the lanes, the quotient. -/
def pp_nrmV (o : FVec Ideal ⟨2, ![M, N]⟩ .f32)
    (hr : (⟨2, ![M, N]⟩ : Shape).Reduces [1] ⟨1, ![M]⟩) (hφ : FKind.Formats .f32)
    (hacc : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩) :
    FVec Ideal ⟨2, ![M, N]⟩ .f32 :=
  divf o (broadcastTo ⟨2, ![M, N]⟩
    (maximumf
      (sqrt (shapeCast ⟨2, ![M, 1]⟩ (multiReduction (F := Ideal) .add [1] ⟨1, ![M]⟩ (mulf o o) 0x00000000#32 hr hφ hacc) hc))
      (broadcast ⟨2, ![M, 1]⟩ (Scalar.ofBits (F := Ideal) .f32 0x2B8CBCCC#32))) hb)

/-- The normalised block at row `p`, column `q`: row `p` divided by its floored norm. -/
theorem pp_nrmV_apply (o : FVec Ideal ⟨2, ![M, N]⟩ .f32)
    (hr : (⟨2, ![M, N]⟩ : Shape).Reduces [1] ⟨1, ![M]⟩) (hφ : FKind.Formats .f32)
    (hacc : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩)
    (p : Fin M) (q : Fin N) :
    pp_nrmV o hr hφ hacc hc hb (ix2 p q) = nrm (fun k => o (ix2 p k)) q := by
  unfold pp_nrmV nrm eps
  refine congrArg (Ideal.div (o (ix2 p q))) ?_
  refine (Cert.Keepdims.broadcastTo_a1_ab_apply _ hb p q).trans ?_
  refine congrArg (fun t => max (Ideal.sqrt t) (Ideal.ofBits .f32 0x2B8CBCCC#32)) ?_
  exact (Cert.Keepdims.shapeCast_a_a1_apply _ hc p 0).trans (Cert.Keepdims.sum_axis1_apply (mulf o o) _ hr hφ hacc p)

/-- A hidden layer as whole-block operations: the normalised affine part, its maximum with the splat of the zero
    word, stored in the narrower format. -/
def pp_reluV (D : DotDims ⟨2, ![M, K]⟩ ⟨2, ![K, N]⟩ ⟨2, ![M, N]⟩)
    (v0 : FVec Ideal ⟨2, ![M, K]⟩ .f32) (v2 : FVec Ideal ⟨2, ![M, 1]⟩ .f32) (v7 : FVec Ideal ⟨2, ![M, K]⟩ .bf16)
    (v9 v11 : FVec Ideal ⟨2, ![K, N]⟩ .f32) (v16 : FVec Ideal ⟨2, ![1, N]⟩ .f32)
    (hlt : FTy.bits .bf16 < FTy.bits .f32)
    (h0 : (⟨2, ![M, K]⟩ : Shape).ShapeCasts ⟨2, ![M, K]⟩) (h2 : (⟨2, ![M, 1]⟩ : Shape).ShapeCasts ⟨2, ![M, 1]⟩)
    (hb2 : (⟨2, ![M, 1]⟩ : Shape).Broadcasts ⟨2, ![M, K]⟩)
    (h16 : (⟨2, ![1, N]⟩ : Shape).ShapeCasts ⟨2, ![1, N]⟩) (hb16 : (⟨2, ![1, N]⟩ : Shape).Broadcasts ⟨2, ![M, N]⟩)
    (hr : (⟨2, ![M, N]⟩ : Shape).Reduces [1] ⟨1, ![M]⟩) (hφ : FKind.Formats .f32)
    (hacc : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩) :
    FVec Ideal ⟨2, ![M, N]⟩ .bf16 :=
  truncf .bf16
    (maximumf (pp_nrmV (pp_preV D v0 v2 v7 v9 v11 v16 hlt h0 h2 hb2 h16 hb16) hr hφ hacc hc hb)
      (broadcast ⟨2, ![M, N]⟩ (Scalar.ofBits (F := Ideal) .f32 0x00000000#32))) hlt

/-- The hidden layer's block is the specification's hidden layer on the block's rows: entry `(p, q)` is the
    maximum with zero of row `p`'s normalised affine form at `q`; the zero word denotes zero. -/
theorem pp_reluV_eq (D : DotDims ⟨2, ![M, K]⟩ ⟨2, ![K, N]⟩ ⟨2, ![M, N]⟩) (hD : D = DotDims.plain M K N)
    (v0 : FVec Ideal ⟨2, ![M, K]⟩ .f32) (v2 : FVec Ideal ⟨2, ![M, 1]⟩ .f32) (v7 : FVec Ideal ⟨2, ![M, K]⟩ .bf16)
    (v9 v11 : FVec Ideal ⟨2, ![K, N]⟩ .f32) (v16 : FVec Ideal ⟨2, ![1, N]⟩ .f32)
    (hlt : FTy.bits .bf16 < FTy.bits .f32)
    (h0 : (⟨2, ![M, K]⟩ : Shape).ShapeCasts ⟨2, ![M, K]⟩) (h2 : (⟨2, ![M, 1]⟩ : Shape).ShapeCasts ⟨2, ![M, 1]⟩)
    (hb2 : (⟨2, ![M, 1]⟩ : Shape).Broadcasts ⟨2, ![M, K]⟩)
    (h16 : (⟨2, ![1, N]⟩ : Shape).ShapeCasts ⟨2, ![1, N]⟩) (hb16 : (⟨2, ![1, N]⟩ : Shape).Broadcasts ⟨2, ![M, N]⟩)
    (hr : (⟨2, ![M, N]⟩ : Shape).Reduces [1] ⟨1, ![M]⟩) (hφ : FKind.Formats .f32)
    (hacc : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩) :
    pp_reluV D v0 v2 v7 v9 v11 v16 hlt h0 h2 hb2 h16 hb16 hr hφ hacc hc hb = layerRelu M K N v0 v7 v2 v9 v11 v16 := by
  funext j
  obtain ⟨p, q, rfl⟩ : ∃ (p : Fin M) (q : Fin N), j = ix2 p q := ⟨j 0, j 1, eq_ix2 j⟩
  unfold pp_reluV layerRelu rowRelu
  show max (pp_nrmV (pp_preV D v0 v2 v7 v9 v11 v16 hlt h0 h2 hb2 h16 hb16) hr hφ hacc hc hb (ix2 p q))
      (Ideal.ofBits .f32 0x00000000#32) = _
  rw [Ideal.ofBits_zero_f32, pp_nrmV_apply]
  exact congrArg (fun o : Fin N → EReal => max (nrm o q) 0)
    (funext fun k => pp_preV_apply D hD v0 v2 v7 v9 v11 v16 hlt h0 h2 hb2 h16 hb16 p k)

/-- A block with each row's largest entry taken off, as whole-block operations: the lane maximum from the word of
    −∞ kept as a column, repeated over the lanes, subtracted. -/
def pp_shiftV (o : FVec Ideal ⟨2, ![M, N]⟩ .f32)
    (hr : (⟨2, ![M, N]⟩ : Shape).Reduces [1] ⟨1, ![M]⟩) (hφ : FKind.Formats .f32)
    (hmacc : (0xFF800000#32 : BitVec FTy.f32.bits) = FKind.maximumf.neutral .f32 hφ)
    (hc : (⟨1, ![M]⟩ : Shape).ShapeCasts ⟨2, ![M, 1]⟩) (hb : (⟨2, ![M, 1]⟩ : Shape).Broadcasts ⟨2, ![M, N]⟩) :
    FVec Ideal ⟨2, ![M, N]⟩ .f32 :=
  subf o (broadcastTo ⟨2, ![M, N]⟩
    (shapeCast ⟨2, ![M, 1]⟩ (multiReduction (F := Ideal) .maximumf [1] ⟨1, ![M]⟩ o 0xFF800000#32 hr hφ hmacc) hc) hb)

/-- The shifted block at row `p`, column `q`: the entry less row `p`'s maximum. -/
theorem pp_shiftV_apply (o : FVec Ideal ⟨2, ![M, N]⟩ .f32)
    (hr : (⟨2, ![M, N]⟩ : Shape).Reduces [1] ⟨1, ![M]⟩) (hφ : FKind.Formats .f32)
    (hmacc : (0xFF800000#32 : BitVec FTy.f32.bits) = FKind.maximumf.neutral .f32 hφ)
    (hc : (⟨1, ![M]⟩ : Shape).ShapeCasts ⟨2, ![M, 1]⟩) (hb : (⟨2, ![M, 1]⟩ : Shape).Broadcasts ⟨2, ![M, N]⟩)
    (p : Fin M) (q : Fin N) :
    pp_shiftV o hr hφ hmacc hc hb (ix2 p q) = o (ix2 p q) - rowMax (fun k => o (ix2 p k)) := by
  unfold pp_shiftV rowMax ninf
  refine congrArg (fun t : EReal => o (ix2 p q) - t) ?_
  refine (Cert.Keepdims.broadcastTo_a1_ab_apply _ hb p q).trans ?_
  exact (Cert.Keepdims.shapeCast_a_a1_apply _ hc p 0).trans (Cert.RowMax.max_axis1_apply o _ hr hφ hmacc p)

/-- The logarithm of the softmax of a block's rows, as whole-block operations: the shifted block less the logarithm
    of the lane sum of its exponentials, the sum kept as a column and repeated over the lanes. -/
def pp_lsmV (o : FVec Ideal ⟨2, ![M, N]⟩ .f32)
    (hr : (⟨2, ![M, N]⟩ : Shape).Reduces [1] ⟨1, ![M]⟩) (hφ : FKind.Formats .f32)
    (hacc : (0x00000000#32 : BitVec FTy.f32.bits) = FKind.add.neutral .f32 hφ)
    (hmacc : (0xFF800000#32 : BitVec FTy.f32.bits) = FKind.maximumf.neutral .f32 hφ)
    (hc : (⟨1, ![M]⟩ : Shape).ShapeCasts ⟨2, ![M, 1]⟩) (hb : (⟨2, ![M, 1]⟩ : Shape).Broadcasts ⟨2, ![M, N]⟩) :
    FVec Ideal ⟨2, ![M, N]⟩ .f32 :=
  subf (pp_shiftV o hr hφ hmacc hc hb) (broadcastTo ⟨2, ![M, N]⟩
    (log (shapeCast ⟨2, ![M, 1]⟩
      (multiReduction (F := Ideal) .add [1] ⟨1, ![M]⟩ (exp (pp_shiftV o hr hφ hmacc hc hb)) 0x00000000#32 hr hφ hacc) hc)) hb)

/-- The block's log-softmax at row `p`, column `q`: the log-softmax of row `p` at `q`. -/
theorem pp_lsmV_apply (o : FVec Ideal ⟨2, ![M, N]⟩ .f32)
    (hr : (⟨2, ![M, N]⟩ : Shape).Reduces [1] ⟨1, ![M]⟩) (hφ : FKind.Formats .f32)
    (hacc : (0x00000000#32 : BitVec FTy.f32.bits) = FKind.add.neutral .f32 hφ)
    (hmacc : (0xFF800000#32 : BitVec FTy.f32.bits) = FKind.maximumf.neutral .f32 hφ)
    (hc : (⟨1, ![M]⟩ : Shape).ShapeCasts ⟨2, ![M, 1]⟩) (hb : (⟨2, ![M, 1]⟩ : Shape).Broadcasts ⟨2, ![M, N]⟩)
    (p : Fin M) (q : Fin N) :
    pp_lsmV o hr hφ hacc hmacc hc hb (ix2 p q) = lsm (fun k => o (ix2 p k)) q := by
  unfold pp_lsmV lsm
  refine congrArg₂ (fun a b : EReal => a - b) (pp_shiftV_apply o hr hφ hmacc hc hb p q) ?_
  refine (Cert.Keepdims.broadcastTo_a1_ab_apply _ hb p q).trans ?_
  refine congrArg Ideal.log ?_
  refine (Cert.Keepdims.shapeCast_a_a1_apply _ hc p 0).trans ?_
  refine (Cert.Keepdims.sum_axis1_apply (exp (pp_shiftV o hr hφ hmacc hc hb)) _ hr hφ hacc p).trans ?_
  exact Finset.sum_congr rfl fun k _ => congrArg Ideal.exp (pp_shiftV_apply o hr hφ hmacc hc hb p k)

/-- The last layer's block is the specification's last layer on the block's rows: entry `(p, q)` is the
    log-softmax of row `p`'s normalised affine form at `q`. -/
theorem pp_lsm_eq (D : DotDims ⟨2, ![M, K]⟩ ⟨2, ![K, N]⟩ ⟨2, ![M, N]⟩) (hD : D = DotDims.plain M K N)
    (v0 : FVec Ideal ⟨2, ![M, K]⟩ .f32) (v2 : FVec Ideal ⟨2, ![M, 1]⟩ .f32) (v7 : FVec Ideal ⟨2, ![M, K]⟩ .bf16)
    (v9 v11 : FVec Ideal ⟨2, ![K, N]⟩ .f32) (v16 : FVec Ideal ⟨2, ![1, N]⟩ .f32)
    (hlt : FTy.bits .bf16 < FTy.bits .f32)
    (h0 : (⟨2, ![M, K]⟩ : Shape).ShapeCasts ⟨2, ![M, K]⟩) (h2 : (⟨2, ![M, 1]⟩ : Shape).ShapeCasts ⟨2, ![M, 1]⟩)
    (hb2 : (⟨2, ![M, 1]⟩ : Shape).Broadcasts ⟨2, ![M, K]⟩)
    (h16 : (⟨2, ![1, N]⟩ : Shape).ShapeCasts ⟨2, ![1, N]⟩) (hb16 : (⟨2, ![1, N]⟩ : Shape).Broadcasts ⟨2, ![M, N]⟩)
    (hr : (⟨2, ![M, N]⟩ : Shape).Reduces [1] ⟨1, ![M]⟩) (hφ : FKind.Formats .f32)
    (hacc : (0x00000000#32 : BitVec FTy.f32.bits) = FKind.add.neutral .f32 hφ)
    (hmacc : (0xFF800000#32 : BitVec FTy.f32.bits) = FKind.maximumf.neutral .f32 hφ)
    (hc : (⟨1, ![M]⟩ : Shape).ShapeCasts ⟨2, ![M, 1]⟩) (hb : (⟨2, ![M, 1]⟩ : Shape).Broadcasts ⟨2, ![M, N]⟩) :
    pp_lsmV (pp_nrmV (pp_preV D v0 v2 v7 v9 v11 v16 hlt h0 h2 hb2 h16 hb16) hr hφ hacc hc hb) hr hφ hacc hmacc hc hb
      = layerLsm M K N v0 v7 v2 v9 v11 v16 := by
  funext j
  obtain ⟨p, q, rfl⟩ : ∃ (p : Fin M) (q : Fin N), j = ix2 p q := ⟨j 0, j 1, eq_ix2 j⟩
  unfold layerLsm rowLsm
  rw [pp_lsmV_apply]
  refine congrArg (fun o : Fin N → EReal => lsm o q) (funext fun k => ?_)
  rw [pp_nrmV_apply]
  exact congrArg (fun o : Fin N → EReal => nrm o k)
    (funext fun c => pp_preV_apply D hD v0 v2 v7 v9 v11 v16 hlt h0 h2 hb2 h16 hb16 p c)

end Generic

/-- The first body's stored value is the hidden layer 64 → 64 on the block's rows. -/
theorem pay0 (v0 : Vec Ideal S4000x64 .f32) (v2 : Vec Ideal S4000x1 .f32) (v7 : Vec Ideal S4000x64 .bf16)
    (v9 v11 : Vec Ideal S64x64 .f32) (v16 : Vec Ideal S1x64 .f32) :
    k0_pay1 (F := Ideal) v0 v2 v7 v9 v11 v16 = layerRelu 4000 64 64 v0 v7 v2 v9 v11 v16 :=
  pp_reluV_eq (M := 4000) (K := 64) (N := 64) dot_S4000x64_S64x64_S4000x64_1_0_0_1_n_n rfl v0 v2 v7 v9 v11 v16
    bitsLt_bf16_f32 shapeCasts_S4000x64_S4000x64 shapeCasts_S4000x1_S4000x1 broadcasts_S4000x1_S4000x64
    shapeCasts_S1x64_S1x64 broadcasts_S1x64_S4000x64 reduces_S4000x64_S4000 (.inl rfl) rfl shapeCasts_S4000_S4000x1
    broadcasts_S4000x1_S4000x64

/-- The second body's stored value is the hidden layer 64 → 32 on the block's rows. -/
theorem pay1 (v0 : Vec Ideal S4000x64 .f32) (v2 : Vec Ideal S4000x1 .f32) (v7 : Vec Ideal S4000x64 .bf16)
    (v9 v11 : Vec Ideal S64x32 .f32) (v16 : Vec Ideal S1x32 .f32) :
    k1_pay1 (F := Ideal) v0 v2 v7 v9 v11 v16 = layerRelu 4000 64 32 v0 v7 v2 v9 v11 v16 :=
  pp_reluV_eq (M := 4000) (K := 64) (N := 32) dot_S4000x64_S64x32_S4000x32_1_0_0_1_n_n rfl v0 v2 v7 v9 v11 v16
    bitsLt_bf16_f32 shapeCasts_S4000x64_S4000x64 shapeCasts_S4000x1_S4000x1 broadcasts_S4000x1_S4000x64
    shapeCasts_S1x32_S1x32 broadcasts_S1x32_S4000x32 reduces_S4000x32_S4000 (.inl rfl) rfl shapeCasts_S4000_S4000x1
    broadcasts_S4000x1_S4000x32

/-- The third body's stored value is the last layer 32 → 10 on the block's rows. -/
theorem pay2 (v0 : Vec Ideal S4000x32 .f32) (v2 : Vec Ideal S4000x1 .f32) (v7 : Vec Ideal S4000x32 .bf16)
    (v9 v11 : Vec Ideal S32x10 .f32) (v16 : Vec Ideal S1x10 .f32) :
    k2_pay1 (F := Ideal) v0 v2 v7 v9 v11 v16 = layerLsm 4000 32 10 v0 v7 v2 v9 v11 v16 :=
  pp_lsm_eq (M := 4000) (K := 32) (N := 10) dot_S4000x32_S32x10_S4000x10_1_0_0_1_n_n rfl v0 v2 v7 v9 v11 v16
    bitsLt_bf16_f32 shapeCasts_S4000x32_S4000x32 shapeCasts_S4000x1_S4000x1 broadcasts_S4000x1_S4000x32
    shapeCasts_S1x10_S1x10 broadcasts_S1x10_S4000x10 reduces_S4000x10_S4000 (.inl rfl) rfl rfl shapeCasts_S4000_S4000x1
    broadcasts_S4000x1_S4000x10

end Cert.KernelIdeal.Pay

end
-- ==== Proof.Blocks.lean ====
import proofs.«159893_j54039278518913_2_alg».proof.Proof.PKernelIdealFrame
import proofs.«159893_j54039278518913_2_alg».proof.Proof.Pay
import proofs.«159893_j54039278518913_2_alg».proof.Proof.Spec
import Idealize.ShloMosaic.Lib.Pipeline.Value

/-! From blocks to arrays: after each region its output array is the layer of the region's input arrays, all 100000
    rows of it — block `t` holds rows `4000 t … 4000 t + 3999`, the 25 blocks cover the array, and an entry of the
    layer depends on its own row only. -/

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

/-- The zero offsets of a whole-buffer rectangle, however spelt. -/
theorem bb_hz : (![0, 0] : Fin 2 → Nat) = fun _ => 0 := funext fun a => by fin_cases a <;> rfl

/-! ## Region 0: the hidden layer 64 → 64 -/

/-- The index maps of region 0 over its 25 points: the three row windows and the output window are at block
    `(t, 0)`, the two weight matrices and the bias row at block `(0, 0)`. -/
theorem bb_idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry `y` of the block, at point `t`, of the features this layer finds summed over each node's in-neighbours is
    entry `(4000 t + y₀, y₁)` of their array: a block's coordinate on an axis is the block index times the block's size
    plus the coordinate inside the block. -/
theorem bb_read0_0 (c : Dev nD) (t : Fin cfg0.N) (y : S4000x64.Idx) (i : S100000x64.Idx)
    (h0 : (i 0).val = 4000 * t.val + (y 0).val) (h1 : (i 1).val = (y 1).val) :
    (iblk0 V c 0 t : Vec Ideal S4000x64 .f32) y = (V c main_v24 : S100000x64.Idx → EReal) i := by
  obtain ⟨e0, e1, -⟩ := bb_idx0 t
  unfold iblk0
  rw [View.read_apply]
  show V c main_v24 _ = V c main_v24 _
  refine congrArg _ ?_
  funext a
  apply Fin.ext
  match a with
  | ⟨0, _⟩ => show win0_0.index t (0 : Fin 2) * 4000 + 1 * (y 0).val = (i 0).val; rw [e0, h0]; omega
  | ⟨1, _⟩ => show win0_0.index t (1 : Fin 2) * 64 + 1 * (y 1).val = (i 1).val; rw [e1, h1]; omega

/-- The same for the block of the nodes' own features as this layer takes them. -/
theorem bb_read0_1 (c : Dev nD) (t : Fin cfg0.N) (y : S4000x64.Idx) (i : S100000x64.Idx)
    (h0 : (i 0).val = 4000 * t.val + (y 0).val) (h1 : (i 1).val = (y 1).val) :
    (iblk0 V c 1 t : Vec Ideal S4000x64 .bf16) y = (V c main_v13 : S100000x64.Idx → EReal) i := by
  obtain ⟨-, -, e0, e1, -⟩ := bb_idx0 t
  unfold iblk0
  rw [View.read_apply]
  show V c main_v13 _ = V c main_v13 _
  refine congrArg _ ?_
  funext a
  apply Fin.ext
  match a with
  | ⟨0, _⟩ => show win0_1.index t (0 : Fin 2) * 4000 + 1 * (y 0).val = (i 0).val; rw [e0, h0]; omega
  | ⟨1, _⟩ => show win0_1.index t (1 : Fin 2) * 64 + 1 * (y 1).val = (i 1).val; rw [e1, h1]; omega

/-- The same for the block of the reciprocal degrees, a column. -/
theorem bb_read0_2 (c : Dev nD) (t : Fin cfg0.N) (y : S4000x1.Idx) (i : S100000x1.Idx)
    (h0 : (i 0).val = 4000 * t.val + (y 0).val) (h1 : (i 1).val = (y 1).val) :
    (iblk0 V c 2 t : Vec Ideal S4000x1 .f32) y = (V c main_v12 : S100000x1.Idx → EReal) i := by
  obtain ⟨-, -, -, -, e0, e1, -⟩ := bb_idx0 t
  unfold iblk0
  rw [View.read_apply]
  show V c main_v12 _ = V c main_v12 _
  refine congrArg _ ?_
  funext a
  apply Fin.ext
  match a with
  | ⟨0, _⟩ => show win0_2.index t (0 : Fin 2) * 4000 + 1 * (y 0).val = (i 0).val; rw [e0, h0]; omega
  | ⟨1, _⟩ => show win0_2.index t (1 : Fin 2) * 1 + 1 * (y 1).val = (i 1).val; rw [e1, h1]; omega

/-- The block of the first weight matrix is the whole matrix at every point. -/
theorem bb_read0_3 (c : Dev nD) (t : Fin cfg0.N) :
    (iblk0 V c 3 t : Vec Ideal S64x64 .f32) = (V c main_arg2 : S64x64.Idx → EReal) := by
  obtain ⟨-, -, -, -, -, -, e0, e1, -⟩ := bb_idx0 t
  funext y
  unfold iblk0
  rw [View.read_apply]
  show V c main_arg2 _ = V c main_arg2 _
  refine congrArg _ ?_
  funext a
  apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- So is the block of the second weight matrix. -/
theorem bb_read0_4 (c : Dev nD) (t : Fin cfg0.N) :
    (iblk0 V c 4 t : Vec Ideal S64x64 .f32) = (V c main_arg3 : S64x64.Idx → EReal) := by
  obtain ⟨-, -, -, -, -, -, -, -, e0, e1, -⟩ := bb_idx0 t
  funext y
  unfold iblk0
  rw [View.read_apply]
  show V c main_arg3 _ = V c main_arg3 _
  refine congrArg _ ?_
  funext a
  apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- And the block of the bias row is the whole row. -/
theorem bb_read0_5 (c : Dev nD) (t : Fin cfg0.N) :
    (iblk0 V c 5 t : Vec Ideal S1x64 .f32) = (V c main_v25 : S1x64.Idx → EReal) := by
  obtain ⟨-, -, -, -, -, -, -, -, -, -, e0, e1, -⟩ := bb_idx0 t
  funext y
  unfold iblk0
  rw [View.read_apply]
  show V c main_v25 _ = V c main_v25 _
  refine congrArg _ ?_
  funext a
  apply Fin.ext
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- Entry `j` of the hidden layer of three row blocks, each the rows `4000 n … 4000 n + 3999` of its array, is entry
    `(4000 n + j₀, j₁)` of that layer of the arrays: an entry of the layer depends on its own row only. -/
theorem bb_point0 (s x : Mat 100000 64) (ic : Mat 100000 1) (wl wr : Mat 64 64) (b : Mat 1 64)
    (x0 : Vec Ideal S4000x64 .f32) (x1 : Vec Ideal S4000x64 .bf16) (x2 : Vec Ideal S4000x1 .f32) (n : ℕ)
    (h0 : ∀ (y : S4000x64.Idx) (i : S100000x64.Idx), (i 0).val = 4000 * n + (y 0).val → (i 1).val = (y 1).val → x0 y = s i)
    (h1 : ∀ (y : S4000x64.Idx) (i : S100000x64.Idx), (i 0).val = 4000 * n + (y 0).val → (i 1).val = (y 1).val → x1 y = x i)
    (h2 : ∀ (y : S4000x1.Idx) (i : S100000x1.Idx), (i 0).val = 4000 * n + (y 0).val → (i 1).val = (y 1).val → x2 y = ic i)
    (j : S4000x64.Idx) (i : S100000x64.Idx) (hi0 : (i 0).val = 4000 * n + (j 0).val) (hi1 : (i 1).val = (j 1).val) :
    layerRelu 4000 64 64 x0 x1 x2 wl wr b j = layerRelu 100000 64 64 s x ic wl wr b i :=
  layerRelu_rows x0 x1 x2 s x ic wl wr b j i (fun k => h0 _ _ hi0 rfl) (fun k => h1 _ _ hi0 rfl) (h2 _ _ hi0 rfl)
    (Fin.ext hi1.symm)

/-- What point `t` of region 0 writes back is block `t` — rows `4000 t … 4000 t + 3999` — of the hidden layer of the
    whole input arrays: the body stores that layer of its six blocks, the weights' and the bias's blocks are the whole
    arrays, and row `p` of a row block is row `4000 t + p` of its array. -/
theorem bb_flushed0 (c : Dev nD) (t : Fin cfg0.N) :
    (dat0 (F := Ideal) V c).flushed 6 t = ((cfg0.win 6).blk t).view.read (Elt Ideal)
      (layerRelu 100000 64 64 (V c main_v24) (V c main_v13) (V c main_v12) (V c main_arg2) (V c main_arg3) (V c main_v25)) := by
  show (cfg0.win 6).cut (grid0.coords t) ((dat0 V c).after 6 t) = _
  rw [after0_6]
  unfold out0_6
  rw [View.canon_unit_zero bb_hz]
  simp only [View.ld_unit_zero (S := S4000x64) bb_hz, View.ld_unit_zero (S := S4000x1) bb_hz,
    View.ld_unit_zero (S := S64x64) bb_hz, View.ld_unit_zero (S := S1x64) bb_hz]
  rw [Pay.pay0, bb_read0_3 V c t, bb_read0_4 V c t, bb_read0_5 V c t]
  funext j
  show layerRelu 4000 64 64 _ _ _ _ _ _ ((win0 6).xinj (grid0.coords t) j)
    = layerRelu 100000 64 64 _ _ _ _ _ _ (((cfg0.win 6).blk t).view.emb j)
  obtain ⟨-, -, -, -, -, -, -, -, -, -, -, -, e0, e1⟩ := bb_idx0 t
  refine bb_point0 _ _ _ _ _ _ _ _ _ t.val (bb_read0_0 V c t) (bb_read0_1 V c t) (bb_read0_2 V c t) _ _ ?_ ?_
  · show win0_6.index t (0 : Fin 2) * 4000 + 1 * (j 0).val = 4000 * t.val + (j 0).val
    rw [e0]; omega
  · show win0_6.index t (1 : Fin 2) * 64 + 1 * (j 1).val = (j 1).val
    rw [e1]; omega

/-- An index of region 0's output array lies in point `t`'s block iff each coordinate is in the block's range on its
    axis. -/
theorem bb_mem_blk0 (t : Fin cfg0.N) (i : S100000x64.Idx) :
    i ∈ ((cfg0.win 6).blk t).view.set ↔ ∀ a : Fin 2, win0_6.index t a * S4000x64.size a ≤ (i a).val
      ∧ (i a).val < win0_6.index t a * S4000x64.size a + S4000x64.size a := by
  show i ∈ ((View.whole main_v26).slice (win0_6.rect t)).set ↔ _
  rw [View.set_slice_whole, Rect.mem_set_unit]
  exact Iff.rfl

/-- The 25 blocks cover the array: row `r` is in the block of point `r / 4000`, which is written back. -/
theorem bb_cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : (i 0).val / 4000 < cfg0.N := by rw [show cfg0.N = 25 from N_0]; omega
  obtain ⟨-, -, -, -, -, -, -, -, -, -, -, -, e0, e1⟩ := bb_idx0 ⟨(i 0).val / 4000, hN⟩
  refine ⟨⟨(i 0).val / 4000, hN⟩, flush0_6 _, ?_⟩
  rw [bb_mem_blk0]
  intro a
  match a with
  | ⟨0, _⟩ =>
    show win0_6.index ⟨(i 0).val / 4000, hN⟩ (0 : Fin 2) * 4000 ≤ (i 0).val
      ∧ (i 0).val < win0_6.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_6.index ⟨(i 0).val / 4000, hN⟩ (1 : Fin 2) * 64 ≤ (i 1).val
      ∧ (i 1).val < win0_6.index ⟨(i 0).val / 4000, hN⟩ (1 : Fin 2) * 64 + 64
    rw [e1]; omega

/-- Region 0 leaves the hidden layer 64 → 64 of its input arrays in its output array. -/
theorem arr0 (c : Dev nD) :
    (dat0 (F := Ideal) V c).arrAt 6 cfg0.N
      = layerRelu 100000 64 64 (V c main_v24) (V c main_v13) (V c main_v12) (V c main_arg2) (V c main_arg3) (V c main_v25) :=
  (dat0 (F := Ideal) V c).arrAt_eq_of_cover 6 _ (fun t _ => bb_flushed0 V c t) bb_cover0

/-! ## Region 1: the hidden layer 64 → 32 -/

/-- The index maps of region 1 over its 25 points: the three row windows and the output window are at block
    `(t, 0)`, the two weight matrices and the bias row at block `(0, 0)`. -/
theorem bb_idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry `y` of the block, at point `t`, of the features this layer finds summed over each node's in-neighbours is
    entry `(4000 t + y₀, y₁)` of their array: a block's coordinate on an axis is the block index times the block's size
    plus the coordinate inside the block. -/
theorem bb_read1_0 (c : Dev nD) (t : Fin cfg1.N) (y : S4000x64.Idx) (i : S100000x64.Idx)
    (h0 : (i 0).val = 4000 * t.val + (y 0).val) (h1 : (i 1).val = (y 1).val) :
    (iblk1 V c 0 t : Vec Ideal S4000x64 .f32) y = (V c main_v37 : S100000x64.Idx → EReal) i := by
  obtain ⟨e0, e1, -⟩ := bb_idx1 t
  unfold iblk1
  rw [View.read_apply]
  show V c main_v37 _ = V c main_v37 _
  refine congrArg _ ?_
  funext a
  apply Fin.ext
  match a with
  | ⟨0, _⟩ => show win1_0.index t (0 : Fin 2) * 4000 + 1 * (y 0).val = (i 0).val; rw [e0, h0]; omega
  | ⟨1, _⟩ => show win1_0.index t (1 : Fin 2) * 64 + 1 * (y 1).val = (i 1).val; rw [e1, h1]; omega

/-- The same for the block of the nodes' own features as this layer takes them. -/
theorem bb_read1_1 (c : Dev nD) (t : Fin cfg1.N) (y : S4000x64.Idx) (i : S100000x64.Idx)
    (h0 : (i 0).val = 4000 * t.val + (y 0).val) (h1 : (i 1).val = (y 1).val) :
    (iblk1 V c 1 t : Vec Ideal S4000x64 .bf16) y = (V c main_v26 : S100000x64.Idx → EReal) i := by
  obtain ⟨-, -, e0, e1, -⟩ := bb_idx1 t
  unfold iblk1
  rw [View.read_apply]
  show V c main_v26 _ = V c main_v26 _
  refine congrArg _ ?_
  funext a
  apply Fin.ext
  match a with
  | ⟨0, _⟩ => show win1_1.index t (0 : Fin 2) * 4000 + 1 * (y 0).val = (i 0).val; rw [e0, h0]; omega
  | ⟨1, _⟩ => show win1_1.index t (1 : Fin 2) * 64 + 1 * (y 1).val = (i 1).val; rw [e1, h1]; omega

/-- The same for the block of the reciprocal degrees, a column. -/
theorem bb_read1_2 (c : Dev nD) (t : Fin cfg1.N) (y : S4000x1.Idx) (i : S100000x1.Idx)
    (h0 : (i 0).val = 4000 * t.val + (y 0).val) (h1 : (i 1).val = (y 1).val) :
    (iblk1 V c 2 t : Vec Ideal S4000x1 .f32) y = (V c main_v12 : S100000x1.Idx → EReal) i := by
  obtain ⟨-, -, -, -, e0, e1, -⟩ := bb_idx1 t
  unfold iblk1
  rw [View.read_apply]
  show V c main_v12 _ = V c main_v12 _
  refine congrArg _ ?_
  funext a
  apply Fin.ext
  match a with
  | ⟨0, _⟩ => show win1_2.index t (0 : Fin 2) * 4000 + 1 * (y 0).val = (i 0).val; rw [e0, h0]; omega
  | ⟨1, _⟩ => show win1_2.index t (1 : Fin 2) * 1 + 1 * (y 1).val = (i 1).val; rw [e1, h1]; omega

/-- The block of the first weight matrix is the whole matrix at every point. -/
theorem bb_read1_3 (c : Dev nD) (t : Fin cfg1.N) :
    (iblk1 V c 3 t : Vec Ideal S64x32 .f32) = (V c main_arg5 : S64x32.Idx → EReal) := by
  obtain ⟨-, -, -, -, -, -, e0, e1, -⟩ := bb_idx1 t
  funext y
  unfold iblk1
  rw [View.read_apply]
  show V c main_arg5 _ = V c main_arg5 _
  refine congrArg _ ?_
  funext a
  apply Fin.ext
  match a with
  | ⟨0, _⟩ => show win1_3.index t (0 : Fin 2) * 64 + 1 * (y 0).val = (y 0).val; rw [e0]; omega
  | ⟨1, _⟩ => show win1_3.index t (1 : Fin 2) * 32 + 1 * (y 1).val = (y 1).val; rw [e1]; omega

/-- So is the block of the second weight matrix. -/
theorem bb_read1_4 (c : Dev nD) (t : Fin cfg1.N) :
    (iblk1 V c 4 t : Vec Ideal S64x32 .f32) = (V c main_arg6 : S64x32.Idx → EReal) := by
  obtain ⟨-, -, -, -, -, -, -, -, e0, e1, -⟩ := bb_idx1 t
  funext y
  unfold iblk1
  rw [View.read_apply]
  show V c main_arg6 _ = V c main_arg6 _
  refine congrArg _ ?_
  funext a
  apply Fin.ext
  match a with
  | ⟨0, _⟩ => show win1_4.index t (0 : Fin 2) * 64 + 1 * (y 0).val = (y 0).val; rw [e0]; omega
  | ⟨1, _⟩ => show win1_4.index t (1 : Fin 2) * 32 + 1 * (y 1).val = (y 1).val; rw [e1]; omega

/-- And the block of the bias row is the whole row. -/
theorem bb_read1_5 (c : Dev nD) (t : Fin cfg1.N) :
    (iblk1 V c 5 t : Vec Ideal S1x32 .f32) = (V c main_v38 : S1x32.Idx → EReal) := by
  obtain ⟨-, -, -, -, -, -, -, -, -, -, e0, e1, -⟩ := bb_idx1 t
  funext y
  unfold iblk1
  rw [View.read_apply]
  show V c main_v38 _ = V c main_v38 _
  refine congrArg _ ?_
  funext a
  apply Fin.ext
  match a with
  | ⟨0, _⟩ => show win1_5.index t (0 : Fin 2) * 1 + 1 * (y 0).val = (y 0).val; rw [e0]; omega
  | ⟨1, _⟩ => show win1_5.index t (1 : Fin 2) * 32 + 1 * (y 1).val = (y 1).val; rw [e1]; omega

/-- Entry `j` of the hidden layer of three row blocks, each the rows `4000 n … 4000 n + 3999` of its array, is entry
    `(4000 n + j₀, j₁)` of that layer of the arrays: an entry of the layer depends on its own row only. -/
theorem bb_point1 (s x : Mat 100000 64) (ic : Mat 100000 1) (wl wr : Mat 64 32) (b : Mat 1 32)
    (x0 : Vec Ideal S4000x64 .f32) (x1 : Vec Ideal S4000x64 .bf16) (x2 : Vec Ideal S4000x1 .f32) (n : ℕ)
    (h0 : ∀ (y : S4000x64.Idx) (i : S100000x64.Idx), (i 0).val = 4000 * n + (y 0).val → (i 1).val = (y 1).val → x0 y = s i)
    (h1 : ∀ (y : S4000x64.Idx) (i : S100000x64.Idx), (i 0).val = 4000 * n + (y 0).val → (i 1).val = (y 1).val → x1 y = x i)
    (h2 : ∀ (y : S4000x1.Idx) (i : S100000x1.Idx), (i 0).val = 4000 * n + (y 0).val → (i 1).val = (y 1).val → x2 y = ic i)
    (j : S4000x32.Idx) (i : S100000x32.Idx) (hi0 : (i 0).val = 4000 * n + (j 0).val) (hi1 : (i 1).val = (j 1).val) :
    layerRelu 4000 64 32 x0 x1 x2 wl wr b j = layerRelu 100000 64 32 s x ic wl wr b i :=
  layerRelu_rows x0 x1 x2 s x ic wl wr b j i (fun k => h0 _ _ hi0 rfl) (fun k => h1 _ _ hi0 rfl) (h2 _ _ hi0 rfl)
    (Fin.ext hi1.symm)

/-- What point `t` of region 1 writes back is block `t` — rows `4000 t … 4000 t + 3999` — of the hidden layer of the
    whole input arrays: the body stores that layer of its six blocks, the weights' and the bias's blocks are the whole
    arrays, and row `p` of a row block is row `4000 t + p` of its array. -/
theorem bb_flushed1 (c : Dev nD) (t : Fin cfg1.N) :
    (dat1 (F := Ideal) V c).flushed 6 t = ((cfg1.win 6).blk t).view.read (Elt Ideal)
      (layerRelu 100000 64 32 (V c main_v37) (V c main_v26) (V c main_v12) (V c main_arg5) (V c main_arg6) (V c main_v38)) := by
  show (cfg1.win 6).cut (grid1.coords t) ((dat1 V c).after 6 t) = _
  rw [after1_6]
  unfold out1_6
  rw [View.canon_unit_zero bb_hz]
  simp only [View.ld_unit_zero (S := S4000x64) bb_hz, View.ld_unit_zero (S := S4000x1) bb_hz,
    View.ld_unit_zero (S := S64x32) bb_hz, View.ld_unit_zero (S := S1x32) bb_hz]
  rw [Pay.pay1, bb_read1_3 V c t, bb_read1_4 V c t, bb_read1_5 V c t]
  funext j
  show layerRelu 4000 64 32 _ _ _ _ _ _ ((win1 6).xinj (grid1.coords t) j)
    = layerRelu 100000 64 32 _ _ _ _ _ _ (((cfg1.win 6).blk t).view.emb j)
  obtain ⟨-, -, -, -, -, -, -, -, -, -, -, -, e0, e1⟩ := bb_idx1 t
  refine bb_point1 _ _ _ _ _ _ _ _ _ t.val (bb_read1_0 V c t) (bb_read1_1 V c t) (bb_read1_2 V c t) _ _ ?_ ?_
  · show win1_6.index t (0 : Fin 2) * 4000 + 1 * (j 0).val = 4000 * t.val + (j 0).val
    rw [e0]; omega
  · show win1_6.index t (1 : Fin 2) * 32 + 1 * (j 1).val = (j 1).val
    rw [e1]; omega

/-- An index of region 1's output array lies in point `t`'s block iff each coordinate is in the block's range on its
    axis. -/
theorem bb_mem_blk1 (t : Fin cfg1.N) (i : S100000x32.Idx) :
    i ∈ ((cfg1.win 6).blk t).view.set ↔ ∀ a : Fin 2, win1_6.index t a * S4000x32.size a ≤ (i a).val
      ∧ (i a).val < win1_6.index t a * S4000x32.size a + S4000x32.size a := by
  show i ∈ ((View.whole main_v39).slice (win1_6.rect t)).set ↔ _
  rw [View.set_slice_whole, Rect.mem_set_unit]
  exact Iff.rfl

/-- The 25 blocks cover the array: row `r` is in the block of point `r / 4000`, which is written back. -/
theorem bb_cover1 (i : S100000x32.Idx) :
    ∃ t : Fin cfg1.N, (cfg1.win 6).flush t = true ∧ i ∈ ((cfg1.win 6).blk t).view.set := by
  have hi0 : (i 0).val < 100000 := (i 0).isLt
  have hi1 : (i 1).val < 32 := (i 1).isLt
  have hN : (i 0).val / 4000 < cfg1.N := by rw [show cfg1.N = 25 from N_1]; omega
  obtain ⟨-, -, -, -, -, -, -, -, -, -, -, -, e0, e1⟩ := bb_idx1 ⟨(i 0).val / 4000, hN⟩
  refine ⟨⟨(i 0).val / 4000, hN⟩, flush1_6 _, ?_⟩
  rw [bb_mem_blk1]
  intro a
  match a with
  | ⟨0, _⟩ =>
    show win1_6.index ⟨(i 0).val / 4000, hN⟩ (0 : Fin 2) * 4000 ≤ (i 0).val
      ∧ (i 0).val < win1_6.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, hN⟩ (1 : Fin 2) * 32 ≤ (i 1).val
      ∧ (i 1).val < win1_6.index ⟨(i 0).val / 4000, hN⟩ (1 : Fin 2) * 32 + 32
    rw [e1]; omega

/-- Region 1 leaves the hidden layer 64 → 32 of its input arrays in its output array. -/
theorem arr1 (c : Dev nD) :
    (dat1 (F := Ideal) V c).arrAt 6 cfg1.N
      = layerRelu 100000 64 32 (V c main_v37) (V c main_v26) (V c main_v12) (V c main_arg5) (V c main_arg6) (V c main_v38) :=
  (dat1 (F := Ideal) V c).arrAt_eq_of_cover 6 _ (fun t _ => bb_flushed1 V c t) bb_cover1

/-! ## Region 2: the last layer 32 → 10 -/

/-- The index maps of region 2 over its 25 points: the three row windows and the output window are at block
    `(t, 0)`, the two weight matrices and the bias row at block `(0, 0)`. -/
theorem bb_idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Entry `y` of the block, at point `t`, of the features this layer finds summed over each node's in-neighbours is
    entry `(4000 t + y₀, y₁)` of their array: a block's coordinate on an axis is the block index times the block's size
    plus the coordinate inside the block. -/
theorem bb_read2_0 (c : Dev nD) (t : Fin cfg2.N) (y : S4000x32.Idx) (i : S100000x32.Idx)
    (h0 : (i 0).val = 4000 * t.val + (y 0).val) (h1 : (i 1).val = (y 1).val) :
    (iblk2 V c 0 t : Vec Ideal S4000x32 .f32) y = (V c main_v50 : S100000x32.Idx → EReal) i := by
  obtain ⟨e0, e1, -⟩ := bb_idx2 t
  unfold iblk2
  rw [View.read_apply]
  show V c main_v50 _ = V c main_v50 _
  refine congrArg _ ?_
  funext a
  apply Fin.ext
  match a with
  | ⟨0, _⟩ => show win2_0.index t (0 : Fin 2) * 4000 + 1 * (y 0).val = (i 0).val; rw [e0, h0]; omega
  | ⟨1, _⟩ => show win2_0.index t (1 : Fin 2) * 32 + 1 * (y 1).val = (i 1).val; rw [e1, h1]; omega

/-- The same for the block of the nodes' own features as this layer takes them. -/
theorem bb_read2_1 (c : Dev nD) (t : Fin cfg2.N) (y : S4000x32.Idx) (i : S100000x32.Idx)
    (h0 : (i 0).val = 4000 * t.val + (y 0).val) (h1 : (i 1).val = (y 1).val) :
    (iblk2 V c 1 t : Vec Ideal S4000x32 .bf16) y = (V c main_v39 : S100000x32.Idx → EReal) i := by
  obtain ⟨-, -, e0, e1, -⟩ := bb_idx2 t
  unfold iblk2
  rw [View.read_apply]
  show V c main_v39 _ = V c main_v39 _
  refine congrArg _ ?_
  funext a
  apply Fin.ext
  match a with
  | ⟨0, _⟩ => show win2_1.index t (0 : Fin 2) * 4000 + 1 * (y 0).val = (i 0).val; rw [e0, h0]; omega
  | ⟨1, _⟩ => show win2_1.index t (1 : Fin 2) * 32 + 1 * (y 1).val = (i 1).val; rw [e1, h1]; omega

/-- The same for the block of the reciprocal degrees, a column. -/
theorem bb_read2_2 (c : Dev nD) (t : Fin cfg2.N) (y : S4000x1.Idx) (i : S100000x1.Idx)
    (h0 : (i 0).val = 4000 * t.val + (y 0).val) (h1 : (i 1).val = (y 1).val) :
    (iblk2 V c 2 t : Vec Ideal S4000x1 .f32) y = (V c main_v12 : S100000x1.Idx → EReal) i := by
  obtain ⟨-, -, -, -, e0, e1, -⟩ := bb_idx2 t
  unfold iblk2
  rw [View.read_apply]
  show V c main_v12 _ = V c main_v12 _
  refine congrArg _ ?_
  funext a
  apply Fin.ext
  match a with
  | ⟨0, _⟩ => show win2_2.index t (0 : Fin 2) * 4000 + 1 * (y 0).val = (i 0).val; rw [e0, h0]; omega
  | ⟨1, _⟩ => show win2_2.index t (1 : Fin 2) * 1 + 1 * (y 1).val = (i 1).val; rw [e1, h1]; omega

/-- The block of the first weight matrix is the whole matrix at every point. -/
theorem bb_read2_3 (c : Dev nD) (t : Fin cfg2.N) :
    (iblk2 V c 3 t : Vec Ideal S32x10 .f32) = (V c main_arg8 : S32x10.Idx → EReal) := by
  obtain ⟨-, -, -, -, -, -, e0, e1, -⟩ := bb_idx2 t
  funext y
  unfold iblk2
  rw [View.read_apply]
  show V c main_arg8 _ = V c main_arg8 _
  refine congrArg _ ?_
  funext a
  apply Fin.ext
  match a with
  | ⟨0, _⟩ => show win2_3.index t (0 : Fin 2) * 32 + 1 * (y 0).val = (y 0).val; rw [e0]; omega
  | ⟨1, _⟩ => show win2_3.index t (1 : Fin 2) * 10 + 1 * (y 1).val = (y 1).val; rw [e1]; omega

/-- So is the block of the second weight matrix. -/
theorem bb_read2_4 (c : Dev nD) (t : Fin cfg2.N) :
    (iblk2 V c 4 t : Vec Ideal S32x10 .f32) = (V c main_arg9 : S32x10.Idx → EReal) := by
  obtain ⟨-, -, -, -, -, -, -, -, e0, e1, -⟩ := bb_idx2 t
  funext y
  unfold iblk2
  rw [View.read_apply]
  show V c main_arg9 _ = V c main_arg9 _
  refine congrArg _ ?_
  funext a
  apply Fin.ext
  match a with
  | ⟨0, _⟩ => show win2_4.index t (0 : Fin 2) * 32 + 1 * (y 0).val = (y 0).val; rw [e0]; omega
  | ⟨1, _⟩ => show win2_4.index t (1 : Fin 2) * 10 + 1 * (y 1).val = (y 1).val; rw [e1]; omega

/-- And the block of the bias row is the whole row. -/
theorem bb_read2_5 (c : Dev nD) (t : Fin cfg2.N) :
    (iblk2 V c 5 t : Vec Ideal S1x10 .f32) = (V c main_v51 : S1x10.Idx → EReal) := by
  obtain ⟨-, -, -, -, -, -, -, -, -, -, e0, e1, -⟩ := bb_idx2 t
  funext y
  unfold iblk2
  rw [View.read_apply]
  show V c main_v51 _ = V c main_v51 _
  refine congrArg _ ?_
  funext a
  apply Fin.ext
  match a with
  | ⟨0, _⟩ => show win2_5.index t (0 : Fin 2) * 1 + 1 * (y 0).val = (y 0).val; rw [e0]; omega
  | ⟨1, _⟩ => show win2_5.index t (1 : Fin 2) * 10 + 1 * (y 1).val = (y 1).val; rw [e1]; omega

/-- Entry `j` of the last layer of three row blocks, each the rows `4000 n … 4000 n + 3999` of its array, is entry
    `(4000 n + j₀, j₁)` of that layer of the arrays: an entry of the layer depends on its own row only. -/
theorem bb_point2 (s x : Mat 100000 32) (ic : Mat 100000 1) (wl wr : Mat 32 10) (b : Mat 1 10)
    (x0 : Vec Ideal S4000x32 .f32) (x1 : Vec Ideal S4000x32 .bf16) (x2 : Vec Ideal S4000x1 .f32) (n : ℕ)
    (h0 : ∀ (y : S4000x32.Idx) (i : S100000x32.Idx), (i 0).val = 4000 * n + (y 0).val → (i 1).val = (y 1).val → x0 y = s i)
    (h1 : ∀ (y : S4000x32.Idx) (i : S100000x32.Idx), (i 0).val = 4000 * n + (y 0).val → (i 1).val = (y 1).val → x1 y = x i)
    (h2 : ∀ (y : S4000x1.Idx) (i : S100000x1.Idx), (i 0).val = 4000 * n + (y 0).val → (i 1).val = (y 1).val → x2 y = ic i)
    (j : S4000x10.Idx) (i : S100000x10.Idx) (hi0 : (i 0).val = 4000 * n + (j 0).val) (hi1 : (i 1).val = (j 1).val) :
    layerLsm 4000 32 10 x0 x1 x2 wl wr b j = layerLsm 100000 32 10 s x ic wl wr b i :=
  layerLsm_rows x0 x1 x2 s x ic wl wr b j i (fun k => h0 _ _ hi0 rfl) (fun k => h1 _ _ hi0 rfl) (h2 _ _ hi0 rfl)
    (Fin.ext hi1.symm)

/-- What point `t` of region 2 writes back is block `t` — rows `4000 t … 4000 t + 3999` — of the last layer of the
    whole input arrays: the body stores that layer of its six blocks, the weights' and the bias's blocks are the whole
    arrays, and row `p` of a row block is row `4000 t + p` of its array. -/
theorem bb_flushed2 (c : Dev nD) (t : Fin cfg2.N) :
    (dat2 (F := Ideal) V c).flushed 6 t = ((cfg2.win 6).blk t).view.read (Elt Ideal)
      (layerLsm 100000 32 10 (V c main_v50) (V c main_v39) (V c main_v12) (V c main_arg8) (V c main_arg9) (V c main_v51)) := by
  show (cfg2.win 6).cut (grid2.coords t) ((dat2 V c).after 6 t) = _
  rw [after2_6]
  unfold out2_6
  rw [View.canon_unit_zero bb_hz]
  simp only [View.ld_unit_zero (S := S4000x32) bb_hz, View.ld_unit_zero (S := S4000x1) bb_hz,
    View.ld_unit_zero (S := S32x10) bb_hz, View.ld_unit_zero (S := S1x10) bb_hz]
  rw [Pay.pay2, bb_read2_3 V c t, bb_read2_4 V c t, bb_read2_5 V c t]
  funext j
  show layerLsm 4000 32 10 _ _ _ _ _ _ ((win2 6).xinj (grid2.coords t) j)
    = layerLsm 100000 32 10 _ _ _ _ _ _ (((cfg2.win 6).blk t).view.emb j)
  obtain ⟨-, -, -, -, -, -, -, -, -, -, -, -, e0, e1⟩ := bb_idx2 t
  refine bb_point2 _ _ _ _ _ _ _ _ _ t.val (bb_read2_0 V c t) (bb_read2_1 V c t) (bb_read2_2 V c t) _ _ ?_ ?_
  · show win2_6.index t (0 : Fin 2) * 4000 + 1 * (j 0).val = 4000 * t.val + (j 0).val
    rw [e0]; omega
  · show win2_6.index t (1 : Fin 2) * 10 + 1 * (j 1).val = (j 1).val
    rw [e1]; omega

/-- An index of region 2's output array lies in point `t`'s block iff each coordinate is in the block's range on its
    axis. -/
theorem bb_mem_blk2 (t : Fin cfg2.N) (i : S100000x10.Idx) :
    i ∈ ((cfg2.win 6).blk t).view.set ↔ ∀ a : Fin 2, win2_6.index t a * S4000x10.size a ≤ (i a).val
      ∧ (i a).val < win2_6.index t a * S4000x10.size a + S4000x10.size a := by
  show i ∈ ((View.whole main_v52).slice (win2_6.rect t)).set ↔ _
  rw [View.set_slice_whole, Rect.mem_set_unit]
  exact Iff.rfl

/-- The 25 blocks cover the array: row `r` is in the block of point `r / 4000`, which is written back. -/
theorem bb_cover2 (i : S100000x10.Idx) :
    ∃ t : Fin cfg2.N, (cfg2.win 6).flush t = true ∧ i ∈ ((cfg2.win 6).blk t).view.set := by
  have hi0 : (i 0).val < 100000 := (i 0).isLt
  have hi1 : (i 1).val < 10 := (i 1).isLt
  have hN : (i 0).val / 4000 < cfg2.N := by rw [show cfg2.N = 25 from N_2]; omega
  obtain ⟨-, -, -, -, -, -, -, -, -, -, -, -, e0, e1⟩ := bb_idx2 ⟨(i 0).val / 4000, hN⟩
  refine ⟨⟨(i 0).val / 4000, hN⟩, flush2_6 _, ?_⟩
  rw [bb_mem_blk2]
  intro a
  match a with
  | ⟨0, _⟩ =>
    show win2_6.index ⟨(i 0).val / 4000, hN⟩ (0 : Fin 2) * 4000 ≤ (i 0).val
      ∧ (i 0).val < win2_6.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win2_6.index ⟨(i 0).val / 4000, hN⟩ (1 : Fin 2) * 10 ≤ (i 1).val
      ∧ (i 1).val < win2_6.index ⟨(i 0).val / 4000, hN⟩ (1 : Fin 2) * 10 + 10
    rw [e1]; omega

/-- Region 2 leaves the last layer 32 → 10 of its input arrays in its output array. -/
theorem arr2 (c : Dev nD) :
    (dat2 (F := Ideal) V c).arrAt 6 cfg2.N
      = layerLsm 100000 32 10 (V c main_v50) (V c main_v39) (V c main_v12) (V c main_arg8) (V c main_arg9) (V c main_v51) :=
  (dat2 (F := Ideal) V c).arrAt_eq_of_cover 6 _ (fun t _ => bb_flushed2 V c t) bb_cover2

end Cert.KernelIdeal.Blocks

end
-- ==== Proof.RefLayers.lean ====
import proofs.«159893_j54039278518913_2_alg».proof.Proof.PRefRead
import proofs.«159893_j54039278518913_2_alg».proof.Proof.Spec
import proofs.«159893_j54039278518913_2_alg».proof.Proof.LibPlainDot
import proofs.«159893_j54039278518913_2_alg».proof.Proof.LibKeepdims
import proofs.«159893_j54039278518913_2_alg».proof.Proof.LibRowMax
import Idealize.ShloMosaic.Lib.Pipeline.Value
import Idealize.ShloMosaic.Lib.ValueLayout

/-! The reference's three layers, on the extended reals: each layer's result array is the layer function of the
    aggregated features, the previous layer's result and the reciprocal degrees, all 100000 rows of it. -/

noncomputable section

namespace Cert.RefLayers

open Idealize.ShloMosaic Idealize.ShloMosaic.ValueIdx Cert.ReferenceIdeal Cert.ReferenceIdeal.Read Cert.Sage

/-- The host's reduce with a maximum body over the columns (axis 1) of a matrix, at row `p`: the fold of `max` from the
    initial value's element over that row. -/
theorem ll_hostMax_axis1 {a b : ℕ} (src : FVec Ideal (⟨2, ![a, b]⟩ : Shape) .f32) (init : FVec Ideal (⟨0, ![]⟩ : Shape) .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf src init h' hu (ix1 p)
      = (Finset.univ : Finset (Fin b)).fold max (init (Shape.Idx.first hu)) (fun k => src (ix2 p k)) :=
  (Host.reduce_eq_fold_single FloatOps.maximumf src init h' h hu (ix1 p)).trans
    (congrArg (fun f => Finset.fold max (init (Shape.Idx.first hu)) f (Finset.univ : Finset (Fin b)))
      (funext fun k => congrArg src (funext fun ax => Fin.ext (by
        match ax with
        | ⟨0, _⟩ => rfl
        | ⟨1, _⟩ => rfl))))

/-- The first layer's mean at an index: the summed features over the floored degree are the summed features times the
    reciprocal of the floored degree. -/
theorem ll_mean1 (x0 : (⟨S100000x64, .f32⟩ : BufTy).Contents (Elt Ideal)) (x1 : (⟨S2x1200000, .i32⟩ : BufTy).Contents (Elt Ideal))
    (p : Fin 100000) (k : Fin 64) :
    val_main_v22 (F := Ideal) x0 x1 (ix2 p k)
      = meanRow (val_main_v13 (F := Ideal) x0 x1) (invDeg (val_main_v17 (F := Ideal) x1)) p k := by
  rw [val_main_v22_apply, val_main_v21_apply, val_main_v20_apply, val_main_v19_apply, val_main_v18_apply, val_main_cst_3_apply]
  have hi : idx_main_v20 (idx_main_v21 (ix2 p k)) = ix1 p := funext fun a => Fin.ext (by match a with | ⟨0, _⟩ => rfl)
  rw [hi]
  generalize val_main_v13 (F := Ideal) x0 x1 = S
  generalize val_main_v17 (F := Ideal) x1 = C
  exact div_eq_mul_inv _ _ (max_one_ne_zero _)

/-- The first layer before the normalisation, at an index: the affine part of the layer on row `p`. -/
theorem ll_pre1 (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal)) (p : Fin 100000) (q : Fin 64) :
    val_main_v28 (F := Ideal) x0 x1 x2 x3 x4 (ix2 p q)
      = pre (meanRow (val_main_v13 (F := Ideal) x0 x1) (invDeg (val_main_v17 (F := Ideal) x1)) p) (fun k => x0 (ix2 p k))
          (fun k q => x2 (ix2 k q)) (fun k q => x3 (ix2 k q)) (fun q => biasRow x4 (ix2 0 q)) q := by
  rw [val_main_v28_apply, val_main_v26_apply, val_main_v23_apply, val_main_v27_apply, val_main_v25_apply, val_main_v24_apply]
  have hl : ∀ k : Fin 64, lidx_main_v23 (ix2 p q) k = ix2 p k := fun k => funext fun a => Fin.ext (by match a with | ⟨0, _⟩ => rfl | ⟨1, _⟩ => rfl)
  have hr : ∀ k : Fin 64, ridx_main_v23 (ix2 p q) k = ix2 k q := fun k => funext fun a => Fin.ext (by match a with | ⟨0, _⟩ => rfl | ⟨1, _⟩ => rfl)
  have hl' : ∀ k : Fin 64, lidx_main_v27 (ix2 p q) k = ix2 p k := fun k => funext fun a => Fin.ext (by match a with | ⟨0, _⟩ => rfl | ⟨1, _⟩ => rfl)
  have hr' : ∀ k : Fin 64, ridx_main_v27 (ix2 p q) k = ix2 k q := fun k => funext fun a => Fin.ext (by match a with | ⟨0, _⟩ => rfl | ⟨1, _⟩ => rfl)
  have hb : idx_main_v24 (idx_main_v25 (ix2 p q)) = ix1 q := funext fun a => Fin.ext (by match a with | ⟨0, _⟩ => rfl)
  simp only [hl, hr, hl', hr', hb, ll_mean1]
  generalize meanRow (val_main_v13 (F := Ideal) x0 x1) (invDeg (val_main_v17 (F := Ideal) x1)) p = a
  exact pre_bias_mid _ _ _

/-- The first layer's result (after `relu`). -/
theorem layer1 (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal)) :
    val_main_v34 (F := Ideal) x0 x1 x2 x3 x4
      = layerRelu 100000 64 64 (val_main_v13 (F := Ideal) x0 x1) x0 (invDeg (val_main_v17 (F := Ideal) x1)) x2 x3 (biasRow x4) := by
  funext i
  obtain ⟨p, q, rfl⟩ : ∃ (p : Fin 100000) (q : Fin 64), i = ix2 p q := ⟨i 0, i 1, eq_ix2 i⟩
  rw [val_main_v34_apply, val_main_call1_v0_apply, val_main_call1_cst_apply, val_main_v33_apply, val_main_v32_apply, val_main_v31_apply,
    val_main_v30_apply, val_main_cst_4_apply, val_main_v29_apply, val_main_call0_v2_apply, val_main_call0_v1_apply,
    val_main_call0_cst_apply, ll_pre1]
  have hsq : ∀ k : Fin 64, val_main_call0_v0 (F := Ideal) x0 x1 x2 x3 x4 (idx_main_call0_v1 (idx_main_call0_v2 (idx_main_v32 (ix2 p q))) k)
      = pre (meanRow (val_main_v13 (F := Ideal) x0 x1) (invDeg (val_main_v17 (F := Ideal) x1)) p) (fun k => x0 (ix2 p k))
          (fun k q => x2 (ix2 k q)) (fun k q => x3 (ix2 k q)) (fun q => biasRow x4 (ix2 0 q)) k
        * pre (meanRow (val_main_v13 (F := Ideal) x0 x1) (invDeg (val_main_v17 (F := Ideal) x1)) p) (fun k => x0 (ix2 p k))
          (fun k q => x2 (ix2 k q)) (fun k q => x3 (ix2 k q)) (fun q => biasRow x4 (ix2 0 q)) k := fun k => by
    rw [show idx_main_call0_v1 (idx_main_call0_v2 (idx_main_v32 (ix2 p q))) k = ix2 p k from funext fun a => Fin.ext (by match a with | ⟨0, _⟩ => rfl | ⟨1, _⟩ => rfl),
      val_main_call0_v0_apply, ll_pre1, Ideal.mulf_def]
  simp only [hsq]
  clear hsq
  generalize val_main_v13 (F := Ideal) x0 x1 = S
  generalize val_main_v17 (F := Ideal) x1 = C
  rw [Ideal.ofBits_def, Ideal.ofBits_zero_f32, zero_add]
  rfl

/-- The second layer's mean at an index: the summed features over the floored degree are the summed features times the
    reciprocal of the floored degree. -/
theorem ll_mean2 (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal)) (p : Fin 100000) (k : Fin 64) :
    val_main_v53 (F := Ideal) x0 x1 x2 x3 x4 (ix2 p k)
      = meanRow (val_main_v44 (F := Ideal) x0 x1 x2 x3 x4) (invDeg (val_main_v48 (F := Ideal) x1)) p k := by
  rw [val_main_v53_apply, val_main_v52_apply, val_main_v51_apply, val_main_v50_apply, val_main_v49_apply, val_main_cst_10_apply]
  have hi : idx_main_v51 (idx_main_v52 (ix2 p k)) = ix1 p := funext fun a => Fin.ext (by match a with | ⟨0, _⟩ => rfl)
  rw [hi]
  generalize val_main_v44 (F := Ideal) x0 x1 x2 x3 x4 = S
  generalize val_main_v48 (F := Ideal) x1 = C
  exact div_eq_mul_inv _ _ (max_one_ne_zero _)

/-- The second layer before the normalisation, at an index: the affine part of the layer on row `p`. -/
theorem ll_pre2 (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal)) (p : Fin 100000) (q : Fin 32) :
    val_main_v59 (F := Ideal) x0 x1 x2 x3 x4 x5 x6 x7 (ix2 p q)
      = pre (meanRow (val_main_v44 (F := Ideal) x0 x1 x2 x3 x4) (invDeg (val_main_v48 (F := Ideal) x1)) p) (fun k => val_main_v34 (F := Ideal) x0 x1 x2 x3 x4 (ix2 p k))
          (fun k q => x5 (ix2 k q)) (fun k q => x6 (ix2 k q)) (fun q => biasRow x7 (ix2 0 q)) q := by
  rw [val_main_v59_apply, val_main_v57_apply, val_main_v54_apply, val_main_v58_apply, val_main_v56_apply, val_main_v55_apply]
  have hl : ∀ k : Fin 64, lidx_main_v54 (ix2 p q) k = ix2 p k := fun k => funext fun a => Fin.ext (by match a with | ⟨0, _⟩ => rfl | ⟨1, _⟩ => rfl)
  have hr : ∀ k : Fin 64, ridx_main_v54 (ix2 p q) k = ix2 k q := fun k => funext fun a => Fin.ext (by match a with | ⟨0, _⟩ => rfl | ⟨1, _⟩ => rfl)
  have hl' : ∀ k : Fin 64, lidx_main_v58 (ix2 p q) k = ix2 p k := fun k => funext fun a => Fin.ext (by match a with | ⟨0, _⟩ => rfl | ⟨1, _⟩ => rfl)
  have hr' : ∀ k : Fin 64, ridx_main_v58 (ix2 p q) k = ix2 k q := fun k => funext fun a => Fin.ext (by match a with | ⟨0, _⟩ => rfl | ⟨1, _⟩ => rfl)
  have hb : idx_main_v55 (idx_main_v56 (ix2 p q)) = ix1 q := funext fun a => Fin.ext (by match a with | ⟨0, _⟩ => rfl)
  simp only [hl, hr, hl', hr', hb, ll_mean2]
  generalize meanRow (val_main_v44 (F := Ideal) x0 x1 x2 x3 x4) (invDeg (val_main_v48 (F := Ideal) x1)) p = a
  exact pre_bias_mid _ _ _

/-- The second layer's result (after `relu`). -/
theorem layer2 (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal)) :
    val_main_v65 (F := Ideal) x0 x1 x2 x3 x4 x5 x6 x7
      = layerRelu 100000 64 32 (val_main_v44 (F := Ideal) x0 x1 x2 x3 x4) (val_main_v34 (F := Ideal) x0 x1 x2 x3 x4)
          (invDeg (val_main_v48 (F := Ideal) x1)) x5 x6 (biasRow x7) := by
  funext i
  obtain ⟨p, q, rfl⟩ : ∃ (p : Fin 100000) (q : Fin 32), i = ix2 p q := ⟨i 0, i 1, eq_ix2 i⟩
  rw [val_main_v65_apply, val_main_call3_v0_apply, val_main_call3_cst_apply, val_main_v64_apply, val_main_v63_apply, val_main_v62_apply,
    val_main_v61_apply, val_main_cst_11_apply, val_main_v60_apply, val_main_call2_v2_apply, val_main_call2_v1_apply,
    val_main_call2_cst_apply, ll_pre2]
  have hsq : ∀ k : Fin 32, val_main_call2_v0 (F := Ideal) x0 x1 x2 x3 x4 x5 x6 x7 (idx_main_call2_v1 (idx_main_call2_v2 (idx_main_v63 (ix2 p q))) k)
      = pre (meanRow (val_main_v44 (F := Ideal) x0 x1 x2 x3 x4) (invDeg (val_main_v48 (F := Ideal) x1)) p) (fun k => val_main_v34 (F := Ideal) x0 x1 x2 x3 x4 (ix2 p k))
          (fun k q => x5 (ix2 k q)) (fun k q => x6 (ix2 k q)) (fun q => biasRow x7 (ix2 0 q)) k
        * pre (meanRow (val_main_v44 (F := Ideal) x0 x1 x2 x3 x4) (invDeg (val_main_v48 (F := Ideal) x1)) p) (fun k => val_main_v34 (F := Ideal) x0 x1 x2 x3 x4 (ix2 p k))
          (fun k q => x5 (ix2 k q)) (fun k q => x6 (ix2 k q)) (fun q => biasRow x7 (ix2 0 q)) k := fun k => by
    rw [show idx_main_call2_v1 (idx_main_call2_v2 (idx_main_v63 (ix2 p q))) k = ix2 p k from funext fun a => Fin.ext (by match a with | ⟨0, _⟩ => rfl | ⟨1, _⟩ => rfl),
      val_main_call2_v0_apply, ll_pre2, Ideal.mulf_def]
  simp only [hsq]
  clear hsq
  generalize val_main_v44 (F := Ideal) x0 x1 x2 x3 x4 = S
  generalize val_main_v48 (F := Ideal) x1 = C
  generalize val_main_v34 (F := Ideal) x0 x1 x2 x3 x4 = X
  rw [Ideal.ofBits_def, Ideal.ofBits_zero_f32, zero_add]
  rfl

/-- The third layer's mean at an index: the summed features over the floored degree are the summed features times the
    reciprocal of the floored degree. -/
theorem ll_mean3 (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal)) (p : Fin 100000) (k : Fin 32) :
    val_main_v84 (F := Ideal) x0 x1 x2 x3 x4 x5 x6 x7 (ix2 p k)
      = meanRow (val_main_v75 (F := Ideal) x0 x1 x2 x3 x4 x5 x6 x7) (invDeg (val_main_v79 (F := Ideal) x1)) p k := by
  rw [val_main_v84_apply, val_main_v83_apply, val_main_v82_apply, val_main_v81_apply, val_main_v80_apply, val_main_cst_17_apply]
  have hi : idx_main_v82 (idx_main_v83 (ix2 p k)) = ix1 p := funext fun a => Fin.ext (by match a with | ⟨0, _⟩ => rfl)
  rw [hi]
  generalize val_main_v75 (F := Ideal) x0 x1 x2 x3 x4 x5 x6 x7 = S
  generalize val_main_v79 (F := Ideal) x1 = C
  exact div_eq_mul_inv _ _ (max_one_ne_zero _)

/-- The third layer before the normalisation, at an index: the affine part of the layer on row `p`. -/
theorem ll_pre3 (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal))
    (x8 x9 : (⟨S32x10, .f32⟩ : BufTy).Contents (Elt Ideal)) (x10 : (⟨S10, .f32⟩ : BufTy).Contents (Elt Ideal)) (p : Fin 100000) (q : Fin 10) :
    val_main_v90 (F := Ideal) x0 x1 x2 x3 x4 x5 x6 x7 x8 x9 x10 (ix2 p q)
      = pre (meanRow (val_main_v75 (F := Ideal) x0 x1 x2 x3 x4 x5 x6 x7) (invDeg (val_main_v79 (F := Ideal) x1)) p) (fun k => val_main_v65 (F := Ideal) x0 x1 x2 x3 x4 x5 x6 x7 (ix2 p k))
          (fun k q => x8 (ix2 k q)) (fun k q => x9 (ix2 k q)) (fun q => biasRow x10 (ix2 0 q)) q := by
  rw [val_main_v90_apply, val_main_v88_apply, val_main_v85_apply, val_main_v89_apply, val_main_v87_apply, val_main_v86_apply]
  have hl : ∀ k : Fin 32, lidx_main_v85 (ix2 p q) k = ix2 p k := fun k => funext fun a => Fin.ext (by match a with | ⟨0, _⟩ => rfl | ⟨1, _⟩ => rfl)
  have hr : ∀ k : Fin 32, ridx_main_v85 (ix2 p q) k = ix2 k q := fun k => funext fun a => Fin.ext (by match a with | ⟨0, _⟩ => rfl | ⟨1, _⟩ => rfl)
  have hl' : ∀ k : Fin 32, lidx_main_v89 (ix2 p q) k = ix2 p k := fun k => funext fun a => Fin.ext (by match a with | ⟨0, _⟩ => rfl | ⟨1, _⟩ => rfl)
  have hr' : ∀ k : Fin 32, ridx_main_v89 (ix2 p q) k = ix2 k q := fun k => funext fun a => Fin.ext (by match a with | ⟨0, _⟩ => rfl | ⟨1, _⟩ => rfl)
  have hb : idx_main_v86 (idx_main_v87 (ix2 p q)) = ix1 q := funext fun a => Fin.ext (by match a with | ⟨0, _⟩ => rfl)
  simp only [hl, hr, hl', hr', hb, ll_mean3]
  generalize meanRow (val_main_v75 (F := Ideal) x0 x1 x2 x3 x4 x5 x6 x7) (invDeg (val_main_v79 (F := Ideal) x1)) p = a
  exact pre_bias_mid _ _ _

/-- The third layer's normalised row at an index: the affine part of the layer on row `p` over its floored norm. -/
theorem ll_nrm3 (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal))
    (x8 x9 : (⟨S32x10, .f32⟩ : BufTy).Contents (Elt Ideal)) (x10 : (⟨S10, .f32⟩ : BufTy).Contents (Elt Ideal)) (p : Fin 100000) (q : Fin 10) :
    val_main_v95 (F := Ideal) x0 x1 x2 x3 x4 x5 x6 x7 x8 x9 x10 (ix2 p q)
      = nrm (pre (meanRow (val_main_v75 (F := Ideal) x0 x1 x2 x3 x4 x5 x6 x7) (invDeg (val_main_v79 (F := Ideal) x1)) p) (fun k => val_main_v65 (F := Ideal) x0 x1 x2 x3 x4 x5 x6 x7 (ix2 p k))
          (fun k q => x8 (ix2 k q)) (fun k q => x9 (ix2 k q)) (fun q => biasRow x10 (ix2 0 q))) q := by
  rw [val_main_v95_apply, val_main_v94_apply, val_main_v93_apply,
    val_main_v92_apply, val_main_cst_18_apply, val_main_v91_apply, val_main_call4_v2_apply, val_main_call4_v1_apply,
    val_main_call4_cst_apply, ll_pre3]
  have hsq : ∀ k : Fin 10, val_main_call4_v0 (F := Ideal) x0 x1 x2 x3 x4 x5 x6 x7 x8 x9 x10 (idx_main_call4_v1 (idx_main_call4_v2 (idx_main_v94 (ix2 p q))) k)
      = pre (meanRow (val_main_v75 (F := Ideal) x0 x1 x2 x3 x4 x5 x6 x7) (invDeg (val_main_v79 (F := Ideal) x1)) p) (fun k => val_main_v65 (F := Ideal) x0 x1 x2 x3 x4 x5 x6 x7 (ix2 p k))
          (fun k q => x8 (ix2 k q)) (fun k q => x9 (ix2 k q)) (fun q => biasRow x10 (ix2 0 q)) k
        * pre (meanRow (val_main_v75 (F := Ideal) x0 x1 x2 x3 x4 x5 x6 x7) (invDeg (val_main_v79 (F := Ideal) x1)) p) (fun k => val_main_v65 (F := Ideal) x0 x1 x2 x3 x4 x5 x6 x7 (ix2 p k))
          (fun k q => x8 (ix2 k q)) (fun k q => x9 (ix2 k q)) (fun q => biasRow x10 (ix2 0 q)) k := fun k => by
    rw [show idx_main_call4_v1 (idx_main_call4_v2 (idx_main_v94 (ix2 p q))) k = ix2 p k from funext fun a => Fin.ext (by match a with | ⟨0, _⟩ => rfl | ⟨1, _⟩ => rfl),
      val_main_call4_v0_apply, ll_pre3, Ideal.mulf_def]
  simp only [hsq]
  clear hsq
  generalize val_main_v75 (F := Ideal) x0 x1 x2 x3 x4 x5 x6 x7 = S
  generalize val_main_v79 (F := Ideal) x1 = C
  generalize val_main_v65 (F := Ideal) x0 x1 x2 x3 x4 x5 x6 x7 = X
  rw [Ideal.ofBits_def, Ideal.ofBits_zero_f32, zero_add]
  rfl

/-- The third layer's row maximum (taken once more against −∞) at row `p`. -/
theorem ll_rowmax3 (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal))
    (x8 x9 : (⟨S32x10, .f32⟩ : BufTy).Contents (Elt Ideal)) (x10 : (⟨S10, .f32⟩ : BufTy).Contents (Elt Ideal)) (p : Fin 100000) :
    val_main_call5_v2 (F := Ideal) x0 x1 x2 x3 x4 x5 x6 x7 x8 x9 x10 (ix1 p)
      = rowMax (nrm (pre (meanRow (val_main_v75 (F := Ideal) x0 x1 x2 x3 x4 x5 x6 x7) (invDeg (val_main_v79 (F := Ideal) x1)) p) (fun k => val_main_v65 (F := Ideal) x0 x1 x2 x3 x4 x5 x6 x7 (ix2 p k))
          (fun k q => x8 (ix2 k q)) (fun k q => x9 (ix2 k q)) (fun q => biasRow x10 (ix2 0 q)))) := by
  rw [val_main_call5_v2_apply, val_main_call5_v1_apply, val_main_call5_cst_0_apply]
  unfold val_main_call5_v0
  rw [ll_hostMax_axis1 _ _ Gen.reducesTo_S100000x10_S100000_d1 (by decide) Gen.h_S_ p, val_main_call5_cst_apply]
  simp only [ll_nrm3]
  generalize val_main_v75 (F := Ideal) x0 x1 x2 x3 x4 x5 x6 x7 = S
  generalize val_main_v79 (F := Ideal) x1 = C
  generalize val_main_v65 (F := Ideal) x0 x1 x2 x3 x4 x5 x6 x7 = X
  exact max_ninf_fold _

/-- The third layer's row shifted by its maximum, at an index. -/
theorem ll_shift3 (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal))
    (x8 x9 : (⟨S32x10, .f32⟩ : BufTy).Contents (Elt Ideal)) (x10 : (⟨S10, .f32⟩ : BufTy).Contents (Elt Ideal)) (p : Fin 100000) (q : Fin 10) :
    val_main_call5_v5 (F := Ideal) x0 x1 x2 x3 x4 x5 x6 x7 x8 x9 x10 (ix2 p q)
      = nrm (pre (meanRow (val_main_v75 (F := Ideal) x0 x1 x2 x3 x4 x5 x6 x7) (invDeg (val_main_v79 (F := Ideal) x1)) p) (fun k => val_main_v65 (F := Ideal) x0 x1 x2 x3 x4 x5 x6 x7 (ix2 p k))
          (fun k q => x8 (ix2 k q)) (fun k q => x9 (ix2 k q)) (fun q => biasRow x10 (ix2 0 q))) q
        - rowMax (nrm (pre (meanRow (val_main_v75 (F := Ideal) x0 x1 x2 x3 x4 x5 x6 x7) (invDeg (val_main_v79 (F := Ideal) x1)) p) (fun k => val_main_v65 (F := Ideal) x0 x1 x2 x3 x4 x5 x6 x7 (ix2 p k))
          (fun k q => x8 (ix2 k q)) (fun k q => x9 (ix2 k q)) (fun q => biasRow x10 (ix2 0 q)))) := by
  rw [val_main_call5_v5_apply, val_main_call5_v4_apply, val_main_call5_v3_apply, ll_nrm3,
    show idx_main_call5_v3 (idx_main_call5_v4 (ix2 p q)) = ix1 p from funext fun a => Fin.ext (by match a with | ⟨0, _⟩ => rfl), ll_rowmax3, Ideal.subf_def]

/-- The third layer's result (after `log_softmax`). -/
theorem layer3 (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal))
    (x8 x9 : (⟨S32x10, .f32⟩ : BufTy).Contents (Elt Ideal)) (x10 : (⟨S10, .f32⟩ : BufTy).Contents (Elt Ideal)) :
    val_main_v96 (F := Ideal) x0 x1 x2 x3 x4 x5 x6 x7 x8 x9 x10
      = layerLsm 100000 32 10 (val_main_v75 (F := Ideal) x0 x1 x2 x3 x4 x5 x6 x7) (val_main_v65 (F := Ideal) x0 x1 x2 x3 x4 x5 x6 x7)
          (invDeg (val_main_v79 (F := Ideal) x1)) x8 x9 (biasRow x10) := by
  funext i
  obtain ⟨p, q, rfl⟩ : ∃ (p : Fin 100000) (q : Fin 10), i = ix2 p q := ⟨i 0, i 1, eq_ix2 i⟩
  rw [val_main_v96_apply, val_main_call5_v10_apply, val_main_call5_v9_apply, val_main_call5_v8_apply, val_main_call5_v7_apply,
    val_main_call5_cst_1_apply, ll_shift3]
  have hexp : ∀ k : Fin 10, val_main_call5_v6 (F := Ideal) x0 x1 x2 x3 x4 x5 x6 x7 x8 x9 x10
        (idx_main_call5_v7 (idx_main_call5_v8 (idx_main_call5_v10 (ix2 p q))) k)
      = Ideal.exp (nrm (pre (meanRow (val_main_v75 (F := Ideal) x0 x1 x2 x3 x4 x5 x6 x7) (invDeg (val_main_v79 (F := Ideal) x1)) p) (fun k => val_main_v65 (F := Ideal) x0 x1 x2 x3 x4 x5 x6 x7 (ix2 p k))
          (fun k q => x8 (ix2 k q)) (fun k q => x9 (ix2 k q)) (fun q => biasRow x10 (ix2 0 q))) k
          - rowMax (nrm (pre (meanRow (val_main_v75 (F := Ideal) x0 x1 x2 x3 x4 x5 x6 x7) (invDeg (val_main_v79 (F := Ideal) x1)) p) (fun k => val_main_v65 (F := Ideal) x0 x1 x2 x3 x4 x5 x6 x7 (ix2 p k))
          (fun k q => x8 (ix2 k q)) (fun k q => x9 (ix2 k q)) (fun q => biasRow x10 (ix2 0 q))))) := fun k => by
    rw [show idx_main_call5_v7 (idx_main_call5_v8 (idx_main_call5_v10 (ix2 p q))) k = ix2 p k from funext fun a => Fin.ext (by match a with | ⟨0, _⟩ => rfl | ⟨1, _⟩ => rfl),
      val_main_call5_v6_apply, ll_shift3, Ideal.hostUnary_exp_def]
  simp only [hexp]
  clear hexp
  generalize val_main_v75 (F := Ideal) x0 x1 x2 x3 x4 x5 x6 x7 = S
  generalize val_main_v79 (F := Ideal) x1 = C
  generalize val_main_v65 (F := Ideal) x0 x1 x2 x3 x4 x5 x6 x7 = X
  rw [Ideal.ofBits_def, Ideal.ofBits_zero_f32, zero_add]
  rfl

end Cert.RefLayers

end
-- ==== Proof.Bridge.lean ====
import proofs.«159893_j54039278518913_2_alg».proof.Proof.KFold
import proofs.«159893_j54039278518913_2_alg».proof.Proof.RefLayers
import proofs.«159893_j54039278518913_2_alg».proof.Proof.Spec
import proofs.«159893_j54039278518913_2_alg».proof.Proof.PRefRead
import proofs.«159893_j54039278518913_2_alg».proof.Proof.LibKeepdims
import Idealize.ShloMosaic.Lib.Pipeline.Value
import Idealize.ShloMosaic.Lib.ValueLayout

/-! The two programs compute one function. On the extended reals the kernel program's composed term — three nested
    layers over the features summed along the edges — is the reference's last stage: layer by layer, the summed
    features, the reciprocal degrees and the bias row of the one are those of the other (a change of float format is
    the identity, the two programs' index computations are the same operations), and each layer of the reference is
    the layer function of them. -/

noncomputable section

namespace Cert.Bridge

open Idealize.ShloMosaic Idealize.ShloMosaic.ValueIdx Cert.Sage
open Cert.ReferenceIdeal.Read (val_main_v96)
open Cert.KernelIdeal.Fold (C kSrc kDst kInv kAgg64 kAgg32 kH1 kH2 kterm)
open Cert.ReferenceIdeal.Read (val_main_v9 val_main_v10 val_main_v11 val_main_v12 val_main_v13 val_main_v14 val_main_v15
  val_main_v16 val_main_v17 val_main_v34 val_main_v40 val_main_v41 val_main_v42 val_main_v43 val_main_v44 val_main_v45
  val_main_v46 val_main_v47 val_main_v48 val_main_v65 val_main_v71 val_main_v72 val_main_v73 val_main_v74 val_main_v75
  val_main_v76 val_main_v77 val_main_v78 val_main_v79)

-- The sums over the edges stay closed: each step uses them only as functions of their operands.
attribute [local irreducible] Idealize.ShloMosaic.Host.scatterAdd Idealize.ShloMosaic.Host.gather

/-! ## The same operations under two names

    Whatever the float type, the two programs build their index columns, their zero arrays and the summed features
    from the edge array by the same operations in the same order; only the names of the constants differ. -/

section Generic
variable {F : FTy → Type} [FloatOps F]

/-- 64 features gathered along the sources and summed along the destinations, as the reference's first layer spells it. -/
theorem gg_sum13 (h : C (F := F) Cert.KernelIdeal.S100000x64 .f32) (e : C (F := F) Cert.KernelIdeal.S2x1200000 .i32) :
    Host.scatterAdd Cert.KernelIdeal.scatter_S100000x64_S1200000x1_S1200000x64_1_0_0_1
        (broadcastInDim Cert.KernelIdeal.S100000x64 ![] Cert.KernelIdeal.Gen.bcast_S_S100000x64
          (constant Cert.KernelIdeal.S_ .f32 0x00000000#32))
        (kDst e) (Host.gather Cert.KernelIdeal.gather_S100000x64_S1200000x1_S1200000x64_1_0_n_n_0_1_164 h (kSrc e))
      = val_main_v13 (F := F) h e := rfl

/-- The same sum of the first layer's result, as the reference's second layer spells it. -/
theorem gg_sum44 (x : C (F := F) Cert.KernelIdeal.S100000x64 .f32) (e : C (F := F) Cert.KernelIdeal.S2x1200000 .i32)
    (w2 w3 : C (F := F) Cert.KernelIdeal.S64x64 .f32) (b4 : C (F := F) Cert.KernelIdeal.S64 .f32) :
    Host.scatterAdd Cert.KernelIdeal.scatter_S100000x64_S1200000x1_S1200000x64_1_0_0_1
        (broadcastInDim Cert.KernelIdeal.S100000x64 ![] Cert.KernelIdeal.Gen.bcast_S_S100000x64
          (constant Cert.KernelIdeal.S_ .f32 0x00000000#32))
        (kDst e) (Host.gather Cert.KernelIdeal.gather_S100000x64_S1200000x1_S1200000x64_1_0_n_n_0_1_164
          (val_main_v34 (F := F) x e w2 w3 b4) (kSrc e))
      = val_main_v44 (F := F) x e w2 w3 b4 := rfl

/-- 32 features of the second layer's result, as the reference's third layer spells it. -/
theorem gg_sum75 (x : C (F := F) Cert.KernelIdeal.S100000x64 .f32) (e : C (F := F) Cert.KernelIdeal.S2x1200000 .i32)
    (w2 w3 : C (F := F) Cert.KernelIdeal.S64x64 .f32) (b4 : C (F := F) Cert.KernelIdeal.S64 .f32)
    (w5 w6 : C (F := F) Cert.KernelIdeal.S64x32 .f32) (b7 : C (F := F) Cert.KernelIdeal.S32 .f32) :
    Host.scatterAdd Cert.KernelIdeal.scatter_S100000x32_S1200000x1_S1200000x32_1_0_0_1
        (broadcastInDim Cert.KernelIdeal.S100000x32 ![] Cert.KernelIdeal.Gen.bcast_S_S100000x32
          (constant Cert.KernelIdeal.S_ .f32 0x00000000#32))
        (kDst e) (Host.gather Cert.KernelIdeal.gather_S100000x32_S1200000x1_S1200000x32_1_0_n_n_0_1_132
          (val_main_v65 (F := F) x e w2 w3 b4 w5 w6 b7) (kSrc e))
      = val_main_v75 (F := F) x e w2 w3 b4 w5 w6 b7 := rfl

/-- The in-degrees: a one per edge summed along the destinations. The reference counts them once per layer. -/
theorem gg_cnt17 (e : C (F := F) Cert.KernelIdeal.S2x1200000 .i32) :
    Host.scatterAdd Cert.KernelIdeal.scatter_S100000_S1200000x1_S1200000_n_0_0_1
        (broadcastInDim Cert.KernelIdeal.S100000 ![] Cert.KernelIdeal.Gen.bcast_S_S100000
          (constant Cert.KernelIdeal.S_ .f32 0x00000000#32))
        (kDst e)
        (broadcastInDim Cert.KernelIdeal.S1200000 ![] Cert.KernelIdeal.Gen.bcast_S_S1200000
          (constant Cert.KernelIdeal.S_ .f32 0x3F800000#32))
      = val_main_v17 (F := F) e := rfl
theorem gg_cnt48 (e : C (F := F) Cert.KernelIdeal.S2x1200000 .i32) :
    val_main_v48 (F := F) e = val_main_v17 (F := F) e := rfl
theorem gg_cnt79 (e : C (F := F) Cert.KernelIdeal.S2x1200000 .i32) :
    val_main_v79 (F := F) e = val_main_v17 (F := F) e := rfl

end Generic

/-! ## On the extended reals -/

/-- A wider float format holds the same extended real. -/
theorem gg_extf {s : Shape} (v : FVec Ideal s .bf16) (h : FTy.bits .bf16 < FTy.bits .f32) : extf .f32 v h = v :=
  funext fun _ => rfl

/-- A narrower float format holds the same extended real. -/
theorem gg_truncf {s : Shape} (v : FVec Ideal s .f32) (h : FTy.bits .bf16 < FTy.bits .f32) : truncf .bf16 v h = v :=
  funext fun _ => rfl

/-- The kernel program's 64-wide sum over the edges without its change of format. -/
theorem gg_agg64 (h : C (F := Ideal) Cert.KernelIdeal.S100000x64 .bf16) (e : C (F := Ideal) Cert.KernelIdeal.S2x1200000 .i32) :
    kAgg64 (F := Ideal) h e
      = Host.scatterAdd (F := Ideal) Cert.KernelIdeal.scatter_S100000x64_S1200000x1_S1200000x64_1_0_0_1
        (broadcastInDim Cert.KernelIdeal.S100000x64 ![] Cert.KernelIdeal.Gen.bcast_S_S100000x64
          (constant Cert.KernelIdeal.S_ .f32 0x00000000#32))
        (kDst e) (Host.gather Cert.KernelIdeal.gather_S100000x64_S1200000x1_S1200000x64_1_0_n_n_0_1_164 h (kSrc e)) :=
  by unfold kAgg64; rw [gg_extf]

/-- The kernel program's 32-wide sum over the edges without its change of format. -/
theorem gg_agg32 (h : C (F := Ideal) Cert.KernelIdeal.S100000x32 .bf16) (e : C (F := Ideal) Cert.KernelIdeal.S2x1200000 .i32) :
    kAgg32 (F := Ideal) h e
      = Host.scatterAdd (F := Ideal) Cert.KernelIdeal.scatter_S100000x32_S1200000x1_S1200000x32_1_0_0_1
        (broadcastInDim Cert.KernelIdeal.S100000x32 ![] Cert.KernelIdeal.Gen.bcast_S_S100000x32
          (constant Cert.KernelIdeal.S_ .f32 0x00000000#32))
        (kDst e) (Host.gather Cert.KernelIdeal.gather_S100000x32_S1200000x1_S1200000x32_1_0_n_n_0_1_132 h (kSrc e)) :=
  by unfold kAgg32; rw [gg_extf]

/-- The first layer's summed features. -/
theorem gg_agg13 (x : C (F := Ideal) Cert.KernelIdeal.S100000x64 .f32) (e : C (F := Ideal) Cert.KernelIdeal.S2x1200000 .i32) :
    kAgg64 (F := Ideal) x e = val_main_v13 (F := Ideal) x e :=
  (gg_agg64 x e).trans (gg_sum13 (F := Ideal) x e)

/-- The second layer's summed features. -/
theorem gg_agg44 (x : C (F := Ideal) Cert.KernelIdeal.S100000x64 .f32) (e : C (F := Ideal) Cert.KernelIdeal.S2x1200000 .i32)
    (w2 w3 : C (F := Ideal) Cert.KernelIdeal.S64x64 .f32) (b4 : C (F := Ideal) Cert.KernelIdeal.S64 .f32) :
    kAgg64 (F := Ideal) (val_main_v34 (F := Ideal) x e w2 w3 b4) e = val_main_v44 (F := Ideal) x e w2 w3 b4 :=
  (gg_agg64 _ e).trans (gg_sum44 (F := Ideal) x e w2 w3 b4)

/-- The third layer's summed features. -/
theorem gg_agg75 (x : C (F := Ideal) Cert.KernelIdeal.S100000x64 .f32) (e : C (F := Ideal) Cert.KernelIdeal.S2x1200000 .i32)
    (w2 w3 : C (F := Ideal) Cert.KernelIdeal.S64x64 .f32) (b4 : C (F := Ideal) Cert.KernelIdeal.S64 .f32)
    (w5 w6 : C (F := Ideal) Cert.KernelIdeal.S64x32 .f32) (b7 : C (F := Ideal) Cert.KernelIdeal.S32 .f32) :
    kAgg32 (F := Ideal) (val_main_v65 (F := Ideal) x e w2 w3 b4 w5 w6 b7) e = val_main_v75 (F := Ideal) x e w2 w3 b4 w5 w6 b7 :=
  (gg_agg32 _ e).trans (gg_sum75 (F := Ideal) x e w2 w3 b4 w5 w6 b7)

/-- One over the count floored at one, entry by entry and kept as a column, is the reciprocal-degree column of the
    count: the quotient, the maximum and the constant one are read at each index. -/
theorem gg_inv (c : Arr 100000) (hb : Cert.KernelIdeal.S_.BroadcastsInDim Cert.KernelIdeal.S100000 ![])
    (hc : Cert.KernelIdeal.S100000.ShapeCasts Cert.KernelIdeal.S100000x1) :
    shapeCast Cert.KernelIdeal.S100000x1
        (Host.divf (broadcastInDim Cert.KernelIdeal.S100000 ![] hb (constant (F := Ideal) Cert.KernelIdeal.S_ .f32 0x3F800000#32))
          (maximumf c (broadcastInDim Cert.KernelIdeal.S100000 ![] hb (constant (F := Ideal) Cert.KernelIdeal.S_ .f32 0x3F800000#32))))
        hc
      = invDeg c := by
  funext j
  obtain ⟨p, u, rfl⟩ : ∃ (p : Fin 100000) (u : Fin 1), j = ix2 p u := ⟨j 0, j 1, eq_ix2 j⟩
  rw [Cert.Keepdims.shapeCast_a_a1_apply]
  rfl

/-- The reciprocal degrees of the kernel program are those of the reference's first count. -/
theorem gg_inv17 (e : C (F := Ideal) Cert.KernelIdeal.S2x1200000 .i32) :
    kInv (F := Ideal) e = invDeg (val_main_v17 (F := Ideal) e) :=
  (gg_inv _ _ _).trans (congrArg invDeg (gg_cnt17 (F := Ideal) e))

/-- A bias vector kept as a row is the bias row. -/
theorem gg_bias {n : ℕ} (b : Arr n) (h : (⟨1, ![n]⟩ : Shape).ShapeCasts ⟨2, ![1, n]⟩) :
    shapeCast ⟨2, ![1, n]⟩ b h = biasRow b := by
  funext j
  obtain ⟨u, q, rfl⟩ : ∃ (u : Fin 1) (q : Fin n), j = ix2 u q := ⟨j 0, j 1, eq_ix2 j⟩
  rw [shapeCast_a_1a_apply]
  rfl

/-- The first layer's array is the reference's stage after its first layer. -/
theorem gg_h1 (x : C (F := Ideal) Cert.KernelIdeal.S100000x64 .f32) (e : C (F := Ideal) Cert.KernelIdeal.S2x1200000 .i32)
    (w2 w3 : C (F := Ideal) Cert.KernelIdeal.S64x64 .f32) (b4 : C (F := Ideal) Cert.KernelIdeal.S64 .f32) :
    kH1 (F := Ideal) (layerRelu 100000 64 64) x e w2 w3 b4 = val_main_v34 (F := Ideal) x e w2 w3 b4 := by
  rw [Cert.RefLayers.layer1]
  unfold kH1
  rw [gg_truncf, gg_agg13, gg_inv17, gg_bias]

/-- The second layer's array is the reference's stage after its second layer. -/
theorem gg_h2 (x : C (F := Ideal) Cert.KernelIdeal.S100000x64 .f32) (e : C (F := Ideal) Cert.KernelIdeal.S2x1200000 .i32)
    (w2 w3 : C (F := Ideal) Cert.KernelIdeal.S64x64 .f32) (b4 : C (F := Ideal) Cert.KernelIdeal.S64 .f32)
    (w5 w6 : C (F := Ideal) Cert.KernelIdeal.S64x32 .f32) (b7 : C (F := Ideal) Cert.KernelIdeal.S32 .f32) :
    kH2 (F := Ideal) (layerRelu 100000 64 64) (layerRelu 100000 64 32) x e w2 w3 b4 w5 w6 b7
      = val_main_v65 (F := Ideal) x e w2 w3 b4 w5 w6 b7 := by
  rw [Cert.RefLayers.layer2]
  unfold kH2
  rw [gg_h1, gg_agg44, gg_inv17, gg_cnt48, gg_bias]

/-- The kernel program's result term, at the three layer functions, is the reference's last stage. -/
theorem bridge
    (x : Cert.KernelIdeal.Fold.C (F := Ideal) Cert.KernelIdeal.S100000x64 .f32)
    (e : Cert.KernelIdeal.Fold.C (F := Ideal) Cert.KernelIdeal.S2x1200000 .i32)
    (w2 w3 : Cert.KernelIdeal.Fold.C (F := Ideal) Cert.KernelIdeal.S64x64 .f32)
    (b4 : Cert.KernelIdeal.Fold.C (F := Ideal) Cert.KernelIdeal.S64 .f32)
    (w5 w6 : Cert.KernelIdeal.Fold.C (F := Ideal) Cert.KernelIdeal.S64x32 .f32)
    (b7 : Cert.KernelIdeal.Fold.C (F := Ideal) Cert.KernelIdeal.S32 .f32)
    (w8 w9 : Cert.KernelIdeal.Fold.C (F := Ideal) Cert.KernelIdeal.S32x10 .f32)
    (b10 : Cert.KernelIdeal.Fold.C (F := Ideal) Cert.KernelIdeal.S10 .f32) :
    Cert.KernelIdeal.Fold.kterm (F := Ideal) (layerRelu 100000 64 64) (layerRelu 100000 64 32) (layerLsm 100000 32 10)
        x e w2 w3 b4 w5 w6 b7 w8 w9 b10
      = val_main_v96 (F := Ideal) x e w2 w3 b4 w5 w6 b7 w8 w9 b10 := by
  rw [Cert.RefLayers.layer3]
  unfold Cert.KernelIdeal.Fold.kterm
  rw [gg_h2, gg_agg75, gg_inv17, gg_cnt79, gg_bias]

end Cert.Bridge

end
-- ==== Proof.RefRun.lean ====
import proofs.«159893_j54039278518913_2_alg».proof.Proof.PRefRead
import Idealize.ShloMosaic.Lib.StableHlo.Run

/-! The reference's run with its result named: every execution ends with the result array at the last stage of the
    program's operations — the stages composed — of the argument arrays, and the arguments as launched. The fold of the
    operations is read in stretches, each over an arbitrary memory whose boundary buffers hold earlier stages. -/

noncomputable section

namespace Cert.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## Cutting the fold

The fold of a list of operations from a memory is the fold of any tail of it from the fold of the matching head. -/

/-- The fold of a concatenation is the fold of its second list from the fold of its first. -/
theorem rr_after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => exact ih _

/-- The fold, cut after its first `n` operations. -/
theorem rr_after_cut {τ' : Topo} {sig' : RefSig} {Val : EltTy → Type} (n : Nat) (l : List (HloOp τ' sig' Val)) (V : Valuation τ' sig' Val) :
    after l V = after (l.drop n) (after (l.take n) V) := by
  rw [← rr_after_append, List.take_append_drop]

/-- The fold of the operations from the `a`-th on, cut after `n` of them. -/
theorem rr_after_drop {τ' : Topo} {sig' : RefSig} {Val : EltTy → Type} (a n k : Nat) (h : a + n = k) (l : List (HloOp τ' sig' Val))
    (V : Valuation τ' sig' Val) : after (l.drop a) V = after (l.drop k) (after ((l.drop a).take n) V) := by
  subst h
  rw [rr_after_cut n (l.drop a) V, List.drop_drop]

/-- Contents moved to the buffer type of a typed reference and back are the contents. -/
theorem rr_ofBuf_toBuf {sig' : RefSig} {T : BufTy} {Val : EltTy → Type} (x : TRef sig' T) (v : T.Contents Val) :
    x.ofBuf (x.toBuf v) = v := by
  obtain ⟨r, h, _, _⟩ := x
  subst h
  rfl

/-- The program's fold, cut where the index vectors are read and before and after each layer's row normalization. -/
theorem rr_fold (V : Valuation τ sig (Elt F)) :
    after ops V = after (ops.drop 133) (after ((ops.drop 123).take 10) (after ((ops.drop 92).take 31) (after ((ops.drop 79).take 13)
      (after ((ops.drop 48).take 31) (after ((ops.drop 35).take 13) (after ((ops.drop 4).take 31) (after (ops.take 4) V))))))) := by
  rw [rr_after_cut 4 ops V, rr_after_drop 4 31 35 rfl, rr_after_drop 35 13 48 rfl, rr_after_drop 48 31 79 rfl,
    rr_after_drop 79 13 92 rfl, rr_after_drop 92 31 123 rfl, rr_after_drop 123 10 133 rfl]

/-! ## The stretches

Each stretch of the program, run from an arbitrary memory `W` whose buffers the stretch reads hold the stages of the
argument arrays `x0 … x10` (or the arguments themselves), leaves the stage of the same arrays in the buffer it is read
for: the operations' results are read off the fold, the buffers read are replaced by their stages, and what is left is the
stage's definition, operation by operation. Each stretch also leaves every buffer it does not write as it was. -/

/-- The buffers written by the operations 0 to 3. -/
abbrev rr_wr0 : List (Ref sig .tc) :=
  [main_v0, main_v1, main_v2, main_v3]

set_option maxRecDepth 4096 in
/-- The operations 0 to 3 leave a buffer they do not write as it was. -/
theorem rr_s0_keep (W : Valuation τ sig (Elt F)) {r : Ref sig .tc} (hr : r ∉ rr_wr0) :
    after (ops.take 4) W (Proc.devRef .tc r) = W (Proc.devRef .tc r) :=
  after_of_writes_sub _ W (by
    simp only [ops, List.drop_succ_cons, List.drop_zero, List.take_succ_cons, List.take_zero, List.Forall, nullary_writes, unary_writes, binary_writes, ternary_writes,
      reshape_writes, Finset.singleton_subset_iff, List.mem_toFinset]
    repeat' apply And.intro
    all_goals exact List.mem_map_of_mem (by decide)) hr

set_option maxRecDepth 4096 in
/-- The edge list's two rows, each reshaped to a vector: the source indices and the target indices. -/
theorem rr_s0_v1 (W : Valuation τ sig (Elt F)) {x1 : (⟨S2x1200000, .i32⟩ : BufTy).Contents (Elt F)}
    (a1 : W (Proc.devRef .tc main_arg1) = x1) :
    after (ops.take 4) W (Proc.devRef .tc main_v1) = val_main_v1 x1 := by
  simp only [ops, List.drop_succ_cons, List.drop_zero, List.take_succ_cons, List.take_zero]
  after_results_simp
  simp only [a1]
  rfl

set_option maxRecDepth 4096 in
/-- The edge list's two rows, each reshaped to a vector: the source indices and the target indices. -/
theorem rr_s0_v3 (W : Valuation τ sig (Elt F)) {x1 : (⟨S2x1200000, .i32⟩ : BufTy).Contents (Elt F)}
    (a1 : W (Proc.devRef .tc main_arg1) = x1) :
    after (ops.take 4) W (Proc.devRef .tc main_v3) = val_main_v3 x1 := by
  simp only [ops, List.drop_succ_cons, List.drop_zero, List.take_succ_cons, List.take_zero]
  after_results_simp
  simp only [a1]
  rfl

/-- The buffers written by the operations 4 to 34. -/
abbrev rr_wr1 : List (Ref sig .tc) :=
  [main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28]

set_option maxRecDepth 4096 in
/-- The operations 4 to 34 leave a buffer they do not write as it was. -/
theorem rr_s1_keep (W : Valuation τ sig (Elt F)) {r : Ref sig .tc} (hr : r ∉ rr_wr1) :
    after ((ops.drop 4).take 31) W (Proc.devRef .tc r) = W (Proc.devRef .tc r) :=
  after_of_writes_sub _ W (by
    simp only [ops, List.drop_succ_cons, List.drop_zero, List.take_succ_cons, List.take_zero, List.Forall, nullary_writes, unary_writes, binary_writes, ternary_writes,
      reshape_writes, Finset.singleton_subset_iff, List.mem_toFinset]
    repeat' apply And.intro
    all_goals exact List.mem_map_of_mem (by decide)) hr

set_option maxRecDepth 4096 in
/-- The first layer up to its normalization: gather, scatter-add, division by the clamped degree, the two products and the bias. -/
theorem rr_s1_v28 (W : Valuation τ sig (Elt F)) {x0 : (⟨S100000x64, .f32⟩ : BufTy).Contents (Elt F)} {x1 : (⟨S2x1200000, .i32⟩ : BufTy).Contents (Elt F)} {x2 x3 : (⟨S64x64, .f32⟩ : BufTy).Contents (Elt F)} {x4 : (⟨S64, .f32⟩ : BufTy).Contents (Elt F)}
    (h1 : W (Proc.devRef .tc main_v1) = val_main_v1 x1) (h3 : W (Proc.devRef .tc main_v3) = val_main_v3 x1) (a0 : W (Proc.devRef .tc main_arg0) = x0) (a2 : W (Proc.devRef .tc main_arg2) = x2) (a3 : W (Proc.devRef .tc main_arg3) = x3) (a4 : W (Proc.devRef .tc main_arg4) = x4) :
    after ((ops.drop 4).take 31) W (Proc.devRef .tc main_v28) = val_main_v28 x0 x1 x2 x3 x4 := by
  simp only [ops, List.drop_succ_cons, List.drop_zero, List.take_succ_cons, List.take_zero]
  after_results_simp
  simp only [h1, h3, a0, a2, a3, a4]
  rfl

/-- The buffers written by the operations 35 to 47. -/
abbrev rr_wr2 : List (Ref sig .tc) :=
  [main_call0_v0, main_call0_cst, main_call0_v1, main_call0_v2, main_v29, main_cst_4, main_v30, main_v31, main_v32, main_v33, main_call1_cst, main_call1_v0, main_v34]

set_option maxRecDepth 4096 in
/-- The operations 35 to 47 leave a buffer they do not write as it was. -/
theorem rr_s2_keep (W : Valuation τ sig (Elt F)) {r : Ref sig .tc} (hr : r ∉ rr_wr2) :
    after ((ops.drop 35).take 13) W (Proc.devRef .tc r) = W (Proc.devRef .tc r) :=
  after_of_writes_sub _ W (by
    simp only [ops, List.drop_succ_cons, List.drop_zero, List.take_succ_cons, List.take_zero, List.Forall, nullary_writes, unary_writes, binary_writes, ternary_writes,
      reshape_writes, Finset.singleton_subset_iff, List.mem_toFinset]
    repeat' apply And.intro
    all_goals exact List.mem_map_of_mem (by decide)) hr

set_option maxRecDepth 4096 in
/-- The first layer's row normalization and rectification. -/
theorem rr_s2_v34 (W : Valuation τ sig (Elt F)) {x0 : (⟨S100000x64, .f32⟩ : BufTy).Contents (Elt F)} {x1 : (⟨S2x1200000, .i32⟩ : BufTy).Contents (Elt F)} {x2 x3 : (⟨S64x64, .f32⟩ : BufTy).Contents (Elt F)} {x4 : (⟨S64, .f32⟩ : BufTy).Contents (Elt F)}
    (h28 : W (Proc.devRef .tc main_v28) = val_main_v28 x0 x1 x2 x3 x4) :
    after ((ops.drop 35).take 13) W (Proc.devRef .tc main_v34) = val_main_v34 x0 x1 x2 x3 x4 := by
  simp only [ops, List.drop_succ_cons, List.drop_zero, List.take_succ_cons, List.take_zero]
  after_results_simp
  simp only [rr_ofBuf_toBuf]
  simp only [h28]
  rfl

/-- The buffers written by the operations 48 to 78. -/
abbrev rr_wr3 : List (Ref sig .tc) :=
  [main_c_5, main_v35, main_v36, main_c_6, main_v37, main_v38, main_v39, main_v40, main_v41, main_cst_7, main_v42, main_v43, main_v44, main_cst_8, main_v45, main_cst_9, main_v46, main_v47, main_v48, main_cst_10, main_v49, main_v50, main_v51, main_v52, main_v53, main_v54, main_v55, main_v56, main_v57, main_v58, main_v59]

set_option maxRecDepth 4096 in
/-- The operations 48 to 78 leave a buffer they do not write as it was. -/
theorem rr_s3_keep (W : Valuation τ sig (Elt F)) {r : Ref sig .tc} (hr : r ∉ rr_wr3) :
    after ((ops.drop 48).take 31) W (Proc.devRef .tc r) = W (Proc.devRef .tc r) :=
  after_of_writes_sub _ W (by
    simp only [ops, List.drop_succ_cons, List.drop_zero, List.take_succ_cons, List.take_zero, List.Forall, nullary_writes, unary_writes, binary_writes, ternary_writes,
      reshape_writes, Finset.singleton_subset_iff, List.mem_toFinset]
    repeat' apply And.intro
    all_goals exact List.mem_map_of_mem (by decide)) hr

set_option maxRecDepth 4096 in
/-- The second layer up to its normalization. -/
theorem rr_s3_v59 (W : Valuation τ sig (Elt F)) {x0 : (⟨S100000x64, .f32⟩ : BufTy).Contents (Elt F)} {x1 : (⟨S2x1200000, .i32⟩ : BufTy).Contents (Elt F)} {x2 x3 : (⟨S64x64, .f32⟩ : BufTy).Contents (Elt F)} {x4 : (⟨S64, .f32⟩ : BufTy).Contents (Elt F)} {x5 x6 : (⟨S64x32, .f32⟩ : BufTy).Contents (Elt F)} {x7 : (⟨S32, .f32⟩ : BufTy).Contents (Elt F)}
    (h1 : W (Proc.devRef .tc main_v1) = val_main_v1 x1) (h3 : W (Proc.devRef .tc main_v3) = val_main_v3 x1) (h34 : W (Proc.devRef .tc main_v34) = val_main_v34 x0 x1 x2 x3 x4) (a5 : W (Proc.devRef .tc main_arg5) = x5) (a6 : W (Proc.devRef .tc main_arg6) = x6) (a7 : W (Proc.devRef .tc main_arg7) = x7) :
    after ((ops.drop 48).take 31) W (Proc.devRef .tc main_v59) = val_main_v59 x0 x1 x2 x3 x4 x5 x6 x7 := by
  simp only [ops, List.drop_succ_cons, List.drop_zero, List.take_succ_cons, List.take_zero]
  after_results_simp
  simp only [h1, h3, h34, a5, a6, a7]
  rfl

/-- The buffers written by the operations 79 to 91. -/
abbrev rr_wr4 : List (Ref sig .tc) :=
  [main_call2_v0, main_call2_cst, main_call2_v1, main_call2_v2, main_v60, main_cst_11, main_v61, main_v62, main_v63, main_v64, main_call3_cst, main_call3_v0, main_v65]

set_option maxRecDepth 4096 in
/-- The operations 79 to 91 leave a buffer they do not write as it was. -/
theorem rr_s4_keep (W : Valuation τ sig (Elt F)) {r : Ref sig .tc} (hr : r ∉ rr_wr4) :
    after ((ops.drop 79).take 13) W (Proc.devRef .tc r) = W (Proc.devRef .tc r) :=
  after_of_writes_sub _ W (by
    simp only [ops, List.drop_succ_cons, List.drop_zero, List.take_succ_cons, List.take_zero, List.Forall, nullary_writes, unary_writes, binary_writes, ternary_writes,
      reshape_writes, Finset.singleton_subset_iff, List.mem_toFinset]
    repeat' apply And.intro
    all_goals exact List.mem_map_of_mem (by decide)) hr

set_option maxRecDepth 4096 in
/-- The second layer's row normalization and rectification. -/
theorem rr_s4_v65 (W : Valuation τ sig (Elt F)) {x0 : (⟨S100000x64, .f32⟩ : BufTy).Contents (Elt F)} {x1 : (⟨S2x1200000, .i32⟩ : BufTy).Contents (Elt F)} {x2 x3 : (⟨S64x64, .f32⟩ : BufTy).Contents (Elt F)} {x4 : (⟨S64, .f32⟩ : BufTy).Contents (Elt F)} {x5 x6 : (⟨S64x32, .f32⟩ : BufTy).Contents (Elt F)} {x7 : (⟨S32, .f32⟩ : BufTy).Contents (Elt F)}
    (h59 : W (Proc.devRef .tc main_v59) = val_main_v59 x0 x1 x2 x3 x4 x5 x6 x7) :
    after ((ops.drop 79).take 13) W (Proc.devRef .tc main_v65) = val_main_v65 x0 x1 x2 x3 x4 x5 x6 x7 := by
  simp only [ops, List.drop_succ_cons, List.drop_zero, List.take_succ_cons, List.take_zero]
  after_results_simp
  simp only [rr_ofBuf_toBuf]
  simp only [h59]
  rfl

/-- The buffers written by the operations 92 to 122. -/
abbrev rr_wr5 : List (Ref sig .tc) :=
  [main_c_12, main_v66, main_v67, main_c_13, main_v68, main_v69, main_v70, main_v71, main_v72, main_cst_14, main_v73, main_v74, main_v75, main_cst_15, main_v76, main_cst_16, main_v77, main_v78, main_v79, main_cst_17, main_v80, main_v81, main_v82, main_v83, main_v84, main_v85, main_v86, main_v87, main_v88, main_v89, main_v90]

set_option maxRecDepth 4096 in
/-- The operations 92 to 122 leave a buffer they do not write as it was. -/
theorem rr_s5_keep (W : Valuation τ sig (Elt F)) {r : Ref sig .tc} (hr : r ∉ rr_wr5) :
    after ((ops.drop 92).take 31) W (Proc.devRef .tc r) = W (Proc.devRef .tc r) :=
  after_of_writes_sub _ W (by
    simp only [ops, List.drop_succ_cons, List.drop_zero, List.take_succ_cons, List.take_zero, List.Forall, nullary_writes, unary_writes, binary_writes, ternary_writes,
      reshape_writes, Finset.singleton_subset_iff, List.mem_toFinset]
    repeat' apply And.intro
    all_goals exact List.mem_map_of_mem (by decide)) hr

set_option maxRecDepth 4096 in
/-- The third layer up to its normalization. -/
theorem rr_s5_v90 (W : Valuation τ sig (Elt F)) {x0 : (⟨S100000x64, .f32⟩ : BufTy).Contents (Elt F)} {x1 : (⟨S2x1200000, .i32⟩ : BufTy).Contents (Elt F)} {x2 x3 : (⟨S64x64, .f32⟩ : BufTy).Contents (Elt F)} {x4 : (⟨S64, .f32⟩ : BufTy).Contents (Elt F)} {x5 x6 : (⟨S64x32, .f32⟩ : BufTy).Contents (Elt F)} {x7 : (⟨S32, .f32⟩ : BufTy).Contents (Elt F)} {x8 x9 : (⟨S32x10, .f32⟩ : BufTy).Contents (Elt F)} {x10 : (⟨S10, .f32⟩ : BufTy).Contents (Elt F)}
    (h1 : W (Proc.devRef .tc main_v1) = val_main_v1 x1) (h3 : W (Proc.devRef .tc main_v3) = val_main_v3 x1) (h65 : W (Proc.devRef .tc main_v65) = val_main_v65 x0 x1 x2 x3 x4 x5 x6 x7) (a8 : W (Proc.devRef .tc main_arg8) = x8) (a9 : W (Proc.devRef .tc main_arg9) = x9) (a10 : W (Proc.devRef .tc main_arg10) = x10) :
    after ((ops.drop 92).take 31) W (Proc.devRef .tc main_v90) = val_main_v90 x0 x1 x2 x3 x4 x5 x6 x7 x8 x9 x10 := by
  simp only [ops, List.drop_succ_cons, List.drop_zero, List.take_succ_cons, List.take_zero]
  after_results_simp
  simp only [h1, h3, h65, a8, a9, a10]
  rfl

/-- The buffers written by the operations 123 to 132. -/
abbrev rr_wr6 : List (Ref sig .tc) :=
  [main_call4_v0, main_call4_cst, main_call4_v1, main_call4_v2, main_v91, main_cst_18, main_v92, main_v93, main_v94, main_v95]

set_option maxRecDepth 4096 in
/-- The operations 123 to 132 leave a buffer they do not write as it was. -/
theorem rr_s6_keep (W : Valuation τ sig (Elt F)) {r : Ref sig .tc} (hr : r ∉ rr_wr6) :
    after ((ops.drop 123).take 10) W (Proc.devRef .tc r) = W (Proc.devRef .tc r) :=
  after_of_writes_sub _ W (by
    simp only [ops, List.drop_succ_cons, List.drop_zero, List.take_succ_cons, List.take_zero, List.Forall, nullary_writes, unary_writes, binary_writes, ternary_writes,
      reshape_writes, Finset.singleton_subset_iff, List.mem_toFinset]
    repeat' apply And.intro
    all_goals exact List.mem_map_of_mem (by decide)) hr

set_option maxRecDepth 4096 in
/-- The third layer's row normalization. -/
theorem rr_s6_v95 (W : Valuation τ sig (Elt F)) {x0 : (⟨S100000x64, .f32⟩ : BufTy).Contents (Elt F)} {x1 : (⟨S2x1200000, .i32⟩ : BufTy).Contents (Elt F)} {x2 x3 : (⟨S64x64, .f32⟩ : BufTy).Contents (Elt F)} {x4 : (⟨S64, .f32⟩ : BufTy).Contents (Elt F)} {x5 x6 : (⟨S64x32, .f32⟩ : BufTy).Contents (Elt F)} {x7 : (⟨S32, .f32⟩ : BufTy).Contents (Elt F)} {x8 x9 : (⟨S32x10, .f32⟩ : BufTy).Contents (Elt F)} {x10 : (⟨S10, .f32⟩ : BufTy).Contents (Elt F)}
    (h90 : W (Proc.devRef .tc main_v90) = val_main_v90 x0 x1 x2 x3 x4 x5 x6 x7 x8 x9 x10) :
    after ((ops.drop 123).take 10) W (Proc.devRef .tc main_v95) = val_main_v95 x0 x1 x2 x3 x4 x5 x6 x7 x8 x9 x10 := by
  simp only [ops, List.drop_succ_cons, List.drop_zero, List.take_succ_cons, List.take_zero]
  after_results_simp
  simp only [rr_ofBuf_toBuf]
  simp only [h90]
  rfl

/-- The buffers written by the operations 133 to 147. -/
abbrev rr_wr7 : List (Ref sig .tc) :=
  [main_call5_cst, main_call5_v0, main_call5_cst_0, main_call5_v1, main_call5_v2, main_call5_v3, main_call5_v4, main_call5_v5, main_call5_v6, main_call5_cst_1, main_call5_v7, main_call5_v8, main_call5_v9, main_call5_v10, main_v96]

set_option maxRecDepth 4096 in
/-- The operations 133 to 147 leave a buffer they do not write as it was. -/
theorem rr_s7_keep (W : Valuation τ sig (Elt F)) {r : Ref sig .tc} (hr : r ∉ rr_wr7) :
    after (ops.drop 133) W (Proc.devRef .tc r) = W (Proc.devRef .tc r) :=
  after_of_writes_sub _ W (by
    simp only [ops, List.drop_succ_cons, List.drop_zero, List.take_succ_cons, List.take_zero, List.Forall, nullary_writes, unary_writes, binary_writes, ternary_writes,
      reshape_writes, Finset.singleton_subset_iff, List.mem_toFinset]
    repeat' apply And.intro
    all_goals exact List.mem_map_of_mem (by decide)) hr

set_option maxRecDepth 4096 in
/-- The logarithm of the row-wise softmax. -/
theorem rr_s7_v96 (W : Valuation τ sig (Elt F)) {x0 : (⟨S100000x64, .f32⟩ : BufTy).Contents (Elt F)} {x1 : (⟨S2x1200000, .i32⟩ : BufTy).Contents (Elt F)} {x2 x3 : (⟨S64x64, .f32⟩ : BufTy).Contents (Elt F)} {x4 : (⟨S64, .f32⟩ : BufTy).Contents (Elt F)} {x5 x6 : (⟨S64x32, .f32⟩ : BufTy).Contents (Elt F)} {x7 : (⟨S32, .f32⟩ : BufTy).Contents (Elt F)} {x8 x9 : (⟨S32x10, .f32⟩ : BufTy).Contents (Elt F)} {x10 : (⟨S10, .f32⟩ : BufTy).Contents (Elt F)}
    (h95 : W (Proc.devRef .tc main_v95) = val_main_v95 x0 x1 x2 x3 x4 x5 x6 x7 x8 x9 x10) :
    after (ops.drop 133) W (Proc.devRef .tc main_v96) = val_main_v96 x0 x1 x2 x3 x4 x5 x6 x7 x8 x9 x10 := by
  simp only [ops, List.drop_succ_cons, List.drop_zero, List.take_succ_cons, List.take_zero]
  after_results_simp
  simp only [rr_ofBuf_toBuf]
  simp only [h95]
  rfl

/-! ## The memory at each cut

The facts about the memory that the later stretches read, after each of the first five stretches: each stretch's step takes
the facts before it to the facts after it, the stretch's own result by the stretch's lemma and every other buffer because
the stretch does not write it. -/

/-- What the memory holds once the index vectors are read: their two stages, and the arguments the layers read. -/
structure rr_Cut1 (W : Valuation τ sig (Elt F)) (x0 : (⟨S100000x64, .f32⟩ : BufTy).Contents (Elt F)) (x1 : (⟨S2x1200000, .i32⟩ : BufTy).Contents (Elt F)) (x2 x3 : (⟨S64x64, .f32⟩ : BufTy).Contents (Elt F)) (x4 : (⟨S64, .f32⟩ : BufTy).Contents (Elt F)) (x5 x6 : (⟨S64x32, .f32⟩ : BufTy).Contents (Elt F)) (x7 : (⟨S32, .f32⟩ : BufTy).Contents (Elt F)) (x8 x9 : (⟨S32x10, .f32⟩ : BufTy).Contents (Elt F)) (x10 : (⟨S10, .f32⟩ : BufTy).Contents (Elt F)) : Prop where
  h1 : W (Proc.devRef .tc main_v1) = val_main_v1 x1
  h3 : W (Proc.devRef .tc main_v3) = val_main_v3 x1
  a0 : W (Proc.devRef .tc main_arg0) = x0
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10

/-- From the launch memory to the first cut. -/
theorem rr_cut1 (W : Valuation τ sig (Elt F)) {x0 : (⟨S100000x64, .f32⟩ : BufTy).Contents (Elt F)} {x1 : (⟨S2x1200000, .i32⟩ : BufTy).Contents (Elt F)} {x2 x3 : (⟨S64x64, .f32⟩ : BufTy).Contents (Elt F)} {x4 : (⟨S64, .f32⟩ : BufTy).Contents (Elt F)} {x5 x6 : (⟨S64x32, .f32⟩ : BufTy).Contents (Elt F)} {x7 : (⟨S32, .f32⟩ : BufTy).Contents (Elt F)} {x8 x9 : (⟨S32x10, .f32⟩ : BufTy).Contents (Elt F)} {x10 : (⟨S10, .f32⟩ : BufTy).Contents (Elt F)}
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8) (a9 : W (Proc.devRef .tc main_arg9) = x9) (a10 : W (Proc.devRef .tc main_arg10) = x10) :
    rr_Cut1 (after (ops.take 4) W) x0 x1 x2 x3 x4 x5 x6 x7 x8 x9 x10 where
  h1 := rr_s0_v1 W a1
  h3 := rr_s0_v3 W a1
  a0 := (rr_s0_keep W (by decide)).trans a0
  a2 := (rr_s0_keep W (by decide)).trans a2
  a3 := (rr_s0_keep W (by decide)).trans a3
  a4 := (rr_s0_keep W (by decide)).trans a4
  a5 := (rr_s0_keep W (by decide)).trans a5
  a6 := (rr_s0_keep W (by decide)).trans a6
  a7 := (rr_s0_keep W (by decide)).trans a7
  a8 := (rr_s0_keep W (by decide)).trans a8
  a9 := (rr_s0_keep W (by decide)).trans a9
  a10 := (rr_s0_keep W (by decide)).trans a10

/-- What the memory holds before the first layer's row normalization. -/
structure rr_Cut2 (W : Valuation τ sig (Elt F)) (x0 : (⟨S100000x64, .f32⟩ : BufTy).Contents (Elt F)) (x1 : (⟨S2x1200000, .i32⟩ : BufTy).Contents (Elt F)) (x2 x3 : (⟨S64x64, .f32⟩ : BufTy).Contents (Elt F)) (x4 : (⟨S64, .f32⟩ : BufTy).Contents (Elt F)) (x5 x6 : (⟨S64x32, .f32⟩ : BufTy).Contents (Elt F)) (x7 : (⟨S32, .f32⟩ : BufTy).Contents (Elt F)) (x8 x9 : (⟨S32x10, .f32⟩ : BufTy).Contents (Elt F)) (x10 : (⟨S10, .f32⟩ : BufTy).Contents (Elt F)) : Prop where
  h1 : W (Proc.devRef .tc main_v1) = val_main_v1 x1
  h3 : W (Proc.devRef .tc main_v3) = val_main_v3 x1
  h28 : W (Proc.devRef .tc main_v28) = val_main_v28 x0 x1 x2 x3 x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10

/-- From the first cut to the next. -/
theorem rr_cut2 (W : Valuation τ sig (Elt F)) {x0 : (⟨S100000x64, .f32⟩ : BufTy).Contents (Elt F)} {x1 : (⟨S2x1200000, .i32⟩ : BufTy).Contents (Elt F)} {x2 x3 : (⟨S64x64, .f32⟩ : BufTy).Contents (Elt F)} {x4 : (⟨S64, .f32⟩ : BufTy).Contents (Elt F)} {x5 x6 : (⟨S64x32, .f32⟩ : BufTy).Contents (Elt F)} {x7 : (⟨S32, .f32⟩ : BufTy).Contents (Elt F)} {x8 x9 : (⟨S32x10, .f32⟩ : BufTy).Contents (Elt F)} {x10 : (⟨S10, .f32⟩ : BufTy).Contents (Elt F)}
    (c : rr_Cut1 W x0 x1 x2 x3 x4 x5 x6 x7 x8 x9 x10) :
    rr_Cut2 (after ((ops.drop 4).take 31) W) x0 x1 x2 x3 x4 x5 x6 x7 x8 x9 x10 where
  h1 := (rr_s1_keep W (by decide)).trans c.h1
  h3 := (rr_s1_keep W (by decide)).trans c.h3
  h28 := rr_s1_v28 W c.h1 c.h3 c.a0 c.a2 c.a3 c.a4
  a5 := (rr_s1_keep W (by decide)).trans c.a5
  a6 := (rr_s1_keep W (by decide)).trans c.a6
  a7 := (rr_s1_keep W (by decide)).trans c.a7
  a8 := (rr_s1_keep W (by decide)).trans c.a8
  a9 := (rr_s1_keep W (by decide)).trans c.a9
  a10 := (rr_s1_keep W (by decide)).trans c.a10

/-- What the memory holds after the first layer. -/
structure rr_Cut3 (W : Valuation τ sig (Elt F)) (x0 : (⟨S100000x64, .f32⟩ : BufTy).Contents (Elt F)) (x1 : (⟨S2x1200000, .i32⟩ : BufTy).Contents (Elt F)) (x2 x3 : (⟨S64x64, .f32⟩ : BufTy).Contents (Elt F)) (x4 : (⟨S64, .f32⟩ : BufTy).Contents (Elt F)) (x5 x6 : (⟨S64x32, .f32⟩ : BufTy).Contents (Elt F)) (x7 : (⟨S32, .f32⟩ : BufTy).Contents (Elt F)) (x8 x9 : (⟨S32x10, .f32⟩ : BufTy).Contents (Elt F)) (x10 : (⟨S10, .f32⟩ : BufTy).Contents (Elt F)) : Prop where
  h1 : W (Proc.devRef .tc main_v1) = val_main_v1 x1
  h3 : W (Proc.devRef .tc main_v3) = val_main_v3 x1
  h34 : W (Proc.devRef .tc main_v34) = val_main_v34 x0 x1 x2 x3 x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10

/-- From the second cut to the next. -/
theorem rr_cut3 (W : Valuation τ sig (Elt F)) {x0 : (⟨S100000x64, .f32⟩ : BufTy).Contents (Elt F)} {x1 : (⟨S2x1200000, .i32⟩ : BufTy).Contents (Elt F)} {x2 x3 : (⟨S64x64, .f32⟩ : BufTy).Contents (Elt F)} {x4 : (⟨S64, .f32⟩ : BufTy).Contents (Elt F)} {x5 x6 : (⟨S64x32, .f32⟩ : BufTy).Contents (Elt F)} {x7 : (⟨S32, .f32⟩ : BufTy).Contents (Elt F)} {x8 x9 : (⟨S32x10, .f32⟩ : BufTy).Contents (Elt F)} {x10 : (⟨S10, .f32⟩ : BufTy).Contents (Elt F)}
    (c : rr_Cut2 W x0 x1 x2 x3 x4 x5 x6 x7 x8 x9 x10) :
    rr_Cut3 (after ((ops.drop 35).take 13) W) x0 x1 x2 x3 x4 x5 x6 x7 x8 x9 x10 where
  h1 := (rr_s2_keep W (by decide)).trans c.h1
  h3 := (rr_s2_keep W (by decide)).trans c.h3
  h34 := rr_s2_v34 W c.h28
  a5 := (rr_s2_keep W (by decide)).trans c.a5
  a6 := (rr_s2_keep W (by decide)).trans c.a6
  a7 := (rr_s2_keep W (by decide)).trans c.a7
  a8 := (rr_s2_keep W (by decide)).trans c.a8
  a9 := (rr_s2_keep W (by decide)).trans c.a9
  a10 := (rr_s2_keep W (by decide)).trans c.a10

/-- What the memory holds before the second layer's row normalization. -/
structure rr_Cut4 (W : Valuation τ sig (Elt F)) (x0 : (⟨S100000x64, .f32⟩ : BufTy).Contents (Elt F)) (x1 : (⟨S2x1200000, .i32⟩ : BufTy).Contents (Elt F)) (x2 x3 : (⟨S64x64, .f32⟩ : BufTy).Contents (Elt F)) (x4 : (⟨S64, .f32⟩ : BufTy).Contents (Elt F)) (x5 x6 : (⟨S64x32, .f32⟩ : BufTy).Contents (Elt F)) (x7 : (⟨S32, .f32⟩ : BufTy).Contents (Elt F)) (x8 x9 : (⟨S32x10, .f32⟩ : BufTy).Contents (Elt F)) (x10 : (⟨S10, .f32⟩ : BufTy).Contents (Elt F)) : Prop where
  h1 : W (Proc.devRef .tc main_v1) = val_main_v1 x1
  h3 : W (Proc.devRef .tc main_v3) = val_main_v3 x1
  h59 : W (Proc.devRef .tc main_v59) = val_main_v59 x0 x1 x2 x3 x4 x5 x6 x7
  a8 : W (Proc.devRef .tc main_arg8) = x8
  a9 : W (Proc.devRef .tc main_arg9) = x9
  a10 : W (Proc.devRef .tc main_arg10) = x10

/-- From the third cut to the next. -/
theorem rr_cut4 (W : Valuation τ sig (Elt F)) {x0 : (⟨S100000x64, .f32⟩ : BufTy).Contents (Elt F)} {x1 : (⟨S2x1200000, .i32⟩ : BufTy).Contents (Elt F)} {x2 x3 : (⟨S64x64, .f32⟩ : BufTy).Contents (Elt F)} {x4 : (⟨S64, .f32⟩ : BufTy).Contents (Elt F)} {x5 x6 : (⟨S64x32, .f32⟩ : BufTy).Contents (Elt F)} {x7 : (⟨S32, .f32⟩ : BufTy).Contents (Elt F)} {x8 x9 : (⟨S32x10, .f32⟩ : BufTy).Contents (Elt F)} {x10 : (⟨S10, .f32⟩ : BufTy).Contents (Elt F)}
    (c : rr_Cut3 W x0 x1 x2 x3 x4 x5 x6 x7 x8 x9 x10) :
    rr_Cut4 (after ((ops.drop 48).take 31) W) x0 x1 x2 x3 x4 x5 x6 x7 x8 x9 x10 where
  h1 := (rr_s3_keep W (by decide)).trans c.h1
  h3 := (rr_s3_keep W (by decide)).trans c.h3
  h59 := rr_s3_v59 W c.h1 c.h3 c.h34 c.a5 c.a6 c.a7
  a8 := (rr_s3_keep W (by decide)).trans c.a8
  a9 := (rr_s3_keep W (by decide)).trans c.a9
  a10 := (rr_s3_keep W (by decide)).trans c.a10

/-- What the memory holds after the second layer. -/
structure rr_Cut5 (W : Valuation τ sig (Elt F)) (x0 : (⟨S100000x64, .f32⟩ : BufTy).Contents (Elt F)) (x1 : (⟨S2x1200000, .i32⟩ : BufTy).Contents (Elt F)) (x2 x3 : (⟨S64x64, .f32⟩ : BufTy).Contents (Elt F)) (x4 : (⟨S64, .f32⟩ : BufTy).Contents (Elt F)) (x5 x6 : (⟨S64x32, .f32⟩ : BufTy).Contents (Elt F)) (x7 : (⟨S32, .f32⟩ : BufTy).Contents (Elt F)) (x8 x9 : (⟨S32x10, .f32⟩ : BufTy).Contents (Elt F)) (x10 : (⟨S10, .f32⟩ : BufTy).Contents (Elt F)) : Prop where
  h1 : W (Proc.devRef .tc main_v1) = val_main_v1 x1
  h3 : W (Proc.devRef .tc main_v3) = val_main_v3 x1
  h65 : W (Proc.devRef .tc main_v65) = val_main_v65 x0 x1 x2 x3 x4 x5 x6 x7
  a8 : W (Proc.devRef .tc main_arg8) = x8
  a9 : W (Proc.devRef .tc main_arg9) = x9
  a10 : W (Proc.devRef .tc main_arg10) = x10

/-- From the fourth cut to the next. -/
theorem rr_cut5 (W : Valuation τ sig (Elt F)) {x0 : (⟨S100000x64, .f32⟩ : BufTy).Contents (Elt F)} {x1 : (⟨S2x1200000, .i32⟩ : BufTy).Contents (Elt F)} {x2 x3 : (⟨S64x64, .f32⟩ : BufTy).Contents (Elt F)} {x4 : (⟨S64, .f32⟩ : BufTy).Contents (Elt F)} {x5 x6 : (⟨S64x32, .f32⟩ : BufTy).Contents (Elt F)} {x7 : (⟨S32, .f32⟩ : BufTy).Contents (Elt F)} {x8 x9 : (⟨S32x10, .f32⟩ : BufTy).Contents (Elt F)} {x10 : (⟨S10, .f32⟩ : BufTy).Contents (Elt F)}
    (c : rr_Cut4 W x0 x1 x2 x3 x4 x5 x6 x7 x8 x9 x10) :
    rr_Cut5 (after ((ops.drop 79).take 13) W) x0 x1 x2 x3 x4 x5 x6 x7 x8 x9 x10 where
  h1 := (rr_s4_keep W (by decide)).trans c.h1
  h3 := (rr_s4_keep W (by decide)).trans c.h3
  h65 := rr_s4_v65 W c.h59
  a8 := (rr_s4_keep W (by decide)).trans c.a8
  a9 := (rr_s4_keep W (by decide)).trans c.a9
  a10 := (rr_s4_keep W (by decide)).trans c.a10

/-! ## The run -/

/-- The fold of the whole program from a memory `V` leaves the last stage of `V`'s argument arrays in the result buffer. -/
theorem rr_result (V : Valuation τ sig (Elt F)) :
    after ops V (Proc.devRef .tc main_v96) = val_main_v96 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  have c1 := rr_cut1 V rfl rfl rfl rfl rfl rfl rfl rfl rfl rfl rfl
  have c2 := rr_cut2 _ c1
  have c3 := rr_cut3 _ c2
  have c4 := rr_cut4 _ c3
  have c5 := rr_cut5 _ c4
  have c6 := rr_s5_v90 _ c5.h1 c5.h3 c5.h65 c5.a8 c5.a9 c5.a10
  have c7 := rr_s6_v95 _ c6
  rw [rr_fold]
  exact rr_s7_v96 _ c7

/-- The buffers the program writes. -/
abbrev rr_written : List (Ref sig .tc) :=
  rr_wr0 ++ (rr_wr1 ++ (rr_wr2 ++ (rr_wr3 ++ (rr_wr4 ++ (rr_wr5 ++ (rr_wr6 ++ rr_wr7))))))

/-- The fold of the whole program leaves a buffer the program does not write as it was. -/
theorem rr_keep (V : Valuation τ sig (Elt F)) {r : Ref sig .tc} (hr : r ∉ rr_written) :
    after ops V (Proc.devRef .tc r) = V (Proc.devRef .tc r) := by
  simp only [rr_written, List.mem_append, not_or] at hr
  obtain ⟨h0, h1, h2, h3, h4, h5, h6, h7⟩ := hr
  rw [rr_fold, rr_s7_keep _ h7, rr_s6_keep _ h6, rr_s5_keep _ h5, rr_s4_keep _ h4, rr_s3_keep _ h3, rr_s2_keep _ h2,
    rr_s1_keep _ h1, rr_s0_keep _ h0]

/-- The reference's run: the result is the last stage of the argument arrays; the arguments end as launched. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = val_main_v96 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v96).trans (rr_result _),
      (h c main_arg0).trans (rr_keep _ (by decide)),
      (h c main_arg1).trans (rr_keep _ (by decide)),
      (h c main_arg2).trans (rr_keep _ (by decide)),
      (h c main_arg3).trans (rr_keep _ (by decide)),
      (h c main_arg4).trans (rr_keep _ (by decide)),
      (h c main_arg5).trans (rr_keep _ (by decide)),
      (h c main_arg6).trans (rr_keep _ (by decide)),
      (h c main_arg7).trans (rr_keep _ (by decide)),
      (h c main_arg8).trans (rr_keep _ (by decide)),
      (h c main_arg9).trans (rr_keep _ (by decide)),
      (h c main_arg10).trans (rr_keep _ (by decide))⟩)
    (run_raw m ρ)

end Cert.RefRun

end
-- ==== Proof.lean ====
/-
  A three-layer graph network (mean aggregation over the in-neighbours, two weight matrices and a bias per layer, rows
  divided by their Euclidean norm floored at a small constant, `max · 0` after the first two layers and the logarithm of
  the softmax after the third) computed two ways: by a program that gathers and scatter-adds the edges' features on the
  host and runs each layer's dense part as a pipelined kernel over blocks of 4000 nodes, and by a host program that does
  everything with whole-array operations. On the extended reals the two results are equal, entry by entry, for every
  input: no finiteness is used.

  * The kernel program's run ends with its result array at the last segment boundary's contents (KRun), which read back
    to the launch memory are three nested layers `kterm` (KFold) once each region's output array is known to be the
    layer function of the region's input arrays (Blocks: the 25 blocks of rows cover the array and an entry of a layer
    depends on its own row only; Pay: what a kernel body stores is the layer on the block's rows).
  * The reference's run ends with its result at its last stage (RefRun), and each of its three layer stages is the same
    layer function of the summed features, the previous layer and the reciprocal degrees (RefLayers).
  * The two composed terms are equal (Bridge): a change of float format is the identity, the mean as a product with
    `1 / max c 1` is the quotient by `max c 1` because the divisor is at least one, the bias may be added before or
    after the second product, and a maximum taken once more against −∞ changes nothing (Spec).
  The frames of the two kernel programs are the launch over their segments; the reference's is its run with the result
  forgotten. The ideal pass rewrote nothing, so there is nothing to preserve.
-/
import proofs.«159893_j54039278518913_2_alg».proof.Defs
import proofs.«159893_j54039278518913_2_alg».proof.Proof.Gen.Kernel
import proofs.«159893_j54039278518913_2_alg».proof.Proof.Gen.KernelIdeal
import proofs.«159893_j54039278518913_2_alg».proof.Proof.Gen.ReferenceIdeal
import proofs.«159893_j54039278518913_2_alg».proof.Proof.Gen.Pre_finite_inputs
import proofs.«159893_j54039278518913_2_alg».proof.Proof.PKernelFrame
import proofs.«159893_j54039278518913_2_alg».proof.Proof.PKernelIdealFrame
import proofs.«159893_j54039278518913_2_alg».proof.Proof.KRun
import proofs.«159893_j54039278518913_2_alg».proof.Proof.KFold
import proofs.«159893_j54039278518913_2_alg».proof.Proof.Blocks
import proofs.«159893_j54039278518913_2_alg».proof.Proof.Bridge
import proofs.«159893_j54039278518913_2_alg».proof.Proof.RefRun
import Idealize.ShloMosaic.Adequacy
import Idealize.ShloMosaic.Init

noncomputable section

namespace Cert.Proof

open Idealize.ShloMosaic Idealize.ShloMosaic.TcCoe Idealize.SL.Sem Cert.Sage

/-- The idealized kernel program's run: its result array ends at the reference's last stage of the argument arrays. -/
theorem kernel_val (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v52)
        = Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run (Cert.KernelIdeal.defs (F := Ideal)) _ _).mono
    (fun _ h c => ⟨((h c).1.trans (Cert.KernelIdeal.Fold.fold (F := Ideal) (layerRelu 100000 64 64) (layerRelu 100000 64 32)
        (layerLsm 100000 32 10) m ρ c (fun V c => Cert.KernelIdeal.Blocks.arr0 V c) (fun V c => Cert.KernelIdeal.Blocks.arr1 V c)
        (fun V c => Cert.KernelIdeal.Blocks.arr2 V c))).trans (Cert.Bridge.bridge _ _ _ _ _ _ _ _ _ _ _), (h c).2⟩)
    (Cert.KernelIdeal.RunVal.run_val (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run (Cert.ReferenceIdeal.defs (F := Ideal)) _ _).mono (fun _ h c => (h c).2) (Cert.RefRun.ref_run (F := Ideal) m ρ)

/-- The two idealized programs, run from memories that agree on the arguments, end with the same result array. -/
theorem algebraic : Cert.algebraic_KernelIdeal_ReferenceIdeal := by
  intro m ρ m' ρ' _ hagree
  refine ⟨_, kernel_val m ρ, ?_⟩
  refine (θ_run (Cert.ReferenceIdeal.defs (F := Ideal)) _ _).mono (fun _ h c => ⟨(h c).1.trans ?_, (h c).2⟩)
    (Cert.RefRun.ref_run (F := Ideal) m' ρ')
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
